-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x256 : Shape := ⟨3, ![256, 512, 256]⟩
abbrev S256x256 : Shape := ⟨2, ![256, 256]⟩
abbrev S768x256 : Shape := ⟨2, ![768, 256]⟩
abbrev S256 : Shape := ⟨1, ![256]⟩
abbrev S_ : Shape := ⟨0, ![]⟩

class Facts : Prop where
  bcast_S_S256x512x256 : S_.BroadcastsInDim S256x512x256 (![] : Fin 0 → Fin S256x512x256.rank)
  reducesTo_S256x512x256_S_d0_1_2 : S256x512x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x512x256 .f32) (main_arg1 : FVec F S256x256 .f32) (main_arg2 : FVec F S768x256 .f32) (main_arg3 : FVec F S256x256 .f32) (main_arg4 : FVec F S256 .f32) : IVec S_ 1 :=
  let main_v0 : FVec F S256x512x256 .f32 := Host.absf main_arg0
  let main_cst : FVec F S_ .f32 := constant S_ .f32 0x7F800000#32
  let main_v1 : FVec F S256x512x256 .f32 := broadcastInDim S256x512x256 ![] bcast_S_S256x512x256 main_cst
  let main_v2 : IVec S256x512x256 1 := cmpf .olt main_v0 main_v1
  let main_c : IVec S_ 1 := constantI S_ 1 1#1
  let main_v3 : IVec S_ 1 := (fun x v => Host.reduce IntOp.andi x v reducesTo_S256x512x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S256x512x256 : Shape := ⟨3, ![256, 512, 256]⟩
abbrev S256x256 : Shape := ⟨2, ![256, 256]⟩
abbrev S768x256 : Shape := ⟨2, ![768, 256]⟩
abbrev S256 : Shape := ⟨1, ![256]⟩
abbrev S1x256 : Shape := ⟨2, ![1, 256]⟩
abbrev S131072x256 : Shape := ⟨2, ![131072, 256]⟩
abbrev S131072x768 : Shape := ⟨2, ![131072, 768]⟩
abbrev S4096x256 : Shape := ⟨2, ![4096, 256]⟩
abbrev S4096x768 : Shape := ⟨2, ![4096, 768]⟩
abbrev S256x512x3x8x32 : Shape := ⟨5, ![256, 512, 3, 8, 32]⟩
abbrev S3x8x512x256x32 : Shape := ⟨5, ![3, 8, 512, 256, 32]⟩
abbrev S8x512x256x32 : Shape := ⟨4, ![8, 512, 256, 32]⟩
abbrev S1x1x32x256x32 : Shape := ⟨5, ![1, 1, 32, 256, 32]⟩
abbrev S1x32x256x32 : Shape := ⟨4, ![1, 32, 256, 32]⟩
abbrev S1x1x1x256x32 : Shape := ⟨5, ![1, 1, 1, 256, 32]⟩
abbrev S256x32 : Shape := ⟨2, ![256, 32]⟩
abbrev S32x256 : Shape := ⟨2, ![32, 256]⟩
abbrev S256x1 : Shape := ⟨2, ![256, 1]⟩
abbrev S1x1x256x32 : Shape := ⟨4, ![1, 1, 256, 32]⟩
abbrev S256x512x8x32 : Shape := ⟨4, ![256, 512, 8, 32]⟩

abbrev nBuf : Space → Nat
  | .hbm => 17
  | .vmem => 20
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S768x256, .bf16⟩
  | .hbm, ⟨6, _⟩ => ⟨S256x256, .bf16⟩
  | .hbm, ⟨7, _⟩ => ⟨S1x256, .f32⟩
  | .hbm, ⟨8, _⟩ => ⟨S131072x256, .f32⟩
  | .hbm, ⟨9, _⟩ => ⟨S131072x768, .bf16⟩
  | .hbm, ⟨10, _⟩ => ⟨S256x512x3x8x32, .bf16⟩
  | .hbm, ⟨11, _⟩ => ⟨S3x8x512x256x32, .bf16⟩
  | .hbm, ⟨12, _⟩ => ⟨S8x512x256x32, .bf16⟩
  | .hbm, ⟨13, _⟩ => ⟨S256x512x8x32, .bf16⟩
  | .hbm, ⟨14, _⟩ => ⟨S131072x256, .bf16⟩
  | .hbm, ⟨15, _⟩ => ⟨S131072x256, .f32⟩
  | .hbm, ⟨16, _⟩ => ⟨S256x512x256, .f32⟩
  | .local _ .vmem, ⟨0, _⟩ => ⟨S4096x256, .f32⟩
  | .local _ .vmem, ⟨1, _⟩ => ⟨S4096x256, .f32⟩
  | .local _ .vmem, ⟨2, _⟩ => ⟨S768x256, .bf16⟩
  | .local _ .vmem, ⟨3, _⟩ => ⟨S4096x768, .bf16⟩
  | .local _ .vmem, ⟨4, _⟩ => ⟨S4096x768, .bf16⟩
  | .local _ .vmem, ⟨5, _⟩ => ⟨S1x1x32x256x32, .bf16⟩
  | .local _ .vmem, ⟨6, _⟩ => ⟨S1x1x32x256x32, .bf16⟩
  | .local _ .vmem, ⟨7, _⟩ => ⟨S1x1x32x256x32, .bf16⟩
  | .local _ .vmem, ⟨8, _⟩ => ⟨S1x1x32x256x32, .bf16⟩
  | .local _ .vmem, ⟨9, _⟩ => ⟨S1x1x32x256x32, .bf16⟩
  | .local _ .vmem, ⟨10, _⟩ => ⟨S1x1x32x256x32, .bf16⟩
  | .local _ .vmem, ⟨11, _⟩ => ⟨S256x256, .f32⟩
  | .local _ .vmem, ⟨12, _⟩ => ⟨S1x32x256x32, .bf16⟩
  | .local _ .vmem, ⟨13, _⟩ => ⟨S1x32x256x32, .bf16⟩
  | .local _ .vmem, ⟨14, _⟩ => ⟨S4096x256, .bf16⟩
  | .local _ .vmem, ⟨15, _⟩ => ⟨S4096x256, .bf16⟩
  | .local _ .vmem, ⟨16, _⟩ => ⟨S256x256, .bf16⟩
  | .local _ .vmem, ⟨17, _⟩ => ⟨S1x256, .f32⟩
  | .local _ .vmem, ⟨18, _⟩ => ⟨S4096x256, .f32⟩
  | .local _ .vmem, ⟨19, _⟩ => ⟨S4096x256, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

@[reducible] def k1_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k1_off1 (k1_t1 : Fin k1_t1_loop.trips) : Fin 5 → Nat :=
  let c0_2 : Index := 0#32
  let c0_3 : Index := 0#32
  let c0_i32 : BitVec 32 := 0#32
  let c1_i32 : BitVec 32 := 1#32
  let arg7 : BitVec 32 := Scf.iv c0_i32 c1_i32 k1_t1
  let v2 : Index := Scalar.indexCast arg7
  let c0_4 : Index := 0#32
  let c0_5 : Index := 0#32
  ![0, 0, v2.toNat, 0, 0]
def k1_off2 (k1_t1 : Fin k1_t1_loop.trips) : Fin 4 → Nat :=
  let c0_19 : Index := 0#32
  let c0_i32 : BitVec 32 := 0#32
  let c1_i32 : BitVec 32 := 1#32
  let arg7 : BitVec 32 := Scf.iv c0_i32 c1_i32 k1_t1
  let v30 : Index := Scalar.indexCast arg7
  let c0_20 : Index := 0#32
  let c0_21 : Index := 0#32
  ![0, v30.toNat, 0, 0]
def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x32x256x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32x256x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x32x256x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x32x256x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S256_S1x256 : S256.ShapeCasts S1x256
  shapeCasts_S256x512x256_S131072x256 : S256x512x256.ShapeCasts S131072x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S4096x768_S4096x768_0_0 : ∀ a, (![0, 0] : Fin 2 → Nat) a + S4096x768.size a ≤ S4096x768.size a
  h_S4096x768 : 0 < S4096x768.numel
  packedbf16_S4096x768_S4096x768_0_0 : (Rect.unit (s := S4096x768) ![0, 0] S4096x768.size inb_S4096x768_S4096x768_0_0).PackedRows (EltTy.packing .bf16)
  shapeCasts_S131072x768_S256x512x3x8x32 : S131072x768.ShapeCasts S256x512x3x8x32
  transposes_S256x512x3x8x32_S3x8x512x256x32_2_3_1_0_4 : S256x512x3x8x32.Transposes [2, 3, 1, 0, 4] S3x8x512x256x32
  inb_S256x256_S256x256_0_0 : ∀ a, (![0, 0] : Fin 2 → Nat) a + S256x256.size a ≤ S256x256.size a
  h_S256x256 : 0 < S256x256.numel
  h_S1x1x1x256x32 : 0 < S1x1x1x256x32.numel
  shapeCasts_S1x1x1x256x32_S256x32 : S1x1x1x256x32.ShapeCasts S256x32
  transposes_S256x32_p1_0_S32x256 : S256x32.Transposes [1, 0] S32x256
  reduces_S256x256_S256 : S256x256.Reduces [1] S256
  shapeCasts_S256_S256x1 : S256.ShapeCasts S256x1
  broadcasts_S256x1_S256x256 : S256x1.Broadcasts S256x256
  h_S1x1x256x32 : 0 < S1x1x256x32.numel
  shapeCasts_S1x1x256x32_S256x32 : S1x1x256x32.ShapeCasts S256x32
  shapeCasts_S256x32_S1x1x256x32 : S256x32.ShapeCasts S1x1x256x32
  transposes_S8x512x256x32_S256x512x8x32_2_1_0_3 : S8x512x256x32.Transposes [2, 1, 0, 3] S256x512x8x32
  shapeCasts_S256x512x8x32_S131072x256 : S256x512x8x32.ShapeCasts S131072x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S131072x256_S256x512x256 : S131072x256.ShapeCasts S256x512x256
  dot_S4096x256_S768x256_S4096x768_1_1_0_0_n_n_wf : DotDims.WF S4096x256 S768x256 S4096x768 [1] [1] [0] [0] [] []
  dot_S256x32_S32x256_S256x256_1_0_0_1_n_n_wf : DotDims.WF S256x32 S32x256 S256x256 [1] [0] [0] [1] [] []
  dot_S256x256_S256x32_S256x32_1_0_0_1_n_n_wf : DotDims.WF S256x256 S256x32 S256x32 [1] [0] [0] [1] [] []
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x768.size a ≤ S131072x768.size a
  hwx0_2 : ∀ i : grid0.Coords, EltTy.bits .bf16 = 32 ∨ (Rect.block (s := S131072x768) S4096x768.size (cc0_transform_2 i) (hinb0_2 i)).WholeWords (EltTy.packing .bf16)
  hrank1 : 0 < grid1.rank
  k1_t1_ok : k1_t1_loop.OK
  k1_off1_inb : ∀ k1_t1 : Fin k1_t1_loop.trips, ∀ a, (k1_off1 k1_t1) a + S1x1x1x256x32.size a ≤ S1x1x32x256x32.size a
  k1_off2_inb : ∀ k1_t1 : Fin k1_t1_loop.trips, ∀ a, (k1_off2 k1_t1) a + S1x1x256x32.size a ≤ S1x32x256x32.size a
  k1_off2_packedbf16 : ∀ k1_t1 : Fin k1_t1_loop.trips, (Rect.unit (s := S1x32x256x32) (k1_off2 k1_t1) S1x1x256x32.size (k1_off2_inb k1_t1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x32x256x32.size a ≤ S3x8x512x256x32.size a
  hwx1_0 : ∀ i : grid1.Coords, EltTy.bits .bf16 = 32 ∨ (Rect.block (s := S3x8x512x256x32) S1x1x32x256x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32x256x32.size a ≤ S3x8x512x256x32.size a
  hwx1_1 : ∀ i : grid1.Coords, EltTy.bits .bf16 = 32 ∨ (Rect.block (s := S3x8x512x256x32) S1x1x32x256x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x32x256x32.size a ≤ S3x8x512x256x32.size a
  hwx1_2 : ∀ i : grid1.Coords, EltTy.bits .bf16 = 32 ∨ (Rect.block (s := S3x8x512x256x32) S1x1x32x256x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x256x32.size a ≤ S8x512x256x32.size a
  hwx1_4 : ∀ i : grid1.Coords, EltTy.bits .bf16 = 32 ∨ (Rect.block (s := S8x512x256x32) S1x32x256x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S131072x256.size a
  hwx2_0 : ∀ i : grid2.Coords, EltTy.bits .bf16 = 32 ∨ (Rect.block (s := S131072x256) S4096x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S131072x256.size a
  hwx2_3 : ∀ i : grid2.Coords, EltTy.bits .f32 = 32 ∨ (Rect.block (s := S131072x256) S4096x256.size (cc2_transform_3 i) (hinb2_3 i)).WholeWords (EltTy.packing .f32)

variable [Facts₀]

def dot_S4096x256_S768x256_S4096x768_1_1_0_0_n_n : DotDims S4096x256 S768x256 S4096x768 where
  lhsContracting := [1]
  rhsContracting := [1]
  lhsNonContracting := [0]
  rhsNonContracting := [0]
  lhsBatch := []
  rhsBatch := []
  wf := dot_S4096x256_S768x256_S4096x768_1_1_0_0_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_v3) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1x32x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x32x256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x32x256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x32x256x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v9) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S256x512x256 : Shape := ⟨3, ![256, 512, 256]⟩
abbrev S256x256 : Shape := ⟨2, ![256, 256]⟩
abbrev S768x256 : Shape := ⟨2, ![768, 256]⟩
abbrev S256 : Shape := ⟨1, ![256]⟩
abbrev S256x512x768 : Shape := ⟨3, ![256, 512, 768]⟩
abbrev S256x512x3x8x32 : Shape := ⟨5, ![256, 512, 3, 8, 32]⟩
abbrev S256x512x1x8x32 : Shape := ⟨5, ![256, 512, 1, 8, 32]⟩
abbrev S256x512x8x32 : Shape := ⟨4, ![256, 512, 8, 32]⟩
abbrev S8x512x256x32 : Shape := ⟨4, ![8, 512, 256, 32]⟩
abbrev S8x512x256x256 : Shape := ⟨4, ![8, 512, 256, 256]⟩
abbrev S_ : Shape := ⟨0, ![]⟩
abbrev S1x1x256x256 : Shape := ⟨4, ![1, 1, 256, 256]⟩
abbrev S8x512x256 : Shape := ⟨3, ![8, 512, 256]⟩
abbrev S8x512x256x1 : Shape := ⟨4, ![8, 512, 256, 1]⟩
abbrev S1x1x256 : Shape := ⟨3, ![1, 1, 256]⟩

abbrev nBuf : Space → Nat
  | .hbm => 44
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S256x512x768, .f32⟩
  | .hbm, ⟨6, _⟩ => ⟨S256x512x3x8x32, .f32⟩
  | .hbm, ⟨7, _⟩ => ⟨S256x512x1x8x32, .f32⟩
  | .hbm, ⟨8, _⟩ => ⟨S256x512x8x32, .f32⟩
  | .hbm, ⟨9, _⟩ => ⟨S8x512x256x32, .f32⟩
  | .hbm, ⟨10, _⟩ => ⟨S256x512x1x8x32, .f32⟩
  | .hbm, ⟨11, _⟩ => ⟨S256x512x8x32, .f32⟩
  | .hbm, ⟨12, _⟩ => ⟨S8x512x256x32, .f32⟩
  | .hbm, ⟨13, _⟩ => ⟨S256x512x1x8x32, .f32⟩
  | .hbm, ⟨14, _⟩ => ⟨S256x512x8x32, .f32⟩
  | .hbm, ⟨15, _⟩ => ⟨S8x512x256x32, .f32⟩
  | .hbm, ⟨16, _⟩ => ⟨S8x512x256x256, .f32⟩
  | .hbm, ⟨17, _⟩ => ⟨S_, .f32⟩
  | .hbm, ⟨18, _⟩ => ⟨S8x512x256x256, .f32⟩
  | .hbm, ⟨19, _⟩ => ⟨S8x512x256x256, .f32⟩
  | .hbm, ⟨20, _⟩ => ⟨S1x1x256x256, .f32⟩
  | .hbm, ⟨21, _⟩ => ⟨S8x512x256x256, .f32⟩
  | .hbm, ⟨22, _⟩ => ⟨S8x512x256x256, .f32⟩
  | .hbm, ⟨23, _⟩ => ⟨S_, .f32⟩
  | .hbm, ⟨24, _⟩ => ⟨S8x512x256, .f32⟩
  | .hbm, ⟨25, _⟩ => ⟨S_, .f32⟩
  | .hbm, ⟨26, _⟩ => ⟨S8x512x256, .f32⟩
  | .hbm, ⟨27, _⟩ => ⟨S8x512x256, .f32⟩
  | .hbm, ⟨28, _⟩ => ⟨S8x512x256x1, .f32⟩
  | .hbm, ⟨29, _⟩ => ⟨S8x512x256x256, .f32⟩
  | .hbm, ⟨30, _⟩ => ⟨S8x512x256x256, .f32⟩
  | .hbm, ⟨31, _⟩ => ⟨S8x512x256x256, .f32⟩
  | .hbm, ⟨32, _⟩ => ⟨S_, .f32⟩
  | .hbm, ⟨33, _⟩ => ⟨S8x512x256, .f32⟩
  | .hbm, ⟨34, _⟩ => ⟨S8x512x256x1, .f32⟩
  | .hbm, ⟨35, _⟩ => ⟨S8x512x256x256, .f32⟩
  | .hbm, ⟨36, _⟩ => ⟨S8x512x256x256, .f32⟩
  | .hbm, ⟨37, _⟩ => ⟨S8x512x256x32, .f32⟩
  | .hbm, ⟨38, _⟩ => ⟨S256x512x8x32, .f32⟩
  | .hbm, ⟨39, _⟩ => ⟨S256x512x256, .f32⟩
  | .hbm, ⟨40, _⟩ => ⟨S256x512x256, .f32⟩
  | .hbm, ⟨41, _⟩ => ⟨S1x1x256, .f32⟩
  | .hbm, ⟨42, _⟩ => ⟨S256x512x256, .f32⟩
  | .hbm, ⟨43, _⟩ => ⟨S256x512x256, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  shapeCasts_S256x512x768_S256x512x3x8x32 : S256x512x768.ShapeCasts S256x512x3x8x32
  slices_S256x512x3x8x32_S256x512x1x8x32_0_0_0_0_0 : S256x512x3x8x32.Slices ![0, 0, 0, 0, 0] S256x512x1x8x32
  shapeCasts_S256x512x1x8x32_S256x512x8x32 : S256x512x1x8x32.ShapeCasts S256x512x8x32
  transposes_S256x512x8x32_S8x512x256x32_2_1_0_3 : S256x512x8x32.Transposes [2, 1, 0, 3] S8x512x256x32
  slices_S256x512x3x8x32_S256x512x1x8x32_0_0_1_0_0 : S256x512x3x8x32.Slices ![0, 0, 1, 0, 0] S256x512x1x8x32
  slices_S256x512x3x8x32_S256x512x1x8x32_0_0_2_0_0 : S256x512x3x8x32.Slices ![0, 0, 2, 0, 0] S256x512x1x8x32
  bcast_S_S8x512x256x256 : S_.BroadcastsInDim S8x512x256x256 (![] : Fin 0 → Fin S8x512x256x256.rank)
  bcast_S256x256_S1x1x256x256_2_3 : S256x256.BroadcastsInDim S1x1x256x256 (![2, 3] : Fin 2 → Fin S1x1x256x256.rank)
  bcast_S1x1x256x256_S8x512x256x256_0_1_2_3 : S1x1x256x256.BroadcastsInDim S8x512x256x256 (![0, 1, 2, 3] : Fin 4 → Fin S8x512x256x256.rank)
  reducesTo_S8x512x256x256_S8x512x256_d3 : S8x512x256x256.ReducesTo [3] S8x512x256
  h_S_ : 0 < S_.numel
  bcast_S_S8x512x256 : S_.BroadcastsInDim S8x512x256 (![] : Fin 0 → Fin S8x512x256.rank)
  bcast_S8x512x256_S8x512x256x1_0_1_2 : S8x512x256.BroadcastsInDim S8x512x256x1 (![0, 1, 2] : Fin 3 → Fin S8x512x256x1.rank)
  bcast_S8x512x256x1_S8x512x256x256_0_1_2_3 : S8x512x256x1.BroadcastsInDim S8x512x256x256 (![0, 1, 2, 3] : Fin 4 → Fin S8x512x256x256.rank)
  transposes_S8x512x256x32_S256x512x8x32_2_1_0_3 : S8x512x256x32.Transposes [2, 1, 0, 3] S256x512x8x32
  shapeCasts_S256x512x8x32_S256x512x256 : S256x512x8x32.ShapeCasts S256x512x256
  bcast_S256_S1x1x256_2 : S256.BroadcastsInDim S1x1x256 (![2] : Fin 1 → Fin S1x1x256.rank)
  bcast_S1x1x256_S256x512x256_0_1_2 : S1x1x256.BroadcastsInDim S256x512x256 (![0, 1, 2] : Fin 3 → Fin S256x512x256.rank)
  dot_S256x512x256_S768x256_S256x512x768_2_1_01_0_n_n_wf : DotDims.WF S256x512x256 S768x256 S256x512x768 [2] [1] [0, 1] [0] [] []
  dot_S8x512x256x32_S8x512x256x32_S8x512x256x256_3_3_2_2_01_01_wf : DotDims.WF S8x512x256x32 S8x512x256x32 S8x512x256x256 [3] [3] [2] [2] [0, 1] [0, 1]
  dot_S8x512x256x256_S8x512x256x32_S8x512x256x32_3_2_2_3_01_01_wf : DotDims.WF S8x512x256x256 S8x512x256x32 S8x512x256x32 [3] [2] [2] [3] [0, 1] [0, 1]
  dot_S256x512x256_S256x256_S256x512x256_2_1_01_0_n_n_wf : DotDims.WF S256x512x256 S256x256 S256x512x256 [2] [1] [0, 1] [0] [] []

variable [Facts₀]

def dot_S256x512x256_S768x256_S256x512x768_2_1_01_0_n_n : DotDims S256x512x256 S768x256 S256x512x768 where
  lhsContracting := [2]
  rhsContracting := [1]
  lhsNonContracting := [0, 1]
  rhsNonContracting := [0]
  lhsBatch := []
  rhsBatch := []
  wf := dot_S256x512x256_S768x256_S256x512x768_2_1_01_0_n_n_wf
def dot_S8x512x256x32_S8x512x256x32_S8x512x256x256_3_3_2_2_01_01 : DotDims S8x512x256x32 S8x512x256x32 S8x512x256x256 where
  lhsContracting := [3]
  rhsContracting := [3]
  lhsNonContracting := [2]
  rhsNonContracting := [2]
  lhsBatch := [0, 1]
  rhsBatch := [0, 1]
  wf := dot_S8x512x256x32_S8x512x256x32_S8x512x256x256_3_3_2_2_01_01_wf
def dot_S8x512x256x256_S8x512x256x32_S8x512x256x32_3_2_2_3_01_01 : DotDims S8x512x256x256 S8x512x256x32 S8x512x256x32 where
  lhsContracting := [3]
  rhsContracting := [2]
  lhsNonContracting := [2]
  rhsNonContracting := [3]
  lhsBatch := [0, 1]
  rhsBatch := [0, 1]
  wf := dot_S8x512x256x256_S8x512x256x32_S8x512x256x32_3_2_2_3_01_01_wf
def dot_S256x512x256_S256x256_S256x512x256_2_1_01_0_n_n : DotDims S256x512x256 S256x256 S256x512x256 where
  lhsContracting := [2]
  rhsContracting := [1]
  lhsNonContracting := [0, 1]
  rhsNonContracting := [0]
  lhsBatch := []
  rhsBatch := []
  wf := dot_S256x512x256_S256x256_S256x512x256_2_1_01_0_n_n_wf

class Facts : Prop extends Facts₀ where

variable [Facts]
-- ==== Proof.K.R0.lean ====
/-
  The first kernel region: a block of 4096 rows of the flattened input times the whole projection matrix.
  At a grid point the body reads the point's block of rows and the whole [768, 256] matrix, and stores their product
  (each operand contracting its second axis) over the output's whole block; nothing is carried between points.
  Stated here at any contents V of the core's buffers when the region is entered: each window's block at a point,
  what the body leaves in the output's staging buffer, the body's triple, and the pipeline's proof data with its
  obligation at every point.
-/
import proofs.«120296_j28346784154102_2_alg».proof.Proof.Gen.Kernel.Launch
import proofs.«120296_j28346784154102_2_alg».proof.Proof.Gen.Kernel.Skeleton
import proofs.«120296_j28346784154102_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S4096x256 := Rect.unit (s := S4096x256) ![0, 0] S4096x256.size inb_S4096x256_S4096x256_0_0
abbrev r0_1 : Rect S768x256 := Rect.unit (s := S768x256) ![0, 0] S768x256.size inb_S768x256_S768x256_0_0
abbrev r0_2 : Rect S4096x768 := Rect.unit (s := S4096x768) ![0, 0] S4096x768.size inb_S4096x768_S4096x768_0_0

/-- The output's staging buffer after the body: its one store, of the product of the two loaded blocks. -/
def out0_2 (x0 : Vec F S4096x256 .f32) (x1 : Vec F S768x256 .bf16) : Vec F S4096x768 .bf16 :=
  View.canon [⟨r0_2, k0_pay1 (View.ld x0 r0_0) (View.ld x1 r0_1)⟩]

/-- The one store covers the buffer. -/
theorem cover0_2 (p0 : Vec F S4096x768 .bf16) (y : S4096x768.Idx) :
    ∃ pc ∈ ([⟨r0_2, p0⟩] : List (View.Piece (Elt F) S4096x768 .bf16)), y ∈ pc.1.set :=
  View.cover_of_tiled [⟨r0_2, p0⟩] S4096x768.size (by rfl) y

/-! ## The body's triple -/

set_option maxHeartbeats 1000000 in
/-- On whole staging memrefs, the inputs' at contents x0, x1 and the output's at anything, the body runs to the
    continuation holding the inputs' as they were and the output's at the product of x0 and x1. -/
theorem sound_kernel0 (c : Dev nD) (E : Set ℕ) (i : grid0.Coords) (arg1 : Memref sig .tc .vmem S4096x256 .f32) (harg1 : arg1.IsWhole)
    (arg2 : Memref sig .tc .vmem S768x256 .bf16) (harg2 : arg2.IsWhole) (arg3 : Memref sig .tc .vmem S4096x768 .bf16) (harg3 : arg3.IsWhole)
    (x0 : Vec F S4096x256 .f32) (x1 : Vec F S768x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point t each input's buffer at its block and the output's
    at the product of the two blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second kernel region: attention over the sample axis, on a grid of 8 x 16 points.
  At a grid point the body reads the whole [256, 256] bias once and then runs a counted loop of 32 trips; trip k reads
  the k-th [256, 32] slab of each of the point's three input blocks (queries, keys, values: three blocks of one array)
  and stores one [256, 32] slab, at offset k along the second axis, of the output's block. Nothing is carried between
  trips or between points, and the 32 slabs tile the output's block.
  Stated here at any contents V of the core's buffers when the region is entered, and at any float instance: each
  window's block at a point, the body's triple with the pieces its stores leave in the output's staging buffer, that
  those pieces cover the buffer, what the buffer then holds, and the pipeline's proof data with its obligation at every
  point. The three input windows share one array, so its full share is dealt among them.
-/
import proofs.«120296_j28346784154102_2_alg».proof.Proof.Gen.Kernel.Launch
import proofs.«120296_j28346784154102_2_alg».proof.Proof.Gen.Kernel.Skeleton
import proofs.«120296_j28346784154102_2_alg».proof.Proof.Gen.Kernel.Points
import proofs.«120296_j28346784154102_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs the body is called with -/

/-- One staging buffer of the output window, through which its contents are stated (the choice does not matter). -/
abbrev VO1_4 : View sig .tc .vmem S1x32x256x32 .bf16 := (Memref.whole cc1_stg4_0 : Memref sig .tc .vmem S1x32x256x32 .bf16).view
/-- Each window's current staging memref at point t, spelled as the pipeline passes it, and its wholeness. -/
abbrev ms1_0 (t : Fin cfg1.N) : Memref sig .tc .vmem S1x1x32x256x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32x256x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x32x256x32 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x256x32 .bf16 := win1_4.stage (cfg1.slots t 4)
abbrev hs1_4 (t : Fin cfg1.N) : (ms1_4 t).IsWhole := hstage1_4 ((cfg1.slots t 4).cast nbuf1_4)

/-! ## The body's triple: a subtype whose witness is the pieces the run finds -/

set_option maxHeartbeats 1000000 in
/-- What the body's stores leave in the output's staging memref, as pieces (last first), with the proof that on whole
    staging memrefs, the inputs' at contents x0 .. x3 and the output's at anything, the body runs to the continuation
    holding the inputs' as they were and the output's buffer with those pieces written: the bias is read, the loop is
    passed by its invariant (the pieces of the trips so far written over the contents at entry), one symbolic trip at
    a time. -/
noncomputable def kernelRun1 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) :
    { L4 : List (View.Piece (Elt F) S1x32x256x32 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces tile the output's block — 32 slabs of [1, 1, 256, 32], one per trip, at offsets 0 .. 31 along the
    second axis — so they cover it. -/
theorem cover1_4 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) (y : S1x32x256x32.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1x1x256x32.size (by sl_kernel_rfl) y

/-- What the run leaves in the output's staging buffer: its pieces read back over junk. -/
def out1_4 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) : Vec F S1x32x256x32 .bf16 :=
  VO1_4.read (Elt F) (VO1_4.writes (Elt F) VO1_4.junk (kernelRun1 c i arg2 harg2 arg3 harg3 arg4 harg4 arg5 harg5 arg6 harg6 x0 x1 x2 x3).1)

/-! ## What the output holds after each point -/

/-- What the output's staging buffer holds after the body at point t: the run's contents at the point's memrefs and
    input blocks. -/
def outsAt1 (c : Dev nD) (t : Fin cfg1.N) : Vec F S1x32x256x32 .bf16 :=
  out1_4 c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

/-! ## The pipeline's proof data -/

/-- The arrays as the region finds them; after the body at point t each input's buffer at its block and the output's
    at what the run leaves; the invariant the scoped rest and the generator register, untouched; nothing owed. The
    three block inputs are windows on ONE array, whose full share is dealt among them (a half, a quarter, a quarter);
    the bias and the output each hold their array's full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1000000 in
/-- The body at any point: the inputs' memrefs hold their blocks, so the run applies; the invariant passes through
    unread; the core owes nothing throughout; the output's buffer, holding the run's pieces written over whatever it
    held, reads as those pieces over junk because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The third kernel region: a block of 4096 rows of the flattened context times the whole output-projection matrix,
  plus the bias row. At a grid point the body reads the point's block of rows, the whole [256, 256] matrix and the
  [1, 256] bias row, and stores (block x matrix, each contracting its second axis) + the bias row repeated down the
  rows, over the output's whole block; nothing is carried between points. Stated at any contents V of the core's
  buffers when the region is entered.
-/
import proofs.«120296_j28346784154102_2_alg».proof.Proof.Gen.Kernel.Launch
import proofs.«120296_j28346784154102_2_alg».proof.Proof.Gen.Kernel.Skeleton
import proofs.«120296_j28346784154102_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_0 : Rect S4096x256 := Rect.unit (s := S4096x256) ![0, 0] S4096x256.size inb_S4096x256_S4096x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-- The output's staging buffer after the body: its one store. -/
def out2_3 (x0 : Vec F S4096x256 .bf16) (x1 : Vec F S256x256 .bf16) (x2 : Vec F S1x256 .f32) : Vec F S4096x256 .f32 :=
  View.canon [⟨r2_0, k2_pay1 (View.ld x0 r2_0) (View.ld x1 r2_1) (View.ld x2 r2_2)⟩]

/-- The one store covers the buffer. -/
theorem cover2_3 (p0 : Vec F S4096x256 .f32) (y : S4096x256.Idx) :
    ∃ pc ∈ ([⟨r2_0, p0⟩] : List (View.Piece (Elt F) S4096x256 .f32)), y ∈ pc.1.set :=
  View.cover_of_tiled [⟨r2_0, p0⟩] S4096x256.size (by rfl) y

/-! ## The body's triple -/

set_option maxHeartbeats 1000000 in
/-- On whole staging memrefs, the inputs' at contents x0, x1, x2 and the output's at anything, the body runs to the
    continuation holding the inputs' as they were and the output's at the projected block plus the bias row. -/
theorem sound_kernel2 (c : Dev nD) (E : Set ℕ) (i : grid2.Coords) (arg1 : Memref sig .tc .vmem S4096x256 .bf16) (harg1 : arg1.IsWhole)
    (arg2 : Memref sig .tc .vmem S256x256 .bf16) (harg2 : arg2.IsWhole) (arg3 : Memref sig .tc .vmem S1x256 .f32) (harg3 : arg3.IsWhole)
    (arg4 : Memref sig .tc .vmem S4096x256 .f32) (harg4 : arg4.IsWhole)
    (x0 : Vec F S4096x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main: four stretches of host operations around three kernel regions.

  Between two items a core holds every unscoped buffer whole, at contents named here as a chain from the launch
  memory: a host stretch applies its operations; a kernel region leaves every buffer as it found it except its one
  output array, which ends at what the grid points' write-backs leave (the proof data's array after the last point).
  Each region is entered by splitting its windows' arrays out of the unscoped buffers and left by putting them back;
  the second region's three input windows read ONE array, whose full share is dealt among them (left half, and the
  two halves of the right half) at entry and gathered again at exit. The generator register and the core's (empty)
  debts ride beside the buffers throughout. At the end every unscoped buffer is read off the last contents.
-/
import proofs.«120296_j28346784154102_2_alg».proof.Proof.K.R0
import proofs.«120296_j28346784154102_2_alg».proof.Proof.K.R1
import proofs.«120296_j28346784154102_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: the two weight casts and the two reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what the write-backs leave. -/
def W2 (c : Dev nD) : Valuation τ sig (Elt F) :=
  Function.update (W1 m ρ c) main_v4 ((dat0 (V1 m ρ) c).arrAt 2 cfg0.N : Buf (Elt F) ((c : Thread nD τ).loc main_v4))
abbrev V2 : (c : Dev nD) → (b : Ref sig .tc) → Buf (Elt F) ((c : Thread nD τ).loc b) := fun c b => W2 m ρ c b
/-- After the second host stretch: the reshape and the transpose of the projected features. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Function.update (W3 m ρ c) main_v7 ((dat1 (V3 m ρ) c).arrAt 4 cfg1.N : Buf (Elt F) ((c : Thread nD τ).loc main_v7))
abbrev V4 : (c : Dev nD) → (b : Ref sig .tc) → Buf (Elt F) ((c : Thread nD τ).loc b) := fun c b => W4 m ρ c b
/-- After the third host stretch: the transpose and the reshape of the contexts. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the third region. -/
def W6 (c : Dev nD) : Valuation τ sig (Elt F) :=
  Function.update (W5 m ρ c) main_v10 ((dat2 (V5 m ρ) c).arrAt 3 cfg2.N : Buf (Elt F) ((c : Thread nD τ).loc main_v10))
abbrev V6 : (c : Dev nD) → (b : Ref sig .tc) → Buf (Elt F) ((c : Thread nD τ).loc b) := fun c b => W6 m ρ c b
/-- At the end: after the last reshape. -/
abbrev W7 : Dev nD → Valuation τ sig (Elt F) := fun c => StableHlo.after hostOps3 (W6 m ρ c)

theorem W2_self (c : Dev nD) : W2 m ρ c main_v4 = (dat0 (V1 m ρ) c).arrAt 2 cfg0.N := by
  unfold W2; exact Function.update_self ..
theorem W2_of_ne (c : Dev nD) (b : Ref sig .tc) (h : b ≠ main_v4) : W2 m ρ c b = W1 m ρ c b := by
  unfold W2; exact Function.update_of_ne (StableHlo.devRef_ne_of_ne h) ..
theorem W4_self (c : Dev nD) : W4 m ρ c main_v7 = (dat1 (V3 m ρ) c).arrAt 4 cfg1.N := by
  unfold W4; exact Function.update_self ..
theorem W4_of_ne (c : Dev nD) (b : Ref sig .tc) (h : b ≠ main_v7) : W4 m ρ c b = W3 m ρ c b := by
  unfold W4; exact Function.update_of_ne (StableHlo.devRef_ne_of_ne h) ..
theorem W6_self (c : Dev nD) : W6 m ρ c main_v10 = (dat2 (V5 m ρ) c).arrAt 3 cfg2.N := by
  unfold W6; exact Function.update_self ..
theorem W6_of_ne (c : Dev nD) (b : Ref sig .tc) (h : b ≠ main_v10) : W6 m ρ c b = W5 m ρ c b := by
  unfold W6; exact Function.update_of_ne (StableHlo.devRef_ne_of_ne h) ..

/-! ## Each region's exit contents: its arrays at what the pipeline leaves, every other buffer as entered -/

theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v3 (by decide)).symm
  | ⟨1, _⟩ => (((dat0 (V1 m ρ) c).arrAt_in 1 rfl _).trans (A_eq0 (V1 m ρ) c 1)).trans (W2_of_ne m ρ c main_v0 (by decide)).symm
  | ⟨2, _⟩ => (W2_self m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

theorem hF2 (c : Dev nD) (w : Fin cfg2.W) : (dat2 (V5 m ρ) c).arrAt w cfg2.N = V6 m ρ c (Pipeline.arrRef spec2 w) :=
  match w with
  | ⟨0, _⟩ => (((dat2 (V5 m ρ) c).arrAt_in 0 rfl _).trans (A_eq2 (V5 m ρ) c 0)).trans (W6_of_ne m ρ c main_v9 (by decide)).symm
  | ⟨1, _⟩ => (((dat2 (V5 m ρ) c).arrAt_in 1 rfl _).trans (A_eq2 (V5 m ρ) c 1)).trans (W6_of_ne m ρ c main_v1 (by decide)).symm
  | ⟨2, _⟩ => (((dat2 (V5 m ρ) c).arrAt_in 2 rfl _).trans (A_eq2 (V5 m ρ) c 2)).trans (W6_of_ne m ρ c main_v2 (by decide)).symm
  | ⟨3, _⟩ => (W6_self m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨3, Finset.mem_univ _, e.symm⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: three windows on one array -/

/-- The distinct buffers behind the second region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_arg1) ↦{fullShare} V main_arg1)
          ∗ (((c : Thread nD τ).loc main_v7) ↦{fullShare} V main_v7)) := by
  unfold Pipeline.arrBufs
  exact bigSep_eq_bigSepL_of_eq [main_v6, main_arg1, main_v7] (by decide) (by decide) _

/-- A core's unscoped buffers: the buffers behind the second region's arrays, and the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) :=
  (Pipeline.unscopedBufs_held c W).symm.trans
    (Pipeline.PerCore.unscopedBufs_split₀ (fun _ : Dev nD => cfgs) (1 : Fin 3) c winFacts₀1.arr_unscoped (fun b => W b))

/-- The second region's windowed arrays, one by one: the shared array at the three parts of its full share. -/
theorem arrays1_eq (c : Dev nD) (Fa : (w : Fin cfg1.W) → Buf (Elt F) ((cfg1.win w).arr.view.loc (c : Thread nD τ))) :
    ((dat1 (V3 m ρ) c).arrays Fa : sProp 𝕄)
      = iprop((((c : Thread nD τ).loc main_v6) ↦{fullShare.left} Fa 0) ∗ (((c : Thread nD τ).loc main_v6) ↦{fullShare.right.left} Fa 1)
          ∗ (((c : Thread nD τ).loc main_v6) ↦{fullShare.right.right} Fa 2) ∗ (((c : Thread nD τ).loc main_arg1) ↦{fullShare} Fa 3)
          ∗ (((c : Thread nD τ).loc main_v7) ↦{fullShare} Fa 4)) := by
  unfold Pipeline.Dat.arrays
  rw [bigSep_W1]
  rw [(arr_whole1 0).set_eq_univ, (arr_whole1 3).set_eq_univ, (arr_whole1 4).set_eq_univ]
  rfl

theorem hF1 (c : Dev nD) (w : Fin cfg1.W) : (dat1 (V3 m ρ) c).arrAt w cfg1.N = V4 m ρ c (Pipeline.arrRef spec1 w) :=
  match w with
  | ⟨0, _⟩ => (((dat1 (V3 m ρ) c).arrAt_in 0 rfl _).trans (A_eq1 (V3 m ρ) c 0)).trans (W4_of_ne m ρ c main_v6 (by decide)).symm
  | ⟨1, _⟩ => (((dat1 (V3 m ρ) c).arrAt_in 1 rfl _).trans (A_eq1 (V3 m ρ) c 1)).trans (W4_of_ne m ρ c main_v6 (by decide)).symm
  | ⟨2, _⟩ => (((dat1 (V3 m ρ) c).arrAt_in 2 rfl _).trans (A_eq1 (V3 m ρ) c 2)).trans (W4_of_ne m ρ c main_v6 (by decide)).symm
  | ⟨3, _⟩ => (((dat1 (V3 m ρ) c).arrAt_in 3 rfl _).trans (A_eq1 (V3 m ρ) c 3)).trans (W4_of_ne m ρ c main_arg1 (by decide)).symm
  | ⟨4, _⟩ => (W4_self m ρ c).symm

/-- Off the second region's arrays the contents at its exit are those at its entry. -/
theorem rest1_eq (c : Dev nD) :
    (Pipeline.unscopedRest (Ix := Unit) (Name := ℕ) (U := UR sig nD τ) (Lvl := ℕ) spec1 c (fun b => W4 m ρ c b) : sProp 𝕄)
      = Pipeline.unscopedRest spec1 c (V3 m ρ c) := by
  unfold Pipeline.unscopedRest
  exact bigSep_congr fun b hb => congrArg (fun f => ((((c : Thread nD τ).loc b) ↦{fullShare} f) : sProp 𝕄))
    (W4_of_ne m ρ c b fun e => (Finset.mem_sdiff.mp hb).2 (Finset.mem_image.mpr ⟨4, Finset.mem_univ _, e.symm⟩))

set_option backward.isDefEq.respectTransparency.types false in
/-- The second region: entered from every unscoped buffer at W3, left at W4. At entry the array its three input
    windows read is dealt among them by halves of its full share; at exit the three parts, still at the entry
    contents, are gathered again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none, held_split1, arrBufs1_eq,
      show (pdats m ρ 1 c).arrays = (dat1 (V3 m ρ) c).arrays from rfl, arrays1_eq]
    iintro ⟨⟨⟨⟨H6, H1, H7⟩, Hrest⟩, Hp, HO⟩, -, -⟩
    ihave H6' := (pointsTo_share (PosShare.mem_left_op_right fullShare)).1 $$ H6
    icases H6' with ⟨H6l, H6r⟩
    ihave H6r' := (pointsTo_share (PosShare.mem_left_op_right fullShare.right)).1 $$ H6r
    icases H6r' with ⟨H6rl, H6rr⟩
    imodintro
    isplitl [H6l H6rl H6rr H1 H7]
    · isplitl [H6l]; · iexact H6l
      isplitl [H6rl]; · iexact H6rl
      isplitl [H6rr]; · iexact H6rr
      isplitl [H1]; · iexact H1
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hFa : (fun x => (pdats m ρ 1 c).arrAt x (Pipeline.pin (pcfgs (F := F)) adm 1).N)
        = fun w => V4 m ρ c (Pipeline.arrRef spec1 w) := funext (hF1 m ρ c)
    rw [held_split1, arrBufs1_eq, rest1_eq,
      show (pdats m ρ 1 c).arrays = (dat1 (V3 m ρ) c).arrays from rfl, hFa, arrays1_eq]
    iintro ⟨⟨H6l, H6rl, H6rr, H1, H7⟩, HO, HY, Hrest⟩
    imodintro
    isplitl [H6l H6rl H6rr H1 H7 Hrest]
    · isplitl [H6l H6rl H6rr H1 H7]
      · isplitl [H6l H6rl H6rr]
        · iapply (pointsTo_share (PosShare.mem_left_op_right fullShare)).2
          isplitl [H6l]; · iexact H6l
          iapply (pointsTo_share (PosShare.mem_left_op_right fullShare.right)).2
          isplitl [H6rl] <;> iassumption
        isplitl [H1]; · iexact H1
        iexact H7
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last contents of the chain. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## What the run says of the arguments and of the result -/

/-- A buffer no operation of a host stretch writes keeps its contents through the stretch. -/
theorem after0_keep (W : Valuation τ sig (Elt F)) (b : Ref sig .tc) (h0 : b ≠ main_v0) (h1 : b ≠ main_v1) (h2 : b ≠ main_v2)
    (h3 : b ≠ main_v3) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
theorem after1_keep (W : Valuation τ sig (Elt F)) (b : Ref sig .tc) (h0 : b ≠ main_v5) (h1 : b ≠ main_v6) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))
theorem after2_keep (W : Valuation τ sig (Elt F)) (b : Ref sig .tc) (h0 : b ≠ main_v8) (h1 : b ≠ main_v9) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1⟩))
theorem after3_keep (W : Valuation τ sig (Elt F)) (b : Ref sig .tc) (h0 : b ≠ main_v11) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact StableHlo.devRef_ne_of_ne h0))

/-- A buffer that no host operation writes and no region outputs ends as launched. -/
theorem W7_keep (c : Dev nD) (b : Ref sig .tc)
    (h : b ∉ ([main_v0, main_v1, main_v2, main_v3, main_v4, main_v5, main_v6, main_v7, main_v8, main_v9, main_v10, main_v11] : List (Ref sig .tc))) :
    W7 m ρ c b = m ((c : Thread nD τ).loc b) := by
  have ne : ∀ r ∈ ([main_v0, main_v1, main_v2, main_v3, main_v4, main_v5, main_v6, main_v7, main_v8, main_v9, main_v10, main_v11] : List (Ref sig .tc)), b ≠ r :=
    fun r hr e => h (e ▸ hr)
  calc W7 m ρ c b
    _ = W6 m ρ c b := after3_keep _ b (ne _ (by decide))
    _ = W5 m ρ c b := W6_of_ne m ρ c b (ne _ (by decide))
    _ = W4 m ρ c b := after2_keep _ b (ne _ (by decide)) (ne _ (by decide))
    _ = W3 m ρ c b := W4_of_ne m ρ c b (ne _ (by decide))
    _ = W2 m ρ c b := after1_keep _ b (ne _ (by decide)) (ne _ (by decide))
    _ = W1 m ρ c b := W2_of_ne m ρ c b (ne _ (by decide))
    _ = W0 m ρ c b := after0_keep _ b (ne _ (by decide)) (ne _ (by decide)) (ne _ (by decide)) (ne _ (by decide))
    _ = m ((c : Thread nD τ).loc b) := rfl

/-- THE RUN, read at the result and at the arguments: every weakly fair execution terminates, nothing faulting, with
    the result array at the chain's last contents and each argument array as launched. -/
theorem run_result : θ_run defs (onTc (τ := τ) (main (F := F))) ⟨m, fun _ => 0, ρ⟩ (fun r => ∀ c : Dev nD,
      r.2.mem ((c.tc : Thread nD τ).loc main_v11) = W7 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v11 (by decide)),
      (h c _ (mem_uc main_arg0 (by decide))).trans (W7_keep m ρ c main_arg0 (by decide)),
      (h c _ (mem_uc main_arg1 (by decide))).trans (W7_keep m ρ c main_arg1 (by decide)),
      (h c _ (mem_uc main_arg2 (by decide))).trans (W7_keep m ρ c main_arg2 (by decide)),
      (h c _ (mem_uc main_arg3 (by decide))).trans (W7_keep m ρ c main_arg3 (by decide)),
      (h c _ (mem_uc main_arg4 (by decide))).trans (W7_keep m ρ c main_arg4 (by decide))⟩) (run m ρ)

/-- THE FRAME: the run, the result's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.KI.R0.lean ====
/-
  The first kernel region: a block of 4096 rows of the flattened input times the whole projection matrix.
  At a grid point the body reads the point's block of rows and the whole [768, 256] matrix, and stores their product
  (each operand contracting its second axis) over the output's whole block; nothing is carried between points.
  Stated here at any contents V of the core's buffers when the region is entered: each window's block at a point,
  what the body leaves in the output's staging buffer, the body's triple, and the pipeline's proof data with its
  obligation at every point.
-/
import proofs.«120296_j28346784154102_2_alg».proof.Proof.Gen.KernelIdeal.Launch
import proofs.«120296_j28346784154102_2_alg».proof.Proof.Gen.KernelIdeal.Skeleton
import proofs.«120296_j28346784154102_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S4096x256 := Rect.unit (s := S4096x256) ![0, 0] S4096x256.size inb_S4096x256_S4096x256_0_0
abbrev r0_1 : Rect S768x256 := Rect.unit (s := S768x256) ![0, 0] S768x256.size inb_S768x256_S768x256_0_0
abbrev r0_2 : Rect S4096x768 := Rect.unit (s := S4096x768) ![0, 0] S4096x768.size inb_S4096x768_S4096x768_0_0

/-- The output's staging buffer after the body: its one store, of the product of the two loaded blocks. -/
def out0_2 (x0 : Vec F S4096x256 .f32) (x1 : Vec F S768x256 .bf16) : Vec F S4096x768 .bf16 :=
  View.canon [⟨r0_2, k0_pay1 (View.ld x0 r0_0) (View.ld x1 r0_1)⟩]

/-- The one store covers the buffer. -/
theorem cover0_2 (p0 : Vec F S4096x768 .bf16) (y : S4096x768.Idx) :
    ∃ pc ∈ ([⟨r0_2, p0⟩] : List (View.Piece (Elt F) S4096x768 .bf16)), y ∈ pc.1.set :=
  View.cover_of_tiled [⟨r0_2, p0⟩] S4096x768.size (by rfl) y

/-! ## The body's triple -/

set_option maxHeartbeats 1000000 in
/-- On whole staging memrefs, the inputs' at contents x0, x1 and the output's at anything, the body runs to the
    continuation holding the inputs' as they were and the output's at the product of x0 and x1. -/
theorem sound_kernel0 (c : Dev nD) (E : Set ℕ) (i : grid0.Coords) (arg1 : Memref sig .tc .vmem S4096x256 .f32) (harg1 : arg1.IsWhole)
    (arg2 : Memref sig .tc .vmem S768x256 .bf16) (harg2 : arg2.IsWhole) (arg3 : Memref sig .tc .vmem S4096x768 .bf16) (harg3 : arg3.IsWhole)
    (x0 : Vec F S4096x256 .f32) (x1 : Vec F S768x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point t each input's buffer at its block and the output's
    at the product of the two blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second kernel region: attention over the sample axis, on a grid of 8 x 16 points.
  At a grid point the body reads the whole [256, 256] bias once and then runs a counted loop of 32 trips; trip k reads
  the k-th [256, 32] slab of each of the point's three input blocks (queries, keys, values: three blocks of one array)
  and stores one [256, 32] slab, at offset k along the second axis, of the output's block. Nothing is carried between
  trips or between points, and the 32 slabs tile the output's block.
  Stated here at any contents V of the core's buffers when the region is entered, and at any float instance: each
  window's block at a point, the body's triple with the pieces its stores leave in the output's staging buffer, that
  those pieces cover the buffer, what the buffer then holds, and the pipeline's proof data with its obligation at every
  point. The three input windows share one array, so its full share is dealt among them.
-/
import proofs.«120296_j28346784154102_2_alg».proof.Proof.Gen.KernelIdeal.Launch
import proofs.«120296_j28346784154102_2_alg».proof.Proof.Gen.KernelIdeal.Skeleton
import proofs.«120296_j28346784154102_2_alg».proof.Proof.Gen.KernelIdeal.Points
import proofs.«120296_j28346784154102_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs the body is called with -/

/-- One staging buffer of the output window, through which its contents are stated (the choice does not matter). -/
abbrev VO1_4 : View sig .tc .vmem S1x32x256x32 .bf16 := (Memref.whole cc1_stg4_0 : Memref sig .tc .vmem S1x32x256x32 .bf16).view
/-- Each window's current staging memref at point t, spelled as the pipeline passes it, and its wholeness. -/
abbrev ms1_0 (t : Fin cfg1.N) : Memref sig .tc .vmem S1x1x32x256x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32x256x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x32x256x32 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x256x32 .bf16 := win1_4.stage (cfg1.slots t 4)
abbrev hs1_4 (t : Fin cfg1.N) : (ms1_4 t).IsWhole := hstage1_4 ((cfg1.slots t 4).cast nbuf1_4)

/-! ## The body's triple: a subtype whose witness is the pieces the run finds -/

set_option maxHeartbeats 1000000 in
/-- What the body's stores leave in the output's staging memref, as pieces (last first), with the proof that on whole
    staging memrefs, the inputs' at contents x0 .. x3 and the output's at anything, the body runs to the continuation
    holding the inputs' as they were and the output's buffer with those pieces written: the bias is read, the loop is
    passed by its invariant (the pieces of the trips so far written over the contents at entry), one symbolic trip at
    a time. -/
noncomputable def kernelRun1 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) :
    { L4 : List (View.Piece (Elt F) S1x32x256x32 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces tile the output's block — 32 slabs of [1, 1, 256, 32], one per trip, at offsets 0 .. 31 along the
    second axis — so they cover it. -/
theorem cover1_4 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) (y : S1x32x256x32.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1x1x256x32.size (by sl_kernel_rfl) y

/-- What the run leaves in the output's staging buffer: its pieces read back over junk. -/
def out1_4 (c : Dev nD) (i : grid1.Coords) (arg2 : Memref sig .tc .vmem S1x1x32x256x32 .bf16) (harg2 : arg2.IsWhole)
    (arg3 : Memref sig .tc .vmem S1x1x32x256x32 .bf16) (harg3 : arg3.IsWhole) (arg4 : Memref sig .tc .vmem S1x1x32x256x32 .bf16) (harg4 : arg4.IsWhole)
    (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) : Vec F S1x32x256x32 .bf16 :=
  VO1_4.read (Elt F) (VO1_4.writes (Elt F) VO1_4.junk (kernelRun1 c i arg2 harg2 arg3 harg3 arg4 harg4 arg5 harg5 arg6 harg6 x0 x1 x2 x3).1)

/-! ## What the output holds after each point -/

/-- What the output's staging buffer holds after the body at point t: the run's contents at the point's memrefs and
    input blocks. -/
def outsAt1 (c : Dev nD) (t : Fin cfg1.N) : Vec F S1x32x256x32 .bf16 :=
  out1_4 c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

/-! ## The pipeline's proof data -/

/-- The arrays as the region finds them; after the body at point t each input's buffer at its block and the output's
    at what the run leaves; the invariant the scoped rest and the generator register, untouched; nothing owed. The
    three block inputs are windows on ONE array, whose full share is dealt among them (a half, a quarter, a quarter);
    the bias and the output each hold their array's full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1000000 in
/-- The body at any point: the inputs' memrefs hold their blocks, so the run applies; the invariant passes through
    unread; the core owes nothing throughout; the output's buffer, holding the run's pieces written over whatever it
    held, reads as those pieces over junk because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The third kernel region: a block of 4096 rows of the flattened context times the whole output-projection matrix,
  plus the bias row. At a grid point the body reads the point's block of rows, the whole [256, 256] matrix and the
  [1, 256] bias row, and stores (block x matrix, each contracting its second axis) + the bias row repeated down the
  rows, over the output's whole block; nothing is carried between points. Stated at any contents V of the core's
  buffers when the region is entered.
-/
import proofs.«120296_j28346784154102_2_alg».proof.Proof.Gen.KernelIdeal.Launch
import proofs.«120296_j28346784154102_2_alg».proof.Proof.Gen.KernelIdeal.Skeleton
import proofs.«120296_j28346784154102_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_0 : Rect S4096x256 := Rect.unit (s := S4096x256) ![0, 0] S4096x256.size inb_S4096x256_S4096x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-- The output's staging buffer after the body: its one store. -/
def out2_3 (x0 : Vec F S4096x256 .bf16) (x1 : Vec F S256x256 .bf16) (x2 : Vec F S1x256 .f32) : Vec F S4096x256 .f32 :=
  View.canon [⟨r2_0, k2_pay1 (View.ld x0 r2_0) (View.ld x1 r2_1) (View.ld x2 r2_2)⟩]

/-- The one store covers the buffer. -/
theorem cover2_3 (p0 : Vec F S4096x256 .f32) (y : S4096x256.Idx) :
    ∃ pc ∈ ([⟨r2_0, p0⟩] : List (View.Piece (Elt F) S4096x256 .f32)), y ∈ pc.1.set :=
  View.cover_of_tiled [⟨r2_0, p0⟩] S4096x256.size (by rfl) y

/-! ## The body's triple -/

set_option maxHeartbeats 1000000 in
/-- On whole staging memrefs, the inputs' at contents x0, x1, x2 and the output's at anything, the body runs to the
    continuation holding the inputs' as they were and the output's at the projected block plus the bias row. -/
theorem sound_kernel2 (c : Dev nD) (E : Set ℕ) (i : grid2.Coords) (arg1 : Memref sig .tc .vmem S4096x256 .bf16) (harg1 : arg1.IsWhole)
    (arg2 : Memref sig .tc .vmem S256x256 .bf16) (harg2 : arg2.IsWhole) (arg3 : Memref sig .tc .vmem S1x256 .f32) (harg3 : arg3.IsWhole)
    (arg4 : Memref sig .tc .vmem S4096x256 .f32) (harg4 : arg4.IsWhole)
    (x0 : Vec F S4096x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main: four stretches of host operations around three kernel regions.

  Between two items a core holds every unscoped buffer whole, at contents named here as a chain from the launch
  memory: a host stretch applies its operations; a kernel region leaves every buffer as it found it except its one
  output array, which ends at what the grid points' write-backs leave (the proof data's array after the last point).
  Each region is entered by splitting its windows' arrays out of the unscoped buffers and left by putting them back;
  the second region's three input windows read ONE array, whose full share is dealt among them (left half, and the
  two halves of the right half) at entry and gathered again at exit. The generator register and the core's (empty)
  debts ride beside the buffers throughout. At the end every unscoped buffer is read off the last contents.
-/
import proofs.«120296_j28346784154102_2_alg».proof.Proof.KI.R0
import proofs.«120296_j28346784154102_2_alg».proof.Proof.KI.R1
import proofs.«120296_j28346784154102_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: the two weight casts and the two reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what the write-backs leave. -/
def W2 (c : Dev nD) : Valuation τ sig (Elt F) :=
  Function.update (W1 m ρ c) main_v4 ((dat0 (V1 m ρ) c).arrAt 2 cfg0.N : Buf (Elt F) ((c : Thread nD τ).loc main_v4))
abbrev V2 : (c : Dev nD) → (b : Ref sig .tc) → Buf (Elt F) ((c : Thread nD τ).loc b) := fun c b => W2 m ρ c b
/-- After the second host stretch: the reshape and the transpose of the projected features. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Function.update (W3 m ρ c) main_v7 ((dat1 (V3 m ρ) c).arrAt 4 cfg1.N : Buf (Elt F) ((c : Thread nD τ).loc main_v7))
abbrev V4 : (c : Dev nD) → (b : Ref sig .tc) → Buf (Elt F) ((c : Thread nD τ).loc b) := fun c b => W4 m ρ c b
/-- After the third host stretch: the transpose and the reshape of the contexts. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the third region. -/
def W6 (c : Dev nD) : Valuation τ sig (Elt F) :=
  Function.update (W5 m ρ c) main_v10 ((dat2 (V5 m ρ) c).arrAt 3 cfg2.N : Buf (Elt F) ((c : Thread nD τ).loc main_v10))
abbrev V6 : (c : Dev nD) → (b : Ref sig .tc) → Buf (Elt F) ((c : Thread nD τ).loc b) := fun c b => W6 m ρ c b
/-- At the end: after the last reshape. -/
abbrev W7 : Dev nD → Valuation τ sig (Elt F) := fun c => StableHlo.after hostOps3 (W6 m ρ c)

theorem W2_self (c : Dev nD) : W2 m ρ c main_v4 = (dat0 (V1 m ρ) c).arrAt 2 cfg0.N := by
  unfold W2; exact Function.update_self ..
theorem W2_of_ne (c : Dev nD) (b : Ref sig .tc) (h : b ≠ main_v4) : W2 m ρ c b = W1 m ρ c b := by
  unfold W2; exact Function.update_of_ne (StableHlo.devRef_ne_of_ne h) ..
theorem W4_self (c : Dev nD) : W4 m ρ c main_v7 = (dat1 (V3 m ρ) c).arrAt 4 cfg1.N := by
  unfold W4; exact Function.update_self ..
theorem W4_of_ne (c : Dev nD) (b : Ref sig .tc) (h : b ≠ main_v7) : W4 m ρ c b = W3 m ρ c b := by
  unfold W4; exact Function.update_of_ne (StableHlo.devRef_ne_of_ne h) ..
theorem W6_self (c : Dev nD) : W6 m ρ c main_v10 = (dat2 (V5 m ρ) c).arrAt 3 cfg2.N := by
  unfold W6; exact Function.update_self ..
theorem W6_of_ne (c : Dev nD) (b : Ref sig .tc) (h : b ≠ main_v10) : W6 m ρ c b = W5 m ρ c b := by
  unfold W6; exact Function.update_of_ne (StableHlo.devRef_ne_of_ne h) ..

/-! ## Each region's exit contents: its arrays at what the pipeline leaves, every other buffer as entered -/

theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v3 (by decide)).symm
  | ⟨1, _⟩ => (((dat0 (V1 m ρ) c).arrAt_in 1 rfl _).trans (A_eq0 (V1 m ρ) c 1)).trans (W2_of_ne m ρ c main_v0 (by decide)).symm
  | ⟨2, _⟩ => (W2_self m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

theorem hF2 (c : Dev nD) (w : Fin cfg2.W) : (dat2 (V5 m ρ) c).arrAt w cfg2.N = V6 m ρ c (Pipeline.arrRef spec2 w) :=
  match w with
  | ⟨0, _⟩ => (((dat2 (V5 m ρ) c).arrAt_in 0 rfl _).trans (A_eq2 (V5 m ρ) c 0)).trans (W6_of_ne m ρ c main_v9 (by decide)).symm
  | ⟨1, _⟩ => (((dat2 (V5 m ρ) c).arrAt_in 1 rfl _).trans (A_eq2 (V5 m ρ) c 1)).trans (W6_of_ne m ρ c main_v1 (by decide)).symm
  | ⟨2, _⟩ => (((dat2 (V5 m ρ) c).arrAt_in 2 rfl _).trans (A_eq2 (V5 m ρ) c 2)).trans (W6_of_ne m ρ c main_v2 (by decide)).symm
  | ⟨3, _⟩ => (W6_self m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨3, Finset.mem_univ _, e.symm⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: three windows on one array -/

/-- The distinct buffers behind the second region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_arg1) ↦{fullShare} V main_arg1)
          ∗ (((c : Thread nD τ).loc main_v7) ↦{fullShare} V main_v7)) := by
  unfold Pipeline.arrBufs
  exact bigSep_eq_bigSepL_of_eq [main_v6, main_arg1, main_v7] (by decide) (by decide) _

/-- A core's unscoped buffers: the buffers behind the second region's arrays, and the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) :=
  (Pipeline.unscopedBufs_held c W).symm.trans
    (Pipeline.PerCore.unscopedBufs_split₀ (fun _ : Dev nD => cfgs) (1 : Fin 3) c winFacts₀1.arr_unscoped (fun b => W b))

/-- The second region's windowed arrays, one by one: the shared array at the three parts of its full share. -/
theorem arrays1_eq (c : Dev nD) (Fa : (w : Fin cfg1.W) → Buf (Elt F) ((cfg1.win w).arr.view.loc (c : Thread nD τ))) :
    ((dat1 (V3 m ρ) c).arrays Fa : sProp 𝕄)
      = iprop((((c : Thread nD τ).loc main_v6) ↦{fullShare.left} Fa 0) ∗ (((c : Thread nD τ).loc main_v6) ↦{fullShare.right.left} Fa 1)
          ∗ (((c : Thread nD τ).loc main_v6) ↦{fullShare.right.right} Fa 2) ∗ (((c : Thread nD τ).loc main_arg1) ↦{fullShare} Fa 3)
          ∗ (((c : Thread nD τ).loc main_v7) ↦{fullShare} Fa 4)) := by
  unfold Pipeline.Dat.arrays
  rw [bigSep_W1]
  rw [(arr_whole1 0).set_eq_univ, (arr_whole1 3).set_eq_univ, (arr_whole1 4).set_eq_univ]
  rfl

theorem hF1 (c : Dev nD) (w : Fin cfg1.W) : (dat1 (V3 m ρ) c).arrAt w cfg1.N = V4 m ρ c (Pipeline.arrRef spec1 w) :=
  match w with
  | ⟨0, _⟩ => (((dat1 (V3 m ρ) c).arrAt_in 0 rfl _).trans (A_eq1 (V3 m ρ) c 0)).trans (W4_of_ne m ρ c main_v6 (by decide)).symm
  | ⟨1, _⟩ => (((dat1 (V3 m ρ) c).arrAt_in 1 rfl _).trans (A_eq1 (V3 m ρ) c 1)).trans (W4_of_ne m ρ c main_v6 (by decide)).symm
  | ⟨2, _⟩ => (((dat1 (V3 m ρ) c).arrAt_in 2 rfl _).trans (A_eq1 (V3 m ρ) c 2)).trans (W4_of_ne m ρ c main_v6 (by decide)).symm
  | ⟨3, _⟩ => (((dat1 (V3 m ρ) c).arrAt_in 3 rfl _).trans (A_eq1 (V3 m ρ) c 3)).trans (W4_of_ne m ρ c main_arg1 (by decide)).symm
  | ⟨4, _⟩ => (W4_self m ρ c).symm

/-- Off the second region's arrays the contents at its exit are those at its entry. -/
theorem rest1_eq (c : Dev nD) :
    (Pipeline.unscopedRest (Ix := Unit) (Name := ℕ) (U := UR sig nD τ) (Lvl := ℕ) spec1 c (fun b => W4 m ρ c b) : sProp 𝕄)
      = Pipeline.unscopedRest spec1 c (V3 m ρ c) := by
  unfold Pipeline.unscopedRest
  exact bigSep_congr fun b hb => congrArg (fun f => ((((c : Thread nD τ).loc b) ↦{fullShare} f) : sProp 𝕄))
    (W4_of_ne m ρ c b fun e => (Finset.mem_sdiff.mp hb).2 (Finset.mem_image.mpr ⟨4, Finset.mem_univ _, e.symm⟩))

set_option backward.isDefEq.respectTransparency.types false in
/-- The second region: entered from every unscoped buffer at W3, left at W4. At entry the array its three input
    windows read is dealt among them by halves of its full share; at exit the three parts, still at the entry
    contents, are gathered again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none, held_split1, arrBufs1_eq,
      show (pdats m ρ 1 c).arrays = (dat1 (V3 m ρ) c).arrays from rfl, arrays1_eq]
    iintro ⟨⟨⟨⟨H6, H1, H7⟩, Hrest⟩, Hp, HO⟩, -, -⟩
    ihave H6' := (pointsTo_share (PosShare.mem_left_op_right fullShare)).1 $$ H6
    icases H6' with ⟨H6l, H6r⟩
    ihave H6r' := (pointsTo_share (PosShare.mem_left_op_right fullShare.right)).1 $$ H6r
    icases H6r' with ⟨H6rl, H6rr⟩
    imodintro
    isplitl [H6l H6rl H6rr H1 H7]
    · isplitl [H6l]; · iexact H6l
      isplitl [H6rl]; · iexact H6rl
      isplitl [H6rr]; · iexact H6rr
      isplitl [H1]; · iexact H1
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hFa : (fun x => (pdats m ρ 1 c).arrAt x (Pipeline.pin (pcfgs (F := F)) adm 1).N)
        = fun w => V4 m ρ c (Pipeline.arrRef spec1 w) := funext (hF1 m ρ c)
    rw [held_split1, arrBufs1_eq, rest1_eq,
      show (pdats m ρ 1 c).arrays = (dat1 (V3 m ρ) c).arrays from rfl, hFa, arrays1_eq]
    iintro ⟨⟨H6l, H6rl, H6rr, H1, H7⟩, HO, HY, Hrest⟩
    imodintro
    isplitl [H6l H6rl H6rr H1 H7 Hrest]
    · isplitl [H6l H6rl H6rr H1 H7]
      · isplitl [H6l H6rl H6rr]
        · iapply (pointsTo_share (PosShare.mem_left_op_right fullShare)).2
          isplitl [H6l]; · iexact H6l
          iapply (pointsTo_share (PosShare.mem_left_op_right fullShare.right)).2
          isplitl [H6rl] <;> iassumption
        isplitl [H1]; · iexact H1
        iexact H7
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last contents of the chain. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## What the run says of the arguments and of the result -/

/-- A buffer no operation of a host stretch writes keeps its contents through the stretch. -/
theorem after0_keep (W : Valuation τ sig (Elt F)) (b : Ref sig .tc) (h0 : b ≠ main_v0) (h1 : b ≠ main_v1) (h2 : b ≠ main_v2)
    (h3 : b ≠ main_v3) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
theorem after1_keep (W : Valuation τ sig (Elt F)) (b : Ref sig .tc) (h0 : b ≠ main_v5) (h1 : b ≠ main_v6) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))
theorem after2_keep (W : Valuation τ sig (Elt F)) (b : Ref sig .tc) (h0 : b ≠ main_v8) (h1 : b ≠ main_v9) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1⟩))
theorem after3_keep (W : Valuation τ sig (Elt F)) (b : Ref sig .tc) (h0 : b ≠ main_v11) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact StableHlo.devRef_ne_of_ne h0))

/-- A buffer that no host operation writes and no region outputs ends as launched. -/
theorem W7_keep (c : Dev nD) (b : Ref sig .tc)
    (h : b ∉ ([main_v0, main_v1, main_v2, main_v3, main_v4, main_v5, main_v6, main_v7, main_v8, main_v9, main_v10, main_v11] : List (Ref sig .tc))) :
    W7 m ρ c b = m ((c : Thread nD τ).loc b) := by
  have ne : ∀ r ∈ ([main_v0, main_v1, main_v2, main_v3, main_v4, main_v5, main_v6, main_v7, main_v8, main_v9, main_v10, main_v11] : List (Ref sig .tc)), b ≠ r :=
    fun r hr e => h (e ▸ hr)
  calc W7 m ρ c b
    _ = W6 m ρ c b := after3_keep _ b (ne _ (by decide))
    _ = W5 m ρ c b := W6_of_ne m ρ c b (ne _ (by decide))
    _ = W4 m ρ c b := after2_keep _ b (ne _ (by decide)) (ne _ (by decide))
    _ = W3 m ρ c b := W4_of_ne m ρ c b (ne _ (by decide))
    _ = W2 m ρ c b := after1_keep _ b (ne _ (by decide)) (ne _ (by decide))
    _ = W1 m ρ c b := W2_of_ne m ρ c b (ne _ (by decide))
    _ = W0 m ρ c b := after0_keep _ b (ne _ (by decide)) (ne _ (by decide)) (ne _ (by decide)) (ne _ (by decide))
    _ = m ((c : Thread nD τ).loc b) := rfl

/-- THE RUN, read at the result and at the arguments: every weakly fair execution terminates, nothing faulting, with
    the result array at the chain's last contents and each argument array as launched. -/
theorem run_result : θ_run defs (onTc (τ := τ) (main (F := F))) ⟨m, fun _ => 0, ρ⟩ (fun r => ∀ c : Dev nD,
      r.2.mem ((c.tc : Thread nD τ).loc main_v11) = W7 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v11 (by decide)),
      (h c _ (mem_uc main_arg0 (by decide))).trans (W7_keep m ρ c main_arg0 (by decide)),
      (h c _ (mem_uc main_arg1 (by decide))).trans (W7_keep m ρ c main_arg1 (by decide)),
      (h c _ (mem_uc main_arg2 (by decide))).trans (W7_keep m ρ c main_arg2 (by decide)),
      (h c _ (mem_uc main_arg3 (by decide))).trans (W7_keep m ρ c main_arg3 (by decide)),
      (h c _ (mem_uc main_arg4 (by decide))).trans (W7_keep m ρ c main_arg4 (by decide))⟩) (run m ρ)

/-- THE FRAME: the run, the result's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.Spec.lean ====
/-
  The function both programs compute, stated once over the five argument arrays as extended reals.

  x : [256, 512, 256] (sample n, position l, feature k), bias : [256, 256], wqkv : [768, 256], wp : [256, 256], bp : [256].
  A row (n, l) of x is projected by wqkv to 768 features, read as 3 x 8 x 32: which of query / key / value (s), head (h),
  coordinate inside the head (d): feature s * 256 + h * 32 + d.  For a head h and a position l, attention runs over the
  SAMPLE axis: the score of samples (n, m) is the dot product over d of n's query and m's key, times one scale word, plus
  bias (n, m); each row n of scores is normalised by a softmax over m (largest entry subtracted, exponential, divided by the
  row's sum); the context of n is the attention-weighted sum over m of m's value.  The 8 x 32 context coordinates of a row
  (n, l), laid out as one vector of 256 (j = h * 32 + d), are projected by wp and shifted by bp.
-/
import Idealize.ShloMosaic.PureOps.Ideal
import Idealize.ShloMosaic.Lib.ValueIdx

noncomputable section

namespace Cert.Attn

open Idealize.ShloMosaic Idealize.ShloMosaic.ValueIdx

abbrev SX : Shape := ⟨3, ![256, 512, 256]⟩
abbrev SBias : Shape := ⟨2, ![256, 256]⟩
abbrev SWqkv : Shape := ⟨2, ![768, 256]⟩
abbrev SWp : Shape := ⟨2, ![256, 256]⟩
abbrev SBp : Shape := ⟨1, ![256]⟩

/-- Feature s * 256 + h * 32 + d of the 768 projected features. -/
def feat (s : Fin 3) (h : Fin 8) (d : Fin 32) : Fin 768 := ⟨s.val * 256 + h.val * 32 + d.val, by omega⟩

/-- Coordinate j = h * 32 + d of a row's 256 context coordinates: its head and its coordinate inside the head. -/
def headOf (j : Fin 256) : Fin 8 := ⟨j.val / 32, by omega⟩
def inHead (j : Fin 256) : Fin 32 := ⟨j.val % 32, Nat.mod_lt _ (by decide)⟩

variable (x : SX.Idx → EReal) (bias : SBias.Idx → EReal) (wqkv : SWqkv.Idx → EReal) (wp : SWp.Idx → EReal)
  (bp : SBp.Idx → EReal)

/-- Feature e of row (n, l) projected by wqkv. -/
def proj (n : Fin 256) (l : Fin 512) (e : Fin 768) : EReal := ∑ k : Fin 256, x (ix3 n l k) * wqkv (ix2 e k)

/-- The score of samples (n, m) at head h and position l. -/
def score (h : Fin 8) (l : Fin 512) (n m : Fin 256) : EReal :=
  (∑ d : Fin 32, proj x wqkv n l (feat 0 h d) * proj x wqkv m l (feat 1 h d)) * Ideal.ofBits .f32 0x3E3504F3#32
    + bias (ix2 n m)

/-- The largest score of row n (the fold starts from the word of minus infinity, and is met with it once more). -/
def rowMax (h : Fin 8) (l : Fin 512) (n : Fin 256) : EReal :=
  max (Ideal.ofBits .f32 0xFF800000#32)
    ((Finset.univ : Finset (Fin 256)).fold max (Ideal.ofBits .f32 0xFF800000#32) fun m => score x bias wqkv h l n m)

def expo (h : Fin 8) (l : Fin 512) (n m : Fin 256) : EReal :=
  Ideal.exp (score x bias wqkv h l n m - rowMax x bias wqkv h l n)

def denom (h : Fin 8) (l : Fin 512) (n : Fin 256) : EReal := ∑ m : Fin 256, expo x bias wqkv h l n m

def attn (h : Fin 8) (l : Fin 512) (n m : Fin 256) : EReal :=
  Ideal.div (expo x bias wqkv h l n m) (denom x bias wqkv h l n)

/-- Coordinate d of sample n's context at head h and position l. -/
def ctx (h : Fin 8) (l : Fin 512) (n : Fin 256) (d : Fin 32) : EReal :=
  ∑ m : Fin 256, attn x bias wqkv h l n m * proj x wqkv m l (feat 2 h d)

/-- Output feature e of row (n, l). -/
def out (n : Fin 256) (l : Fin 512) (e : Fin 256) : EReal :=
  (∑ j : Fin 256, ctx x bias wqkv (headOf j) l n (inHead j) * wp (ix2 e j)) + bp (ix1 e)

/-- The whole result array. -/
def G : SX.Idx → EReal := fun i => out x bias wqkv wp bp (i 0) (i 1) (i 2)

end Cert.Attn

end
-- ==== Proof.RefValue.lean ====
/-
  The reference program at the ideal instance, read one operation at a time, computes the function of Spec.lean.

  Every step is an equality of extended reals that holds by unfolding an operation at an explicit index and by index
  arithmetic: the 768 projected features of a row are cut into query / key / value, head and coordinate by the row-major
  reading of a reshape (feature s * 256 + h * 32 + d); the scores, their row maximum (a fold of max from minus infinity,
  met once more with minus infinity), the exponentials, their row sum (from zero), the quotient and the weighted sum of the
  values follow the program line by line; the contexts of a row are laid out again as 256 coordinates (j = h * 32 + d) and
  projected.  No algebraic law of the extended reals is used: both sides are the same expression.
-/
import proofs.«120296_j28346784154102_2_alg».proof.Proof.Gen.ReferenceIdeal.Read
import proofs.«120296_j28346784154102_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Stages

variable (x0 : (⟨S256x512x256, .f32⟩ : BufTy).Contents (Elt Ideal)) (x1 : (⟨S256x256, .f32⟩ : BufTy).Contents (Elt Ideal))
  (x2 : (⟨S768x256, .f32⟩ : BufTy).Contents (Elt Ideal)) (x3 : (⟨S256x256, .f32⟩ : BufTy).Contents (Elt Ideal))
  (x4 : (⟨S256, .f32⟩ : BufTy).Contents (Elt Ideal))

/-! ## The projection and its three readings -/

/-- The first contraction: feature e of row (n, l). -/
theorem v0_at (n : Fin 256) (l : Fin 512) (e : Fin 768) :
    val_main_v0 (F := Ideal) x0 x2 (ix3 n l e) = Attn.proj x0 x2 n l e := by
  rw [val_main_v0_apply]
  unfold Attn.proj
  refine Finset.sum_congr rfl fun k _ => ?_
  have el : lidx_main_v0 (ix3 n l e) k = ix3 n l k :=
    funext fun a => Fin.ext (by match a with | ⟨0, _⟩ => rfl | ⟨1, _⟩ => rfl | ⟨2, _⟩ => rfl)
  have er : ridx_main_v0 (ix3 n l e) k = ix2 e k :=
    funext fun a => Fin.ext (by match a with | ⟨0, _⟩ => rfl | ⟨1, _⟩ => rfl)
  rw [el, er]

/-- The reshape to five axes reads feature s * 256 + h * 32 + d: both sides have the same row-major position. -/
theorem v1_at (n : Fin 256) (l : Fin 512) (s : Fin 3) (h : Fin 8) (d : Fin 32) :
    val_main_v1 (F := Ideal) x0 x2 (ix5 n l s h d) = val_main_v0 (F := Ideal) x0 x2 (ix3 n l (Attn.feat s h d)) := by
  rw [val_main_v1_apply]
  refine congrArg _ (funext fun a => Fin.ext ?_)
  have hn := n.isLt; have hl := l.isLt; have hs := s.isLt; have hh := h.isLt; have hd := d.isLt
  match a with
  | ⟨0, _⟩ => show ((((n.val * 512 + l.val) * 3 + s.val) * 8 + h.val) * 32 + d.val) / 393216 = n.val; omega
  | ⟨1, _⟩ => show ((((n.val * 512 + l.val) * 3 + s.val) * 8 + h.val) * 32 + d.val) / 768 % 512 = l.val; omega
  | ⟨2, _⟩ =>
    show ((((n.val * 512 + l.val) * 3 + s.val) * 8 + h.val) * 32 + d.val) % 768 = s.val * 256 + h.val * 32 + d.val
    omega

/-- The slice at s = 0 keeps the other four coordinates. -/
theorem v2_at (n : Fin 256) (l : Fin 512) (h : Fin 8) (d : Fin 32) :
    val_main_v2 (F := Ideal) x0 x2 (ix5 n l (0 : Fin 1) h d) = val_main_v1 (F := Ideal) x0 x2 (ix5 n l (0 : Fin 3) h d) := by
  rw [val_main_v2_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- Dropping the axis of size one does not move an element. -/
theorem v3_at (n : Fin 256) (l : Fin 512) (h : Fin 8) (d : Fin 32) :
    val_main_v3 (F := Ideal) x0 x2 (ix4 n l h d) = val_main_v2 (F := Ideal) x0 x2 (ix5 n l (0 : Fin 1) h d) := by
  rw [val_main_v3_apply]
  refine congrArg _ (funext fun a => Fin.ext ?_)
  have hn := n.isLt; have hl := l.isLt; have hh := h.isLt; have hd := d.isLt
  match a with
  | ⟨0, _⟩ => show (((n.val * 512 + l.val) * 8 + h.val) * 32 + d.val) / 131072 = n.val; omega
  | ⟨1, _⟩ => show (((n.val * 512 + l.val) * 8 + h.val) * 32 + d.val) / 256 % 512 = l.val; omega
  | ⟨2, _⟩ => rfl
  | ⟨3, _⟩ => show (((n.val * 512 + l.val) * 8 + h.val) * 32 + d.val) / 32 % 8 = h.val; omega
  | ⟨4, _⟩ => show (((n.val * 512 + l.val) * 8 + h.val) * 32 + d.val) % 32 = d.val; omega

/-- The queries: coordinate d of head h, position l, sample n is feature 0 * 256 + h * 32 + d of row (n, l). -/
theorem v4_at (h : Fin 8) (l : Fin 512) (n : Fin 256) (d : Fin 32) :
    val_main_v4 (F := Ideal) x0 x2 (ix4 h l n d) = Attn.proj x0 x2 n l (Attn.feat 0 h d) := by
  rw [val_main_v4_apply]
  have e : idx_main_v4 (ix4 h l n d) = ix4 n l h d :=
    funext fun a => Fin.ext (by match a with | ⟨0, _⟩ => rfl | ⟨1, _⟩ => rfl | ⟨2, _⟩ => rfl | ⟨3, _⟩ => rfl)
  rw [e, v3_at, v2_at, v1_at, v0_at]

/-- The slice at s = 1 keeps the other four coordinates. -/
theorem v5_at (n : Fin 256) (l : Fin 512) (h : Fin 8) (d : Fin 32) :
    val_main_v5 (F := Ideal) x0 x2 (ix5 n l (0 : Fin 1) h d) = val_main_v1 (F := Ideal) x0 x2 (ix5 n l (1 : Fin 3) h d) := by
  rw [val_main_v5_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- Dropping the axis of size one does not move an element. -/
theorem v6_at (n : Fin 256) (l : Fin 512) (h : Fin 8) (d : Fin 32) :
    val_main_v6 (F := Ideal) x0 x2 (ix4 n l h d) = val_main_v5 (F := Ideal) x0 x2 (ix5 n l (0 : Fin 1) h d) := by
  rw [val_main_v6_apply]
  refine congrArg _ (funext fun a => Fin.ext ?_)
  have hn := n.isLt; have hl := l.isLt; have hh := h.isLt; have hd := d.isLt
  match a with
  | ⟨0, _⟩ => show (((n.val * 512 + l.val) * 8 + h.val) * 32 + d.val) / 131072 = n.val; omega
  | ⟨1, _⟩ => show (((n.val * 512 + l.val) * 8 + h.val) * 32 + d.val) / 256 % 512 = l.val; omega
  | ⟨2, _⟩ => rfl
  | ⟨3, _⟩ => show (((n.val * 512 + l.val) * 8 + h.val) * 32 + d.val) / 32 % 8 = h.val; omega
  | ⟨4, _⟩ => show (((n.val * 512 + l.val) * 8 + h.val) * 32 + d.val) % 32 = d.val; omega

/-- The keys: coordinate d of head h, position l, sample n is feature 1 * 256 + h * 32 + d of row (n, l). -/
theorem v7_at (h : Fin 8) (l : Fin 512) (n : Fin 256) (d : Fin 32) :
    val_main_v7 (F := Ideal) x0 x2 (ix4 h l n d) = Attn.proj x0 x2 n l (Attn.feat 1 h d) := by
  rw [val_main_v7_apply]
  have e : idx_main_v7 (ix4 h l n d) = ix4 n l h d :=
    funext fun a => Fin.ext (by match a with | ⟨0, _⟩ => rfl | ⟨1, _⟩ => rfl | ⟨2, _⟩ => rfl | ⟨3, _⟩ => rfl)
  rw [e, v6_at, v5_at, v1_at, v0_at]

/-- The slice at s = 2 keeps the other four coordinates. -/
theorem v8_at (n : Fin 256) (l : Fin 512) (h : Fin 8) (d : Fin 32) :
    val_main_v8 (F := Ideal) x0 x2 (ix5 n l (0 : Fin 1) h d) = val_main_v1 (F := Ideal) x0 x2 (ix5 n l (2 : Fin 3) h d) := by
  rw [val_main_v8_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- Dropping the axis of size one does not move an element. -/
theorem v9_at (n : Fin 256) (l : Fin 512) (h : Fin 8) (d : Fin 32) :
    val_main_v9 (F := Ideal) x0 x2 (ix4 n l h d) = val_main_v8 (F := Ideal) x0 x2 (ix5 n l (0 : Fin 1) h d) := by
  rw [val_main_v9_apply]
  refine congrArg _ (funext fun a => Fin.ext ?_)
  have hn := n.isLt; have hl := l.isLt; have hh := h.isLt; have hd := d.isLt
  match a with
  | ⟨0, _⟩ => show (((n.val * 512 + l.val) * 8 + h.val) * 32 + d.val) / 131072 = n.val; omega
  | ⟨1, _⟩ => show (((n.val * 512 + l.val) * 8 + h.val) * 32 + d.val) / 256 % 512 = l.val; omega
  | ⟨2, _⟩ => rfl
  | ⟨3, _⟩ => show (((n.val * 512 + l.val) * 8 + h.val) * 32 + d.val) / 32 % 8 = h.val; omega
  | ⟨4, _⟩ => show (((n.val * 512 + l.val) * 8 + h.val) * 32 + d.val) % 32 = d.val; omega

/-- The values: coordinate d of head h, position l, sample n is feature 2 * 256 + h * 32 + d of row (n, l). -/
theorem v10_at (h : Fin 8) (l : Fin 512) (n : Fin 256) (d : Fin 32) :
    val_main_v10 (F := Ideal) x0 x2 (ix4 h l n d) = Attn.proj x0 x2 n l (Attn.feat 2 h d) := by
  rw [val_main_v10_apply]
  have e : idx_main_v10 (ix4 h l n d) = ix4 n l h d :=
    funext fun a => Fin.ext (by match a with | ⟨0, _⟩ => rfl | ⟨1, _⟩ => rfl | ⟨2, _⟩ => rfl | ⟨3, _⟩ => rfl)
  rw [e, v9_at, v8_at, v1_at, v0_at]

/-! ## Scores and their row maximum -/

/-- The score of samples (n, m): the contraction over the head's 32 coordinates, the scale word, the bias. -/
theorem v16_at (h : Fin 8) (l : Fin 512) (n m : Fin 256) :
    val_main_v16 (F := Ideal) x0 x1 x2 (ix4 h l n m) = Attn.score x0 x1 x2 h l n m := by
  rw [val_main_v16_apply, val_main_v13_apply, val_main_v11_apply, val_main_v12_apply, val_main_cst_apply,
    val_main_v15_apply, val_main_v14_apply]
  have eb : idx_main_v14 (idx_main_v15 (ix4 h l n m)) = ix2 n m :=
    funext fun a => Fin.ext (by match a with | ⟨0, _⟩ => rfl | ⟨1, _⟩ => rfl)
  have es : ∀ k : Fin 32,
      val_main_v4 (F := Ideal) x0 x2 (lidx_main_v11 (ix4 h l n m) k) * val_main_v7 (F := Ideal) x0 x2 (ridx_main_v11 (ix4 h l n m) k)
        = Attn.proj x0 x2 n l (Attn.feat 0 h k) * Attn.proj x0 x2 m l (Attn.feat 1 h k) := fun k => by
    have el : lidx_main_v11 (ix4 h l n m) k = ix4 h l n k :=
      funext fun a => Fin.ext (by match a with | ⟨0, _⟩ => rfl | ⟨1, _⟩ => rfl | ⟨2, _⟩ => rfl | ⟨3, _⟩ => rfl)
    have er : ridx_main_v11 (ix4 h l n m) k = ix4 h l m k :=
      funext fun a => Fin.ext (by match a with | ⟨0, _⟩ => rfl | ⟨1, _⟩ => rfl | ⟨2, _⟩ => rfl | ⟨3, _⟩ => rfl)
    rw [el, er, v4_at, v7_at]
  rw [eb, Finset.sum_congr rfl fun k _ => es k]
  simp only [Ideal.addf_def, Ideal.mulf_def, Ideal.ofBits_def, Attn.score]

/-- A reduced index (h, l, n) with m put back on the last axis is (h, l, n, m). -/
theorem lift_at (hr : S8x512x256x256.Reduces [3] S8x512x256) (h : Fin 8) (l : Fin 512) (n : Fin 256)
    (k : Fin (S8x512x256x256.size 3)) : hr.lift (ix3 h l n) k = ix4 h l n (⟨k.val, k.isLt⟩ : Fin 256) := by
  funext c
  apply Fin.ext
  match c with
  | ⟨0, _⟩ => rfl
  | ⟨1, _⟩ => rfl
  | ⟨2, _⟩ => rfl
  | ⟨3, _⟩ => rfl

/-- The maximum-reduce over the last axis is the fold of max, from minus infinity, over the row's 256 scores. -/
theorem v17_at (h : Fin 8) (l : Fin 512) (n : Fin 256) :
    val_main_v17 (F := Ideal) x0 x1 x2 (ix3 h l n)
      = (Finset.univ : Finset (Fin 256)).fold max (Ideal.ofBits .f32 0xFF800000#32) fun m => Attn.score x0 x1 x2 h l n m := by
  have hr : S8x512x256x256.Reduces [3] S8x512x256 := by decide
  unfold val_main_v17
  rw [Host.reduce_eq_fold_single (FloatOps.maximumf (F := Ideal) (φ := .f32)) _ _ reducesTo_S8x512x256x256_S8x512x256_d3 hr h_S_]
  have hf : (val_main_v16 (F := Ideal) x0 x1 x2 ∘ hr.lift (ix3 h l n)) = fun m : Fin 256 => Attn.score x0 x1 x2 h l n m :=
    funext fun k => by
      show val_main_v16 (F := Ideal) x0 x1 x2 (hr.lift (ix3 h l n) k) = _
      rw [lift_at hr h l n k]
      exact v16_at x0 x1 x2 h l n _
  exact congrArg (fun f => Finset.fold max (Ideal.ofBits .f32 0xFF800000#32) f (Finset.univ : Finset (Fin 256))) hf

/-- Met once more with minus infinity: the row's largest score. -/
theorem v19_at (h : Fin 8) (l : Fin 512) (n : Fin 256) :
    val_main_v19 (F := Ideal) x0 x1 x2 (ix3 h l n) = Attn.rowMax x0 x1 x2 h l n := by
  rw [val_main_v19_apply, val_main_v18_apply, val_main_cst_1_apply, v17_at]
  simp only [Ideal.maximumf_def, Ideal.ofBits_def, Attn.rowMax]

/-! ## The softmax -/

/-- The row maximum, broadcast back along its row. -/
theorem v21_at (h : Fin 8) (l : Fin 512) (n m : Fin 256) :
    val_main_v21 (F := Ideal) x0 x1 x2 (ix4 h l n m) = Attn.rowMax x0 x1 x2 h l n := by
  rw [val_main_v21_apply, val_main_v20_apply]
  have e : idx_main_v20 (idx_main_v21 (ix4 h l n m)) = ix3 h l n :=
    funext fun a => Fin.ext (by match a with | ⟨0, _⟩ => rfl | ⟨1, _⟩ => rfl | ⟨2, _⟩ => rfl)
  rw [e, v19_at]

/-- The exponential of a score less its row's maximum. -/
theorem v23_at (h : Fin 8) (l : Fin 512) (n m : Fin 256) :
    val_main_v23 (F := Ideal) x0 x1 x2 (ix4 h l n m) = Attn.expo x0 x1 x2 h l n m := by
  rw [val_main_v23_apply, val_main_v22_apply, v16_at, v21_at]
  simp only [Ideal.hostUnary_exp_def, Ideal.subf_def, Attn.expo]

/-- The row's sum of exponentials: the sum starts from the zero word, which is zero. -/
theorem v24_at (h : Fin 8) (l : Fin 512) (n : Fin 256) :
    val_main_v24 (F := Ideal) x0 x1 x2 (ix3 h l n) = Attn.denom x0 x1 x2 h l n := by
  rw [val_main_v24_apply, val_main_cst_2_apply]
  have es : ∀ k : Fin 256,
      val_main_v23 (F := Ideal) x0 x1 x2 (idx_main_v24 (ix3 h l n) k) = Attn.expo x0 x1 x2 h l n k := fun k => by
    have e : idx_main_v24 (ix3 h l n) k = ix4 h l n k :=
      funext fun a => Fin.ext (by match a with | ⟨0, _⟩ => rfl | ⟨1, _⟩ => rfl | ⟨2, _⟩ => rfl | ⟨3, _⟩ => rfl)
    rw [e, v23_at]
  rw [Finset.sum_congr rfl fun k _ => es k]
  simp only [Ideal.ofBits_def, Ideal.ofBits_zero_f32, zero_add, Attn.denom]

/-- The row's sum, broadcast back along its row. -/
theorem v26_at (h : Fin 8) (l : Fin 512) (n m : Fin 256) :
    val_main_v26 (F := Ideal) x0 x1 x2 (ix4 h l n m) = Attn.denom x0 x1 x2 h l n := by
  rw [val_main_v26_apply, val_main_v25_apply]
  have e : idx_main_v25 (idx_main_v26 (ix4 h l n m)) = ix3 h l n :=
    funext fun a => Fin.ext (by match a with | ⟨0, _⟩ => rfl | ⟨1, _⟩ => rfl | ⟨2, _⟩ => rfl)
  rw [e, v24_at]

/-- The attention weight of sample m for sample n. -/
theorem v27_at (h : Fin 8) (l : Fin 512) (n m : Fin 256) :
    val_main_v27 (F := Ideal) x0 x1 x2 (ix4 h l n m) = Attn.attn x0 x1 x2 h l n m := by
  rw [val_main_v27_apply, v23_at, v26_at]
  simp only [Ideal.hostDivf_def, Attn.attn]

/-! ## The contexts and the output projection -/

/-- The context of sample n: the weighted sum over the samples m of m's values. -/
theorem v28_at (h : Fin 8) (l : Fin 512) (n : Fin 256) (d : Fin 32) :
    val_main_v28 (F := Ideal) x0 x1 x2 (ix4 h l n d) = Attn.ctx x0 x1 x2 h l n d := by
  rw [val_main_v28_apply]
  unfold Attn.ctx
  refine Finset.sum_congr rfl fun k _ => ?_
  have el : lidx_main_v28 (ix4 h l n d) k = ix4 h l n k :=
    funext fun a => Fin.ext (by match a with | ⟨0, _⟩ => rfl | ⟨1, _⟩ => rfl | ⟨2, _⟩ => rfl | ⟨3, _⟩ => rfl)
  have er : ridx_main_v28 (ix4 h l n d) k = ix4 h l k d :=
    funext fun a => Fin.ext (by match a with | ⟨0, _⟩ => rfl | ⟨1, _⟩ => rfl | ⟨2, _⟩ => rfl | ⟨3, _⟩ => rfl)
  rw [el, er, v27_at, v10_at]

/-- The transpose back to (sample, position, head, coordinate). -/
theorem v29_at (n : Fin 256) (l : Fin 512) (h : Fin 8) (d : Fin 32) :
    val_main_v29 (F := Ideal) x0 x1 x2 (ix4 n l h d) = Attn.ctx x0 x1 x2 h l n d := by
  rw [val_main_v29_apply]
  have e : idx_main_v29 (ix4 n l h d) = ix4 h l n d :=
    funext fun a => Fin.ext (by match a with | ⟨0, _⟩ => rfl | ⟨1, _⟩ => rfl | ⟨2, _⟩ => rfl | ⟨3, _⟩ => rfl)
  rw [e, v28_at]

/-- The reshape to 256 coordinates per row reads coordinate j at head j / 32, place j % 32: the same row-major position. -/
theorem v30_at (n : Fin 256) (l : Fin 512) (j : Fin 256) :
    val_main_v30 (F := Ideal) x0 x1 x2 (ix3 n l j) = Attn.ctx x0 x1 x2 (Attn.headOf j) l n (Attn.inHead j) := by
  rw [val_main_v30_apply]
  have e : idx_main_v30 (ix3 n l j) = ix4 n l (Attn.headOf j) (Attn.inHead j) := funext fun a => Fin.ext (by
    have hn := n.isLt; have hl := l.isLt; have hj := j.isLt
    match a with
    | ⟨0, _⟩ => show ((n.val * 512 + l.val) * 256 + j.val) / 131072 = n.val; omega
    | ⟨1, _⟩ => show ((n.val * 512 + l.val) * 256 + j.val) / 256 % 512 = l.val; omega
    | ⟨2, _⟩ => show ((n.val * 512 + l.val) * 256 + j.val) / 32 % 8 = j.val / 32; omega
    | ⟨3, _⟩ => show ((n.val * 512 + l.val) * 256 + j.val) % 32 = j.val % 32; omega)
  rw [e, v29_at]

/-- The last contraction: the row's 256 context coordinates against row e of the projection. -/
theorem v31_at (n : Fin 256) (l : Fin 512) (e : Fin 256) :
    val_main_v31 (F := Ideal) x0 x1 x2 x3 (ix3 n l e)
      = ∑ j : Fin 256, Attn.ctx x0 x1 x2 (Attn.headOf j) l n (Attn.inHead j) * x3 (ix2 e j) := by
  rw [val_main_v31_apply]
  refine Finset.sum_congr rfl fun k _ => ?_
  have el : lidx_main_v31 (ix3 n l e) k = ix3 n l k :=
    funext fun a => Fin.ext (by match a with | ⟨0, _⟩ => rfl | ⟨1, _⟩ => rfl | ⟨2, _⟩ => rfl)
  have er : ridx_main_v31 (ix3 n l e) k = ix2 e k :=
    funext fun a => Fin.ext (by match a with | ⟨0, _⟩ => rfl | ⟨1, _⟩ => rfl)
  rw [el, er, v30_at]

/-- The shift, broadcast over samples and positions. -/
theorem v33_at (n : Fin 256) (l : Fin 512) (e : Fin 256) : val_main_v33 (F := Ideal) x4 (ix3 n l e) = x4 (ix1 e) := by
  rw [val_main_v33_apply, val_main_v32_apply]
  exact congrArg x4 (funext fun a => Fin.ext (by match a with | ⟨0, _⟩ => rfl))

/-- The result at (n, l, e). -/
theorem v34_at (n : Fin 256) (l : Fin 512) (e : Fin 256) :
    val_main_v34 (F := Ideal) x0 x1 x2 x3 x4 (ix3 n l e) = Attn.out x0 x1 x2 x3 x4 n l e := by
  rw [val_main_v34_apply, v31_at, v33_at]
  simp only [Ideal.addf_def, Attn.out]

end Stages

/-- The reference's result array is the function of Spec.lean. -/
theorem ref_is_G (x0 : (⟨S256x512x256, .f32⟩ : BufTy).Contents (Elt Ideal)) (x1 : (⟨S256x256, .f32⟩ : BufTy).Contents (Elt Ideal)) (x2 : (⟨S768x256, .f32⟩ : BufTy).Contents (Elt Ideal)) (x3 : (⟨S256x256, .f32⟩ : BufTy).Contents (Elt Ideal)) (x4 : (⟨S256, .f32⟩ : BufTy).Contents (Elt Ideal)) :
    Cert.ReferenceIdeal.Read.val_main_v34 (F := Ideal) x0 x1 x2 x3 x4 = Cert.Attn.G x0 x1 x2 x3 x4 := by
  funext i
  obtain ⟨n, l, e, rfl⟩ : ∃ (n : Fin 256) (l : Fin 512) (e : Fin 256), i = ix3 n l e := ⟨i 0, i 1, i 2, eq_ix3 i⟩
  rw [v34_at]
  rfl

end Cert.RefSide

end
-- ==== Proof.LibMatmulNT.lean ====
/-
  A matrix product against a transposed right operand, read at an entry.

  For a product of an [M, K] matrix with an [N, K] matrix in which BOTH operands contract their second axis (A · Bᵀ:
  the scores of M query rows against N key rows), taken into the zero accumulator and read at the exact extended
  reals, entry (p, q) is the sum over k of A (p, k) * B (q, k). Generic in the three extents and in the
  dimension-number record: any record with these six lists has these operand indices.
-/
import Idealize.ShloMosaic.PureOps.Ideal.Laws
import Idealize.ShloMosaic.Lib.ValueIdx

noncomputable section

namespace Cert.Lib.MatmulNT

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_nt (d : DotDims ⟨2, ![M, K]⟩ ⟨2, ![N, K]⟩ ⟨2, ![M, N]⟩) (hlc : d.lhsContracting = [1]) :
    d.contr.rank = 1 := by rw [d.rank_contr, hlc]; rfl

/-- of extent K. -/
theorem contr_size_nt (d : DotDims ⟨2, ![M, K]⟩ ⟨2, ![N, K]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_nt (d : DotDims ⟨2, ![M, K]⟩ ⟨2, ![N, K]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (q, k). -/
theorem rhsIdx_nt (d : DotDims ⟨2, ![M, K]⟩ ⟨2, ![N, K]⟩ ⟨2, ![M, N]⟩)
    (hlb : d.lhsBatch = []) (hln : d.lhsNonContracting = [0])
    (hrb : d.rhsBatch = []) (hrn : d.rhsNonContracting = [0]) (hrc : d.rhsContracting = [1])
    (hr : d.contr.rank = 1) (hs : d.contr.size ⟨0, by omega⟩ = K) (p : Fin M) (q : Fin N) (k : Fin K) :
    d.rhsIdx (ix2 p q) ((contrEquiv1 d K hr hs).symm k) = ix2 q k := by
  funext a
  apply Fin.ext
  match a with
  | ⟨0, h0⟩ =>
    have hb : (⟨0, h0⟩ : Fin 2) ∉ d.rhsBatch := by rw [hrb]; exact List.not_mem_nil
    have hn : (⟨0, h0⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])
  | ⟨1, h1⟩ =>
    exact (d.rhsIdx_val_of_single hrc (ix2 p q) _).trans (contrEquiv1_symm_val d K hr hs k)

/-- Entry (p, q) of the product into the zero accumulator is the sum over k of A (p, k) * B (q, k). -/
theorem matmul_nt_apply {φ₁ φ₂ : FTy} (d : DotDims ⟨2, ![M, K]⟩ ⟨2, ![N, K]⟩ ⟨2, ![M, N]⟩)
    (hlb : d.lhsBatch = []) (hln : d.lhsNonContracting = [0]) (hlc : d.lhsContracting = [1])
    (hrb : d.rhsBatch = []) (hrn : d.rhsNonContracting = [0]) (hrc : d.rhsContracting = [1])
    (prec : Option ContractPrecision) (A : FVec Ideal ⟨2, ![M, K]⟩ φ₁) (B : FVec Ideal ⟨2, ![N, K]⟩ φ₂)
    (p : Fin M) (q : Fin N) :
    matmul d prec A B (constant (F := Ideal) ⟨2, ![M, N]⟩ .f32 0x00000000#32) (ix2 p q)
      = ∑ k : Fin K, A (ix2 p k) * B (ix2 q k) := by
  have hr : d.contr.rank = 1 := contr_rank_nt d hlc
  have hs : d.contr.size ⟨0, by omega⟩ = K := contr_size_nt d hlc _
  refine (Ideal.matmul_constant_zero_apply d prec A B (ix2 p q)).trans ?_
  rw [← Equiv.sum_comp (contrEquiv1 d K hr hs).symm]
  refine Finset.sum_congr rfl fun k _ => ?_
  rw [lhsIdx_nt d hlb hln hlc hr hs p q k, rhsIdx_nt d hlb hln hrb hrn hrc hr hs p q k]

end Cert.Lib.MatmulNT

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«120296_j28346784154102_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.LibSlabCast.lean ====
/-
  Unit leading axes dropped from or added to a matrix by a shape cast, read at an index: a [1, 1, 1, a, b] slab viewed
  as the [a, b] matrix it holds, and an [a, b] matrix stored as a [1, 1, a, b] slab. General in the two extents; nothing
  here mentions a program.
-/
import Idealize.ShloMosaic.Lib.ValueIdx
import Idealize.ShloMosaic.Lib.Pipeline.Value

namespace Cert.Lib.SlabCast

open Idealize.ShloMosaic Idealize.ShloMosaic.ValueIdx

variable {α : Type}

/-- A `[1, 1, 1, a, b]` array cast to `[a, b]` reads, at `(i, j)`, the operand at `(0, 0, 0, i, j)`: both indices have
    row-major position `i * b + j`. -/
theorem shapeCast_111ab_ab_apply {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add, Nat.mul_one, Nat.add_zero])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add, Nat.mul_one, Nat.add_zero])

end Cert.Lib.SlabCast
-- ==== Proof.KI.PayValue.lean ====
/-
  The three kernel bodies' stored values read at an index, at the exact extended reals.

  Each body stores one pure term of the blocks it loaded. Here each such term is read at one index of the stored
  block and written as the arithmetic it is: a row of the left block against a row of the right block for the two
  projections (both operands contract their second axis), plus the bias row for the output projection; and, for one
  position's trip of the attention body, the softmax over the key index of the scaled, biased scores applied to the
  values.
-/
import proofs.«120296_j28346784154102_2_alg».proof.Proof.Gen.KernelIdeal.Skeleton
import proofs.«120296_j28346784154102_2_alg».proof.Proof.LibMatmulNT
import proofs.«120296_j28346784154102_2_alg».proof.Proof.LibPlainMatmul
import proofs.«120296_j28346784154102_2_alg».proof.Proof.LibRowReduce
import proofs.«120296_j28346784154102_2_alg».proof.Proof.LibKeepdims
import proofs.«120296_j28346784154102_2_alg».proof.Proof.LibSlabCast
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Idealize.ShloMosaic Idealize.ShloMosaic.ValueIdx
open Cert.KernelIdeal

/-! ## The two projections -/

/-- The first body's stored block at (p, q): row p of the loaded rows against row q of the projection matrix.
    The casts to the same shape and the narrowings are the identity on exact values; the product is taken into
    the zero accumulator with both operands contracting their second axis. -/
theorem pay0_apply (x0 : Vec Ideal S4096x256 .f32) (x1 : Vec Ideal S768x256 .bf16) (p : Fin 4096) (q : Fin 768) :
    Gen.k0_pay1 (F := Ideal) x0 x1 (ix2 p q) = ∑ k : Fin 256, x0 (ix2 p k) * x1 (ix2 q k) := by
  unfold Gen.k0_pay1
  rw [truncf_apply]
  refine (Cert.Lib.MatmulNT.matmul_nt_apply _ rfl rfl rfl rfl rfl rfl none _ _ p q).trans ?_
  refine Finset.sum_congr rfl fun k _ => ?_
  rw [truncf_apply, shapeCast_self, shapeCast_self]

/-- The third body's stored block at (p, q): row p of the loaded rows against row q of the output matrix, plus
    entry q of the bias row (the one-row array repeated down the block's rows). -/
theorem pay2_apply (x0 : Vec Ideal S4096x256 .bf16) (x1 : Vec Ideal S256x256 .bf16) (x2 : Vec Ideal S1x256 .f32)
    (p : Fin 4096) (q : Fin 256) :
    Gen.k2_pay1 (F := Ideal) x0 x1 x2 (ix2 p q)
      = (∑ k : Fin 256, x0 (ix2 p k) * x1 (ix2 q k)) + x2 (ix2 (0 : Fin 1) q) := by
  unfold Gen.k2_pay1
  rw [addf_apply, broadcastTo_1b_ab_apply, shapeCast_self, shapeCast_self, shapeCast_self]
  congr 1
  exact Cert.Lib.MatmulNT.matmul_nt_apply _ rfl rfl rfl rfl rfl rfl none _ _ p q

/-! ## One position's trip of the attention body

b is the [256, 256] bias block; qv, kv, vv are one position's [1, 1, 1, 256, 32] slabs of queries, keys and values
(256 samples, 32 coordinates of one head). -/

/-- The score of samples (n, m): the dot product of n's query and m's key, times the scale word, plus the bias. -/
def sc (b : Vec Ideal S256x256 .f32) (qv kv : Vec Ideal S1x1x1x256x32 .bf16) (n m : Fin 256) : EReal :=
  (∑ d : Fin 32, qv (ix5 (0 : Fin 1) (0 : Fin 1) (0 : Fin 1) n d) * kv (ix5 (0 : Fin 1) (0 : Fin 1) (0 : Fin 1) m d))
    * Ideal.ofBits .f32 0x3E3504F3#32 + b (ix2 n m)

/-- The largest score of row n: the fold of max from the word of minus infinity, met with that word once more. -/
def mx (b : Vec Ideal S256x256 .f32) (qv kv : Vec Ideal S1x1x1x256x32 .bf16) (n : Fin 256) : EReal :=
  max (Ideal.ofBits .f32 0xFF800000#32)
    ((Finset.univ : Finset (Fin 256)).fold max (Ideal.ofBits .f32 0xFF800000#32) fun m => sc b qv kv n m)

section Trip

variable (b : Vec Ideal S256x256 .f32) (qv kv vv : Vec Ideal S1x1x1x256x32 .bf16)

/-- The score matrix as the body builds it: queries times transposed keys into the zero accumulator, scaled, plus
    the bias block. -/
def scoreMat : FVec Ideal S256x256 .f32 :=
  addf (mulf (matmul dot_S256x32_S32x256_S256x256_1_0_0_1_n_n none
        (shapeCast S256x32 qv Gen.shapeCasts_S1x1x1x256x32_S256x32 : FVec Ideal S256x32 .bf16)
        (transpose S32x256 [1, 0] (shapeCast S256x32 kv Gen.shapeCasts_S1x1x1x256x32_S256x32 : FVec Ideal S256x32 .bf16)
          Gen.transposes_S256x32_p1_0_S32x256 : FVec Ideal S32x256 .bf16)
        (constant S256x256 .f32 0x00000000#32))
      (broadcast S256x256 (Scalar.ofBits .f32 0x3E3504F3#32))) b

/-- The row maxima of the score matrix, met with minus infinity, kept as a column and repeated along the rows. -/
def maxCol : FVec Ideal S256x256 .f32 :=
  broadcastTo S256x256
    (shapeCast S256x1
      (maximumf (broadcast S256 (Scalar.ofBits .f32 0xFF800000#32))
        (multiReduction .maximumf [1] S256 (scoreMat b qv kv) 0xFF800000#32 Gen.reduces_S256x256_S256 (.inl rfl) rfl))
      Gen.shapeCasts_S256_S256x1)
    Gen.broadcasts_S256x1_S256x256

/-- The exponentials of the scores less their row's maximum. -/
def expMat : FVec Ideal S256x256 .f32 := exp (subf (scoreMat b qv kv) (maxCol b qv kv))

/-- The row sums of the exponentials, kept as a column and repeated along the rows. -/
def sumCol : FVec Ideal S256x256 .f32 :=
  broadcastTo S256x256
    (shapeCast S256x1
      (multiReduction .add [1] S256 (expMat b qv kv) 0x00000000#32 Gen.reduces_S256x256_S256 (.inl rfl) rfl)
      Gen.shapeCasts_S256_S256x1)
    Gen.broadcasts_S256x1_S256x256

/-- The trip's stored value is the quotient of the last two, times the values, laid out as a [1, 1, 256, 32] slab
    (the narrowings in between are the identity on exact values). -/
theorem pay1_eq : Gen.k1_pay1 (F := Ideal) b qv kv vv
    = shapeCast S1x1x256x32
        (truncf .bf16
          (matmul dot_S256x256_S256x32_S256x32_1_0_0_1_n_n none
            (truncf .bf16 (divf (expMat b qv kv) (sumCol b qv kv)) Gen.bitsLt_bf16_f32)
            (shapeCast S256x32 vv Gen.shapeCasts_S1x1x1x256x32_S256x32 : FVec Ideal S256x32 .bf16)
            (constant S256x32 .f32 0x00000000#32))
          Gen.bitsLt_bf16_f32)
        Gen.shapeCasts_S256x32_S1x1x256x32 := rfl

/-- The score matrix at (n, m) is the score of samples (n, m). -/
theorem scoreMat_apply (n m : Fin 256) : scoreMat b qv kv (ix2 n m) = sc b qv kv n m := by
  unfold scoreMat sc
  rw [addf_apply, mulf_apply, broadcast_apply]
  refine congrArg₂ (· + ·) (congrArg₂ (· * ·) ?_ rfl) rfl
  refine (Cert.SE.Lib.matmul_plain_apply _ rfl rfl rfl rfl rfl rfl none _ _ n m).trans ?_
  refine Finset.sum_congr rfl fun d _ => ?_
  rw [transpose_ix2_apply, Cert.Lib.SlabCast.shapeCast_111ab_ab_apply, Cert.Lib.SlabCast.shapeCast_111ab_ab_apply]

/-- The column of row maxima at (n, m) is the largest score of row n. -/
theorem maxCol_apply (n m : Fin 256) : maxCol b qv kv (ix2 n m) = mx b qv kv n := by
  unfold maxCol mx
  rw [Cert.Lib.broadcastTo_a1_ab_apply, Cert.Lib.shapeCast_a_a1_apply, maximumf_apply, broadcast_apply]
  refine congrArg₂ max rfl ?_
  refine ((Cert.Lib.shapeCast_a_a1_apply _ Gen.shapeCasts_S256_S256x1 n (0 : Fin 1)).symm.trans
    (Cert.Lib.rowMax_col (scoreMat b qv kv) _ _ _ _ _ n (0 : Fin 1))).trans ?_
  exact congrArg (fun f => (Finset.univ : Finset (Fin 256)).fold max (Ideal.ofBits .f32 0xFF800000#32) f)
    (funext fun k => scoreMat_apply b qv kv n k)

/-- The exponentials at (n, m). -/
theorem expMat_apply (n m : Fin 256) :
    expMat b qv kv (ix2 n m) = Ideal.exp (sc b qv kv n m - mx b qv kv n) := by
  unfold expMat
  show Ideal.exp (scoreMat b qv kv (ix2 n m) - maxCol b qv kv (ix2 n m)) = _
  rw [scoreMat_apply, maxCol_apply]

/-- The column of row sums at (n, m) is the sum of row n's exponentials. -/
theorem sumCol_apply (n m : Fin 256) :
    sumCol b qv kv (ix2 n m) = ∑ m' : Fin 256, Ideal.exp (sc b qv kv n m' - mx b qv kv n) := by
  unfold sumCol
  rw [Cert.Lib.broadcastTo_a1_ab_apply]
  refine (Cert.Lib.rowSum_col (expMat b qv kv) _ _ _ _ _ n (0 : Fin 1)).trans ?_
  exact Finset.sum_congr rfl fun k _ => expMat_apply b qv kv n k

/-- The trip's stored slab at (0, 0, n, d): the softmax over the key index m of row n's scores, applied to
    coordinate d of the values. -/
theorem pay1_apply (n : Fin 256) (d : Fin 32) :
    Gen.k1_pay1 (F := Ideal) b qv kv vv (ix4 (0 : Fin 1) (0 : Fin 1) n d)
      = ∑ m : Fin 256, Ideal.div (Ideal.exp (sc b qv kv n m - mx b qv kv n))
            (∑ m' : Fin 256, Ideal.exp (sc b qv kv n m' - mx b qv kv n))
          * vv (ix5 (0 : Fin 1) (0 : Fin 1) (0 : Fin 1) m d) := by
  rw [pay1_eq, Cert.Lib.SlabCast.shapeCast_ab_11ab_apply, truncf_apply]
  refine (Cert.SE.Lib.matmul_plain_apply _ rfl rfl rfl rfl rfl rfl none _ _ n d).trans ?_
  refine Finset.sum_congr rfl fun m _ => ?_
  rw [truncf_apply, divf_apply, expMat_apply, sumCol_apply, Cert.Lib.SlabCast.shapeCast_111ab_ab_apply]

end Trip

end Cert.KernelIdeal.KV

end
-- ==== Proof.KI.Block1.lean ====
/-
  The attention region's output block as one function of its input blocks.

  At a grid point the body's loop makes 32 trips; trip k reads the k-th [256, 32] slab of the point's query, key and
  value blocks and stores one [256, 32] slab, at offset k along the second axis, of the output's block: the payload of
  the bias and of the three slabs. Here the trip's one stored piece is read off the trip's run, the body's run is shown
  to leave exactly the trips' pieces, each piece is shown to be a slab of ONE function of the input blocks, and since
  the pieces cover the block the output's staging buffer ends holding that function: at (0, k, n, d), the payload of the
  bias and of the k-th slabs, at (0, 0, n, d). All of it at any float instance; the last statement is read at the ideal
  one.
-/
import proofs.«120296_j28346784154102_2_alg».proof.Proof.KI.R1
import Idealize.ShloMosaic.Lib.Pipeline.Value
import Idealize.ShloMosaic.Lib.ValueIdx

set_option maxRecDepth 16384

noncomputable section

namespace Cert.KernelIdeal.KV.Blk

open Cert.KernelIdeal Cert.KernelIdeal.Gen Idealize.ShloMosaic Idealize.ShloMosaic.TcCoe Idealize.SL.Sem
open Idealize.ShloMosaic.ValueIdx
open Idealize.ShloMosaic.Pipeline (Dat)

/-- The k-th [1, 1, 1, 256, 32] slab of a [1, 1, 32, 256, 32] block: the rectangle trip k loads through. -/
abbrev rIn (k : Fin k1_t1_loop.trips) : Rect S1x1x32x256x32 :=
  Rect.unit (s := S1x1x32x256x32) (k1_off1 k) S1x1x1x256x32.size (k1_off1_inb k)

section Pieces

variable {F : FTy → Type} [FloatOps F]

/-! ## The trip's one piece, and the run's pieces -/

/-- What trip k stores: at the [1, 1, 256, 32] slab at offset k along the output block's second axis, the payload of
    the bias and of the three loads of the [1, 1, 1, 256, 32] slab at offset k along the inputs' third axis. -/
def piece1 (arg2 arg3 arg4 : Memref sig .tc .vmem S1x1x32x256x32 .bf16) (v0 : Vec F S256x256 .f32)
    (X_arg2 : BufTy.Contents (Elt F) arg2.view.ty) (X_arg3 : BufTy.Contents (Elt F) arg3.view.ty) (X_arg4 : BufTy.Contents (Elt F) arg4.view.ty)
    (k : Fin k1_t1_loop.trips) : View.Piece (Elt F) S1x32x256x32 .bf16 :=
  ⟨(Rect.unit (s := S1x32x256x32) (k1_off2 k) S1x1x256x32.size (k1_off2_inb k)),
    Gen.k1_pay1 v0 (View.readAt (Elt F) arg2.view (Rect.unit (s := S1x1x32x256x32) (k1_off1 k) S1x1x1x256x32.size (k1_off1_inb k)).toLoadRect X_arg2)
      (View.readAt (Elt F) arg3.view (Rect.unit (s := S1x1x32x256x32) (k1_off1 k) S1x1x1x256x32.size (k1_off1_inb k)).toLoadRect X_arg3)
      (View.readAt (Elt F) arg4.view (Rect.unit (s := S1x1x32x256x32) (k1_off1 k) S1x1x1x256x32.size (k1_off1_inb k)).toLoadRect X_arg4)⟩

/-- Trip k's pieces are that one store (the trip's run opened, here only). -/
theorem tripL_eq (𝒱 : Variants) (c : Dev nD) (bd : Option 𝒱.V) (i : grid1.Coords) (arg2 : Memref sig .tc .vmem S1x1x32x256x32 .bf16) (harg2 : arg2.IsWhole) (arg3 : Memref sig .tc .vmem S1x1x32x256x32 .bf16) (harg3 : arg3.IsWhole) (arg4 : Memref sig .tc .vmem S1x1x32x256x32 .bf16) (harg4 : arg4.IsWhole) (arg5 : Memref sig .tc .vmem S256x256 .f32) (harg5 : arg5.IsWhole) (arg6 : Memref sig .tc .vmem S1x32x256x32 .bf16) (harg6 : arg6.IsWhole)
    (v0 : Vec F S256x256 .f32) (X_arg2 : BufTy.Contents (Elt F) arg2.view.ty) (X_arg3 : BufTy.Contents (Elt F) arg3.view.ty) (X_arg4 : BufTy.Contents (Elt F) arg4.view.ty) (k : Fin k1_t1_loop.trips) :
    Gen.tripL_k1_t1 (F := F) 𝒱 c bd i arg2 harg2 arg3 harg3 arg4 harg4 arg5 harg5 arg6 harg6 v0 X_arg2 X_arg3 X_arg4 k = [piece1 arg2 arg3 arg4 v0 X_arg2 X_arg3 X_arg4 k] := by
  unfold Gen.tripL_k1_t1
  unfold Gen.trip_k1_t1
  rfl

/-- Every piece of the trips below n is some trip's one store. -/
theorem pb_mem (𝒱 : Variants) (c : Dev nD) (bd : Option 𝒱.V) (i : grid1.Coords) (arg2 : Memref sig .tc .vmem S1x1x32x256x32 .bf16) (harg2 : arg2.IsWhole) (arg3 : Memref sig .tc .vmem S1x1x32x256x32 .bf16) (harg3 : arg3.IsWhole) (arg4 : Memref sig .tc .vmem S1x1x32x256x32 .bf16) (harg4 : arg4.IsWhole) (arg5 : Memref sig .tc .vmem S256x256 .f32) (harg5 : arg5.IsWhole) (arg6 : Memref sig .tc .vmem S1x32x256x32 .bf16) (harg6 : arg6.IsWhole)
    (v0 : Vec F S256x256 .f32) (X_arg2 : BufTy.Contents (Elt F) arg2.view.ty) (X_arg3 : BufTy.Contents (Elt F) arg3.view.ty) (X_arg4 : BufTy.Contents (Elt F) arg4.view.ty) :
    ∀ (n : ℕ) (p : View.Piece (Elt F) S1x32x256x32 .bf16), p ∈ Gen.pb_k1_t1 (F := F) 𝒱 c bd i arg2 harg2 arg3 harg3 arg4 harg4 arg5 harg5 arg6 harg6 v0 X_arg2 X_arg3 X_arg4 n →
      ∃ k : Fin k1_t1_loop.trips, p = piece1 arg2 arg3 arg4 v0 X_arg2 X_arg3 X_arg4 k
  | 0, p, h => by rw [Gen.pb_k1_t1.eq_1] at h; exact absurd h List.not_mem_nil
  | n + 1, p, h => by
    rw [Gen.pb_k1_t1.eq_2] at h
    unfold Gen.pb_k1_t1Step at h
    by_cases hn : n < k1_t1_loop.trips
    · rw [dif_pos hn, tripL_eq] at h
      rcases List.mem_append.mp h with h | h
      · exact ⟨⟨n, hn⟩, List.mem_singleton.mp h⟩
      · exact pb_mem 𝒱 c bd i arg2 harg2 arg3 harg3 arg4 harg4 arg5 harg5 arg6 harg6 v0 X_arg2 X_arg3 X_arg4 n p h
    · rw [dif_neg hn] at h
      exact pb_mem 𝒱 c bd i arg2 harg2 arg3 harg3 arg4 harg4 arg5 harg5 arg6 harg6 v0 X_arg2 X_arg3 X_arg4 n p h

/-- The body's run leaves the pieces of all the loop's trips, over the bias as loaded and the inputs' buffers as
    found (the run's definition opened, here only). -/
theorem kernelRun1_pieces (c : Dev nD) (i : grid1.Coords) (arg2 : Memref sig .tc .vmem S1x1x32x256x32 .bf16) (harg2 : arg2.IsWhole) (arg3 : Memref sig .tc .vmem S1x1x32x256x32 .bf16) (harg3 : arg3.IsWhole) (arg4 : Memref sig .tc .vmem S1x1x32x256x32 .bf16) (harg4 : arg4.IsWhole) (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) :
    (Hand.kernelRun1 c i arg2 harg2 arg3 harg3 arg4 harg4 arg5 harg5 arg6 harg6 x0 x1 x2 x3).1
      = Gen.pb_k1_t1 (F := F) Variants.none c none i arg2 harg2 arg3 harg3 arg4 harg4 arg5 harg5 arg6 harg6
          (View.readAt (Elt F) arg5.view (Rect.unit (s := S256x256) ![0, 0] S256x256.size inb_S256x256_S256x256_0_0).toLoadRect (harg5.unread x3))
          (harg2.unread x0) (harg3.unread x1) (harg4.unread x2) (Scf.trips k1_t1_loop.lb k1_t1_loop.ub k1_t1_loop.st) := by
  unfold Hand.kernelRun1
  rfl

/-! ## The output's block as one function of the input blocks -/

/-- The bias is loaded from offsets zero on both axes. -/
theorem zero_offsets1 : (![0, 0] : Fin 2 → Nat) = fun _ => 0 := funext fun a => by fin_cases a <;> rfl

/-- Slab k of a [1, 1, 32, 256, 32] block: its [1, 1, 1, 256, 32] slice at offset k along the third axis. -/
def slab1 (x : Vec F S1x1x32x256x32 .bf16) (k : Fin 32) : Vec F S1x1x1x256x32 .bf16 :=
  fun j => x (ix5 (0 : Fin 1) (0 : Fin 1) k (j 3) (j 4))

/-- What the body leaves in the output's block, as one function of the three input blocks and the bias: at
    (u, k, n, d) the payload of the bias and of slab k of each block, at (0, 0, n, d). -/
def block1 (x0 x1 x2 : Vec F S1x1x32x256x32 .bf16) (x3 : Vec F S256x256 .f32) : S1x32x256x32.Idx → Elt F .bf16 := fun y =>
  Gen.k1_pay1 x3 (slab1 x0 (y 1)) (slab1 x1 (y 1)) (slab1 x2 (y 1)) (ix4 (0 : Fin 1) (0 : Fin 1) (y 2) (y 3))

/-- A load through trip k's rectangle reads slab k. -/
theorem ld_slab1 (x : Vec F S1x1x32x256x32 .bf16) (k : Fin k1_t1_loop.trips) (k' : Fin 32) (hk : k'.val = k.val) :
    View.ld x (Rect.unit (s := S1x1x32x256x32) (k1_off1 k) S1x1x1x256x32.size (k1_off1_inb k)) = slab1 x k' := by
  have e0 : k1_off1 k (0 : Fin 5) = 0 := congrFun (k1_off1_eq k) 0
  have e1 : k1_off1 k (1 : Fin 5) = 0 := congrFun (k1_off1_eq k) 1
  have e2 : k1_off1 k (2 : Fin 5) = k.val := congrFun (k1_off1_eq k) 2
  have e3 : k1_off1 k (3 : Fin 5) = 0 := congrFun (k1_off1_eq k) 3
  have e4 : k1_off1 k (4 : Fin 5) = 0 := congrFun (k1_off1_eq k) 4
  funext j
  have h0 : (j 0).val < 1 := (j 0).isLt
  have h1 : (j 1).val < 1 := (j 1).isLt
  have h2 : (j 2).val < 1 := (j 2).isLt
  show x _ = x _
  congr 1
  funext a
  apply Fin.ext
  match a with
  | ⟨0, _⟩ => show k1_off1 k (0 : Fin 5) + 1 * (j 0).val = 0; rw [e0]; omega
  | ⟨1, _⟩ => show k1_off1 k (1 : Fin 5) + 1 * (j 1).val = 0; rw [e1]; omega
  | ⟨2, _⟩ => show k1_off1 k (2 : Fin 5) + 1 * (j 2).val = k'.val; rw [e2]; omega
  | ⟨3, _⟩ => show k1_off1 k (3 : Fin 5) + 1 * (j 3).val = (j 3).val; rw [e3]; omega
  | ⟨4, _⟩ => show k1_off1 k (4 : Fin 5) + 1 * (j 4).val = (j 4).val; rw [e4]; omega

/-- Trip k's piece is the block function's slab k: its payload at a local index is the function at the index's place
    in the block. -/
theorem piece1_apply (arg2 : Memref sig .tc .vmem S1x1x32x256x32 .bf16) (harg2 : arg2.IsWhole) (arg3 : Memref sig .tc .vmem S1x1x32x256x32 .bf16) (harg3 : arg3.IsWhole)
    (arg4 : Memref sig .tc .vmem S1x1x32x256x32 .bf16) (harg4 : arg4.IsWhole) (arg5 : Memref sig .tc .vmem S256x256 .f32) (harg5 : arg5.IsWhole)
    (x0 x1 x2 : Vec F S1x1x32x256x32 .bf16) (x3 : Vec F S256x256 .f32) (k : Fin k1_t1_loop.trips)
    (x : (Rect.unit (s := S1x32x256x32) (k1_off2 k) S1x1x256x32.size (k1_off2_inb k)).shape.Idx) :
    Gen.k1_pay1 (View.readAt (Elt F) arg5.view (Rect.unit (s := S256x256) ![0, 0] S256x256.size inb_S256x256_S256x256_0_0).toLoadRect (harg5.unread x3))
        (View.readAt (Elt F) arg2.view (Rect.unit (s := S1x1x32x256x32) (k1_off1 k) S1x1x1x256x32.size (k1_off1_inb k)).toLoadRect (harg2.unread x0))
        (View.readAt (Elt F) arg3.view (Rect.unit (s := S1x1x32x256x32) (k1_off1 k) S1x1x1x256x32.size (k1_off1_inb k)).toLoadRect (harg3.unread x1))
        (View.readAt (Elt F) arg4.view (Rect.unit (s := S1x1x32x256x32) (k1_off1 k) S1x1x1x256x32.size (k1_off1_inb k)).toLoadRect (harg4.unread x2)) x
      = block1 x0 x1 x2 x3 ((Rect.unit (s := S1x32x256x32) (k1_off2 k) S1x1x256x32.size (k1_off2_inb k)).emb x) := by
  have e0 : k1_off2 k (0 : Fin 4) = 0 := congrFun (k1_off2_eq k) 0
  have e1 : k1_off2 k (1 : Fin 4) = k.val := congrFun (k1_off2_eq k) 1
  have e2 : k1_off2 k (2 : Fin 4) = 0 := congrFun (k1_off2_eq k) 2
  have e3 : k1_off2 k (3 : Fin 4) = 0 := congrFun (k1_off2_eq k) 3
  have h0 : (x 0).val < 1 := (x 0).isLt
  have h1 : (x 1).val < 1 := (x 1).isLt
  have hk : (((Rect.unit (s := S1x32x256x32) (k1_off2 k) S1x1x256x32.size (k1_off2_inb k)).emb x) 1).val = k.val := by
    show k1_off2 k (1 : Fin 4) + 1 * (x 1).val = k.val; rw [e1]; omega
  have hx : x = ix4 (0 : Fin 1) (0 : Fin 1) (((Rect.unit (s := S1x32x256x32) (k1_off2 k) S1x1x256x32.size (k1_off2_inb k)).emb x) 2) (((Rect.unit (s := S1x32x256x32) (k1_off2 k) S1x1x256x32.size (k1_off2_inb k)).emb x) 3) := by
    funext a
    apply Fin.ext
    match a with
    | ⟨0, _⟩ => show (x 0).val = 0; omega
    | ⟨1, _⟩ => show (x 1).val = 0; omega
    | ⟨2, _⟩ => show (x 2).val = k1_off2 k (2 : Fin 4) + 1 * (x 2).val; rw [e2]; omega
    | ⟨3, _⟩ => show (x 3).val = k1_off2 k (3 : Fin 4) + 1 * (x 3).val; rw [e3]; omega
  unfold block1
  simp only [View.readAt_eq_ld, harg2.read_unread, harg3.read_unread, harg4.read_unread, harg5.read_unread,
    View.ld_unit_zero (S := S256x256) zero_offsets1]
  rw [ld_slab1 x0 k _ hk, ld_slab1 x1 k _ hk, ld_slab1 x2 k _ hk]
  exact congrArg _ hx

/-- So the output's staging buffer after the body holds the block function of the input blocks: the run's pieces are
    the trips' stores, each a slab of the function, and they cover the block. -/
theorem out1_4_eq (c : Dev nD) (i : grid1.Coords) (arg2 : Memref sig .tc .vmem S1x1x32x256x32 .bf16) (harg2 : arg2.IsWhole) (arg3 : Memref sig .tc .vmem S1x1x32x256x32 .bf16) (harg3 : arg3.IsWhole) (arg4 : Memref sig .tc .vmem S1x1x32x256x32 .bf16) (harg4 : arg4.IsWhole) (arg5 : Memref sig .tc .vmem S256x256 .f32) (harg5 : arg5.IsWhole) (arg6 : Memref sig .tc .vmem S1x32x256x32 .bf16) (harg6 : arg6.IsWhole)
    (x0 x1 x2 : Vec F S1x1x32x256x32 .bf16) (x3 : Vec F S256x256 .f32) :
    Hand.out1_4 c i arg2 harg2 arg3 harg3 arg4 harg4 arg5 harg5 arg6 harg6 x0 x1 x2 x3 = block1 x0 x1 x2 x3 := by
  unfold Hand.out1_4
  rw [View.read_writes_eq_canon _ _ _ (Hand.cover1_4 c i arg2 harg2 arg3 harg3 arg4 harg4 arg5 harg5 arg6 harg6 x0 x1 x2 x3)]
  funext y
  refine View.canon_apply_of_pieces (block1 x0 x1 x2 x3) _ (fun p hp x => ?_) y (Hand.cover1_4 c i arg2 harg2 arg3 harg3 arg4 harg4 arg5 harg5 arg6 harg6 x0 x1 x2 x3 y)
  rw [kernelRun1_pieces] at hp
  obtain ⟨k, rfl⟩ := pb_mem _ _ _ _ _ _ _ _ _ _ _ _ _ _ _ _ _ _ _ p hp
  exact piece1_apply arg2 harg2 arg3 harg3 arg4 harg4 arg5 harg5 x0 x1 x2 x3 k x

end Pieces

/-! ## The block at an index, at the ideal instance -/

/-- The output's staging buffer after the body, at (0, k, n, d): the payload of the bias and of the k-th slabs of the
    three input blocks, at (0, 0, n, d). -/
theorem block_apply (c : Dev nD) (i : grid1.Coords) (arg2 : Memref sig .tc .vmem S1x1x32x256x32 .bf16) (harg2 : arg2.IsWhole) (arg3 : Memref sig .tc .vmem S1x1x32x256x32 .bf16) (harg3 : arg3.IsWhole) (arg4 : Memref sig .tc .vmem S1x1x32x256x32 .bf16) (harg4 : arg4.IsWhole) (arg5 : Memref sig .tc .vmem S256x256 .f32) (harg5 : arg5.IsWhole) (arg6 : Memref sig .tc .vmem S1x32x256x32 .bf16) (harg6 : arg6.IsWhole)
    (x0 x1 x2 : Vec Ideal S1x1x32x256x32 .bf16) (x3 : Vec Ideal S256x256 .f32) (k : Fin k1_t1_loop.trips) (n : Fin 256) (d : Fin 32) :
    Hand.out1_4 (F := Ideal) c i arg2 harg2 arg3 harg3 arg4 harg4 arg5 harg5 arg6 harg6 x0 x1 x2 x3
        (ix4 (0 : Fin 1) (⟨k.val, Nat.lt_of_lt_of_le k.isLt k1_t1_abs.2.1⟩ : Fin 32) n d)
      = Gen.k1_pay1 (F := Ideal) x3 (View.ld x0 (rIn k)) (View.ld x1 (rIn k)) (View.ld x2 (rIn k))
          (ix4 (0 : Fin 1) (0 : Fin 1) n d) := by
  refine (congrFun (out1_4_eq (F := Ideal) c i arg2 harg2 arg3 harg3 arg4 harg4 arg5 harg5 arg6 harg6 x0 x1 x2 x3) _).trans ?_
  rw [ld_slab1 x0 k ⟨k.val, Nat.lt_of_lt_of_le k.isLt k1_t1_abs.2.1⟩ rfl,
    ld_slab1 x1 k ⟨k.val, Nat.lt_of_lt_of_le k.isLt k1_t1_abs.2.1⟩ rfl,
    ld_slab1 x2 k ⟨k.val, Nat.lt_of_lt_of_le k.isLt k1_t1_abs.2.1⟩ rfl]
  rfl

end Cert.KernelIdeal.KV.Blk

end
-- ==== Proof.KI.Final1.lean ====
/-
  From blocks to the whole array, for the attention region.

  The region sweeps a grid of 8 x 16 points: point (h, lt) holds, of the [3, 8, 512, 256, 32] array of projected
  features, the blocks of queries, keys and values of head h at positions 32 lt … 32 lt + 31, and the whole bias; its
  body's trip k attends over the 256 samples at position 32 lt + k and stores the [256, 32] contexts as slab k of the
  output's block (h, lt). Here the block a point writes back is shown to be that point's block of ONE function of
  the two arrays the region finds, the output's 128 blocks are shown to tile it, and so the output array ends
  holding that function everywhere.
-/
import proofs.«120296_j28346784154102_2_alg».proof.Proof.KI.PayValue
import proofs.«120296_j28346784154102_2_alg».proof.Proof.KI.R1
import proofs.«120296_j28346784154102_2_alg».proof.Proof.KI.Block1
import Idealize.ShloMosaic.Lib.Pipeline.Value

set_option maxRecDepth 16384

noncomputable section

namespace Cert.KernelIdeal.KV.R1

open Cert.KernelIdeal Cert.KernelIdeal.Gen Idealize.ShloMosaic Idealize.ShloMosaic.TcCoe Idealize.SL.Sem
open Idealize.ShloMosaic.ValueIdx
open Idealize.ShloMosaic.Pipeline (Dat)

/-! ## The function the output array ends holding -/

section Closed

variable (q6 : S3x8x512x256x32.Idx → EReal) (bias : S256x256.Idx → EReal)

/-- The score of samples (n, m) at head h and position l: the dot product of n's query and m's key, times the scale
    word, plus the bias. -/
def S (h : Fin 8) (l : Fin 512) (n m : Fin 256) : EReal :=
  (∑ dd : Fin 32, q6 (ix5 (0 : Fin 3) h l n dd) * q6 (ix5 (1 : Fin 3) h l m dd)) * Ideal.ofBits .f32 0x3E3504F3#32
    + bias (ix2 n m)

/-- The largest score of row n: the fold of max from the word of minus infinity, met with that word once more. -/
def M (h : Fin 8) (l : Fin 512) (n : Fin 256) : EReal :=
  max (Ideal.ofBits .f32 0xFF800000#32)
    ((Finset.univ : Finset (Fin 256)).fold max (Ideal.ofBits .f32 0xFF800000#32) fun m => S q6 bias h l n m)

/-- At (h, l, n, d): the softmax over the key sample m of row n's scores, applied to coordinate d of the values. -/
def G : S8x512x256x32.Idx → EReal := fun j =>
  ∑ m : Fin 256, Ideal.div (Ideal.exp (S q6 bias (j 0) (j 1) (j 2) m - M q6 bias (j 0) (j 1) (j 2)))
      (∑ m' : Fin 256, Ideal.exp (S q6 bias (j 0) (j 1) (j 2) m' - M q6 bias (j 0) (j 1) (j 2)))
    * q6 (ix5 (2 : Fin 3) (j 0) (j 1) m (j 3))

end Closed

/-! ## One trip's slabs -/

/-- The loop runs 32 trips. -/
theorem trip_lt (k : Fin k1_t1_loop.trips) : k.val < 32 := Nat.lt_of_lt_of_le k.isLt k1_t1_abs.2.1

theorem trips_eq : k1_t1_loop.trips = 32 := by decide

/-- The trip that stores slab kk. -/
def tripOf (kk : Fin 32) : Fin k1_t1_loop.trips := ⟨kk.val, by rw [trips_eq]; exact kk.isLt⟩

/-- The k-th [1, 1, 1, 256, 32] slab of an input block: what trip k loads of it. -/
abbrev slab (k : Fin k1_t1_loop.trips) : Rect S1x1x32x256x32 :=
  Rect.unit (s := S1x1x32x256x32) (k1_off1 k) S1x1x1x256x32.size (k1_off1_inb k)

/-- Slab k of a block at (0, 0, 0, n, d) is the block at (0, 0, k, n, d). -/
theorem slab_apply (x : Vec Ideal S1x1x32x256x32 .bf16) (k : Fin k1_t1_loop.trips) (kk : Fin 32) (hk : kk.val = k.val)
    (n : Fin 256) (d : Fin 32) :
    View.ld x (slab k) (ix5 (0 : Fin 1) (0 : Fin 1) (0 : Fin 1) n d) = x (ix5 (0 : Fin 1) (0 : Fin 1) kk n d) := by
  show x ((slab k).idx _) = _
  refine congrArg x ?_
  funext a
  apply Fin.ext
  have e := k1_off1_eq k
  match a with
  | ⟨0, _⟩ => show (k1_off1 k) (0 : Fin 5) + 1 * 0 = 0; rw [e]; rfl
  | ⟨1, _⟩ => show (k1_off1 k) (1 : Fin 5) + 1 * 0 = 0; rw [e]; rfl
  | ⟨2, _⟩ => show (k1_off1 k) (2 : Fin 5) + 1 * 0 = kk.val; rw [e]; show k.val + 1 * 0 = kk.val; omega
  | ⟨3, _⟩ => show (k1_off1 k) (3 : Fin 5) + 1 * n.val = n.val; rw [e]; show 0 + 1 * n.val = n.val; omega
  | ⟨4, _⟩ => show (k1_off1 k) (4 : Fin 5) + 1 * d.val = d.val; rw [e]; show 0 + 1 * d.val = d.val; omega

end Cert.KernelIdeal.KV.R1

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The output's staging block at an index -/

/-- The output's staging block after the body, at an index given by its coordinates (y 1 the slab, y 2 the sample,
    y 3 the coordinate): the softmax of that slab's scores applied to that slab's values. -/
theorem block1_apply (c : Dev nD) (i : grid1.Coords) (arg2 : Memref sig .tc .vmem S1x1x32x256x32 .bf16) (harg2 : arg2.IsWhole)
    (arg3 : Memref sig .tc .vmem S1x1x32x256x32 .bf16) (harg3 : arg3.IsWhole)
    (arg4 : Memref sig .tc .vmem S1x1x32x256x32 .bf16) (harg4 : arg4.IsWhole)
    (arg5 : Memref sig .tc .vmem S256x256 .f32) (harg5 : arg5.IsWhole)
    (arg6 : Memref sig .tc .vmem S1x32x256x32 .bf16) (harg6 : arg6.IsWhole)
    (x0 x1 x2 : Vec Ideal S1x1x32x256x32 .bf16) (x3 : Vec Ideal S256x256 .f32) (y : S1x32x256x32.Idx) :
    Hand.out1_4 (F := Ideal) c i arg2 harg2 arg3 harg3 arg4 harg4 arg5 harg5 arg6 harg6 x0 x1 x2 x3 y
      = ∑ m : Fin 256,
          Ideal.div
              (Ideal.exp (sc x3 (View.ld x0 (R1.slab (R1.tripOf (y 1)))) (View.ld x1 (R1.slab (R1.tripOf (y 1)))) (y 2) m
                - mx x3 (View.ld x0 (R1.slab (R1.tripOf (y 1)))) (View.ld x1 (R1.slab (R1.tripOf (y 1)))) (y 2)))
              (∑ m' : Fin 256,
                Ideal.exp (sc x3 (View.ld x0 (R1.slab (R1.tripOf (y 1)))) (View.ld x1 (R1.slab (R1.tripOf (y 1)))) (y 2) m'
                  - mx x3 (View.ld x0 (R1.slab (R1.tripOf (y 1)))) (View.ld x1 (R1.slab (R1.tripOf (y 1)))) (y 2)))
            * View.ld x2 (R1.slab (R1.tripOf (y 1))) (ix5 (0 : Fin 1) (0 : Fin 1) (0 : Fin 1) m (y 3)) := by
  obtain ⟨u, kk, n, d, rfl⟩ : ∃ (u : Fin 1) (kk : Fin 32) (n : Fin 256) (d : Fin 32), y = ix4 u kk n d :=
    ⟨y 0, y 1, y 2, y 3, eq_ix4 y⟩
  obtain rfl : u = 0 := Subsingleton.elim _ _
  exact (Blk.block_apply c i arg2 harg2 arg3 harg3 arg4 harg4 arg5 harg5 arg6 harg6 x0 x1 x2 x3 (R1.tripOf kk) n d).trans
    (pay1_apply x3 _ _ _ n d)

/-! ## The windows' blocks as parts of their arrays -/

/-- The index maps over the grid: point t is (head t / 16, block of positions t % 16); the three feature windows sit
    at blocks (0 | 1 | 2, head, block, 0, 0), the bias at block (0, 0), the output at block (head, block, 0, 0). -/
theorem idx_facts1 : ∀ t : Fin cfg1.N,
    (win1_0.index t (0 : Fin 5) = 0 ∧ win1_0.index t (1 : Fin 5) = t.val / 16 ∧ win1_0.index t (2 : Fin 5) = t.val % 16
      ∧ win1_0.index t (3 : Fin 5) = 0 ∧ win1_0.index t (4 : Fin 5) = 0)
    ∧ (win1_1.index t (0 : Fin 5) = 1 ∧ win1_1.index t (1 : Fin 5) = t.val / 16 ∧ win1_1.index t (2 : Fin 5) = t.val % 16
      ∧ win1_1.index t (3 : Fin 5) = 0 ∧ win1_1.index t (4 : Fin 5) = 0)
    ∧ (win1_2.index t (0 : Fin 5) = 2 ∧ win1_2.index t (1 : Fin 5) = t.val / 16 ∧ win1_2.index t (2 : Fin 5) = t.val % 16
      ∧ win1_2.index t (3 : Fin 5) = 0 ∧ win1_2.index t (4 : Fin 5) = 0)
    ∧ (win1_3.index t (0 : Fin 2) = 0 ∧ win1_3.index t (1 : Fin 2) = 0)
    ∧ (win1_4.index t (0 : Fin 4) = t.val / 16 ∧ win1_4.index t (1 : Fin 4) = t.val % 16
      ∧ win1_4.index t (2 : Fin 4) = 0 ∧ win1_4.index t (3 : Fin 4) = 0) :=
  (by decide +kernel : ∀ t : Fin grid1.N, _)

/-- The query window's block at point t, at (0, 0, kk, n, d), is the feature array at (0, head, 32 block + kk, n, d). -/
theorem iblk1_0_apply (c : Dev nD) (t : Fin cfg1.N) (kk : Fin 32) (n : Fin 256) (d : Fin 32) (h : Fin 8) (l : Fin 512)
    (hh : h.val = t.val / 16) (hl : l.val = 32 * (t.val % 16) + kk.val) :
    (Hand.iblk1 V c 0 t : Vec Ideal S1x1x32x256x32 .bf16) (ix5 (0 : Fin 1) (0 : Fin 1) kk n d)
      = (V c main_v6 : S3x8x512x256x32.Idx → EReal) (ix5 (0 : Fin 3) h l n d) := by
  obtain ⟨⟨e0, e1, e2, e3, e4⟩, -⟩ := idx_facts1 t
  unfold Hand.iblk1
  rw [View.read_apply]
  show V c main_v6 _ = V c main_v6 _
  congr 1
  funext a
  apply Fin.ext
  match a with
  | ⟨0, _⟩ => show win1_0.index t (0 : Fin 5) * 1 + 1 * 0 = 0; rw [e0]
  | ⟨1, _⟩ => show win1_0.index t (1 : Fin 5) * 1 + 1 * 0 = h.val; rw [e1, hh]; omega
  | ⟨2, _⟩ => show win1_0.index t (2 : Fin 5) * 32 + 1 * kk.val = l.val; rw [e2, hl]; omega
  | ⟨3, _⟩ => show win1_0.index t (3 : Fin 5) * 256 + 1 * n.val = n.val; rw [e3]; omega
  | ⟨4, _⟩ => show win1_0.index t (4 : Fin 5) * 32 + 1 * d.val = d.val; rw [e4]; omega

/-- The key window's likewise, at (1, head, 32 block + kk, n, d). -/
theorem iblk1_1_apply (c : Dev nD) (t : Fin cfg1.N) (kk : Fin 32) (n : Fin 256) (d : Fin 32) (h : Fin 8) (l : Fin 512)
    (hh : h.val = t.val / 16) (hl : l.val = 32 * (t.val % 16) + kk.val) :
    (Hand.iblk1 V c 1 t : Vec Ideal S1x1x32x256x32 .bf16) (ix5 (0 : Fin 1) (0 : Fin 1) kk n d)
      = (V c main_v6 : S3x8x512x256x32.Idx → EReal) (ix5 (1 : Fin 3) h l n d) := by
  obtain ⟨-, ⟨e0, e1, e2, e3, e4⟩, -⟩ := idx_facts1 t
  unfold Hand.iblk1
  rw [View.read_apply]
  show V c main_v6 _ = V c main_v6 _
  congr 1
  funext a
  apply Fin.ext
  match a with
  | ⟨0, _⟩ => show win1_1.index t (0 : Fin 5) * 1 + 1 * 0 = 1; rw [e0]
  | ⟨1, _⟩ => show win1_1.index t (1 : Fin 5) * 1 + 1 * 0 = h.val; rw [e1, hh]; omega
  | ⟨2, _⟩ => show win1_1.index t (2 : Fin 5) * 32 + 1 * kk.val = l.val; rw [e2, hl]; omega
  | ⟨3, _⟩ => show win1_1.index t (3 : Fin 5) * 256 + 1 * n.val = n.val; rw [e3]; omega
  | ⟨4, _⟩ => show win1_1.index t (4 : Fin 5) * 32 + 1 * d.val = d.val; rw [e4]; omega

/-- The value window's likewise, at (2, head, 32 block + kk, n, d). -/
theorem iblk1_2_apply (c : Dev nD) (t : Fin cfg1.N) (kk : Fin 32) (n : Fin 256) (d : Fin 32) (h : Fin 8) (l : Fin 512)
    (hh : h.val = t.val / 16) (hl : l.val = 32 * (t.val % 16) + kk.val) :
    (Hand.iblk1 V c 2 t : Vec Ideal S1x1x32x256x32 .bf16) (ix5 (0 : Fin 1) (0 : Fin 1) kk n d)
      = (V c main_v6 : S3x8x512x256x32.Idx → EReal) (ix5 (2 : Fin 3) h l n d) := by
  obtain ⟨-, -, ⟨e0, e1, e2, e3, e4⟩, -⟩ := idx_facts1 t
  unfold Hand.iblk1
  rw [View.read_apply]
  show V c main_v6 _ = V c main_v6 _
  congr 1
  funext a
  apply Fin.ext
  match a with
  | ⟨0, _⟩ => show win1_2.index t (0 : Fin 5) * 1 + 1 * 0 = 2; rw [e0]
  | ⟨1, _⟩ => show win1_2.index t (1 : Fin 5) * 1 + 1 * 0 = h.val; rw [e1, hh]; omega
  | ⟨2, _⟩ => show win1_2.index t (2 : Fin 5) * 32 + 1 * kk.val = l.val; rw [e2, hl]; omega
  | ⟨3, _⟩ => show win1_2.index t (3 : Fin 5) * 256 + 1 * n.val = n.val; rw [e3]; omega
  | ⟨4, _⟩ => show win1_2.index t (4 : Fin 5) * 32 + 1 * d.val = d.val; rw [e4]; omega

/-- The bias window's block at every point is the whole bias. -/
theorem iblk1_3_apply (c : Dev nD) (t : Fin cfg1.N) (x : S256x256.Idx) :
    (Hand.iblk1 V c 3 t : Vec Ideal S256x256 .f32) x = (V c main_arg1 : S256x256.Idx → EReal) x := by
  obtain ⟨-, -, -, ⟨e0, e1⟩, -⟩ := idx_facts1 t
  unfold Hand.iblk1
  rw [View.read_apply]
  show V c main_arg1 _ = V c main_arg1 _
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-! ## One point's block against the closed form -/

/-- At point t and slab kk — head h and position l — the body's scores are the closed form's. -/
theorem sc_eq (c : Dev nD) (t : Fin cfg1.N) (kk : Fin 32) (h : Fin 8) (l : Fin 512)
    (hh : h.val = t.val / 16) (hl : l.val = 32 * (t.val % 16) + kk.val) (n m : Fin 256) :
    sc (Hand.iblk1 V c 3 t) (View.ld (Hand.iblk1 V c 0 t) (R1.slab (R1.tripOf kk)))
        (View.ld (Hand.iblk1 V c 1 t) (R1.slab (R1.tripOf kk))) n m
      = R1.S (V c main_v6) (V c main_arg1) h l n m := by
  unfold sc R1.S
  refine congrArg₂ (· + ·) (congrArg₂ (· * ·) (Finset.sum_congr rfl fun dd _ => congrArg₂ (· * ·) ?_ ?_) rfl)
    (iblk1_3_apply V c t _)
  · exact (R1.slab_apply _ (R1.tripOf kk) kk rfl n dd).trans (iblk1_0_apply V c t kk n dd h l hh hl)
  · exact (R1.slab_apply _ (R1.tripOf kk) kk rfl m dd).trans (iblk1_1_apply V c t kk m dd h l hh hl)

/-- So are the row maxima. -/
theorem mx_eq (c : Dev nD) (t : Fin cfg1.N) (kk : Fin 32) (h : Fin 8) (l : Fin 512)
    (hh : h.val = t.val / 16) (hl : l.val = 32 * (t.val % 16) + kk.val) (n : Fin 256) :
    mx (Hand.iblk1 V c 3 t) (View.ld (Hand.iblk1 V c 0 t) (R1.slab (R1.tripOf kk)))
        (View.ld (Hand.iblk1 V c 1 t) (R1.slab (R1.tripOf kk))) n
      = R1.M (V c main_v6) (V c main_arg1) h l n := by
  unfold mx R1.M
  exact congrArg₂ max rfl
    (congrArg (fun f => (Finset.univ : Finset (Fin 256)).fold max (Ideal.ofBits .f32 0xFF800000#32) f)
      (funext fun m => sc_eq V c t kk h l hh hl n m))

/-- So is the stored value: the point's staging block at (·, kk, n, d) is the closed form at (h, l, n', d') when these
    name the same place. -/
theorem point_eq (c : Dev nD) (t : Fin cfg1.N) (kk : Fin 32) (n : Fin 256) (d : Fin 32)
    (h : Fin 8) (l : Fin 512) (n' : Fin 256) (d' : Fin 32)
    (hh : h.val = t.val / 16) (hl : l.val = 32 * (t.val % 16) + kk.val) (hn : n' = n) (hd : d' = d) :
    (∑ m : Fin 256,
        Ideal.div
            (Ideal.exp (sc (Hand.iblk1 V c 3 t) (View.ld (Hand.iblk1 V c 0 t) (R1.slab (R1.tripOf kk)))
                (View.ld (Hand.iblk1 V c 1 t) (R1.slab (R1.tripOf kk))) n m
              - mx (Hand.iblk1 V c 3 t) (View.ld (Hand.iblk1 V c 0 t) (R1.slab (R1.tripOf kk)))
                (View.ld (Hand.iblk1 V c 1 t) (R1.slab (R1.tripOf kk))) n))
            (∑ m' : Fin 256,
              Ideal.exp (sc (Hand.iblk1 V c 3 t) (View.ld (Hand.iblk1 V c 0 t) (R1.slab (R1.tripOf kk)))
                  (View.ld (Hand.iblk1 V c 1 t) (R1.slab (R1.tripOf kk))) n m'
                - mx (Hand.iblk1 V c 3 t) (View.ld (Hand.iblk1 V c 0 t) (R1.slab (R1.tripOf kk)))
                  (View.ld (Hand.iblk1 V c 1 t) (R1.slab (R1.tripOf kk))) n))
          * View.ld (Hand.iblk1 V c 2 t) (R1.slab (R1.tripOf kk)) (ix5 (0 : Fin 1) (0 : Fin 1) (0 : Fin 1) m d))
      = R1.G (V c main_v6) (V c main_arg1) (ix4 h l n' d') := by
  subst hn hd
  have hM := mx_eq V c t kk h l hh hl n'
  have hden : (∑ m' : Fin 256,
      Ideal.exp (sc (Hand.iblk1 V c 3 t) (View.ld (Hand.iblk1 V c 0 t) (R1.slab (R1.tripOf kk)))
          (View.ld (Hand.iblk1 V c 1 t) (R1.slab (R1.tripOf kk))) n' m'
        - mx (Hand.iblk1 V c 3 t) (View.ld (Hand.iblk1 V c 0 t) (R1.slab (R1.tripOf kk)))
          (View.ld (Hand.iblk1 V c 1 t) (R1.slab (R1.tripOf kk))) n'))
      = ∑ m' : Fin 256, Ideal.exp (R1.S (V c main_v6) (V c main_arg1) h l n' m' - R1.M (V c main_v6) (V c main_arg1) h l n') :=
    Finset.sum_congr rfl fun m' _ => by rw [sc_eq V c t kk h l hh hl n' m', hM]
  unfold R1.G
  refine Finset.sum_congr rfl fun m _ => ?_
  rw [hden, sc_eq V c t kk h l hh hl n' m, hM]
  exact congrArg₂ (· * ·) rfl
    ((R1.slab_apply _ (R1.tripOf kk) kk rfl m d').trans (iblk1_2_apply V c t kk m d' h l hh hl))

/-! ## The write-backs and the final array -/

/-- What point t writes back is block t of the closed form of the arrays the region finds. -/
theorem flushed1_eq (c : Dev nD) (t : Fin cfg1.N) :
    (Hand.dat1 V c).flushed 4 t
      = ((cfg1.win 4).blk t).view.read (Elt Ideal) (R1.G (V c main_v6) (V c main_arg1)) := by
  show (cfg1.win 4).cut (grid1.coords t) ((Hand.dat1 V c).after 4 t) = _
  rw [Hand.after1_4]
  unfold Hand.outsAt1
  obtain ⟨-, -, -, -, ⟨e0, e1, e2, e3⟩⟩ := idx_facts1 t
  funext y
  refine (block1_apply _ _ _ _ _ _ _ _ _ _ _ _ _ _ _ _ y).trans ?_
  show _ = R1.G (V c main_v6) (V c main_arg1) (((cfg1.win 4).blk t).view.emb y)
  have hy0 : (y 0).val < 1 := (y 0).isLt
  rw [eq_ix4 (((cfg1.win 4).blk t).view.emb y)]
  refine point_eq V c t (y 1) (y 2) (y 3) _ _ _ _ ?_ ?_ (Fin.ext ?_) (Fin.ext ?_)
  · show win1_4.index t (0 : Fin 4) * 1 + 1 * (y 0).val = t.val / 16
    rw [e0]; omega
  · show win1_4.index t (1 : Fin 4) * 32 + 1 * (y 1).val = 32 * (t.val % 16) + (y 1).val
    rw [e1]; omega
  · show win1_4.index t (2 : Fin 4) * 256 + 1 * (y 2).val = (y 2).val
    rw [e2]; omega
  · show win1_4.index t (3 : Fin 4) * 32 + 1 * (y 3).val = (y 3).val
    rw [e3]; omega

/-- An index of the output array is in point t's block iff each coordinate is in the block's range on its axis. -/
theorem mem_blk1 (t : Fin cfg1.N) (i : S8x512x256x32.Idx) :
    i ∈ ((cfg1.win 4).blk t).view.set ↔ ∀ a : Fin 4, win1_4.index t a * S1x32x256x32.size a ≤ (i a).val
      ∧ (i a).val < win1_4.index t a * S1x32x256x32.size a + S1x32x256x32.size a := by
  show i ∈ ((View.whole main_v7).slice (win1_4.rect t)).set ↔ _
  rw [View.set_slice_whole, Rect.mem_set_unit]
  exact Iff.rfl

/-- Every index of the output array is in some point's block: head h, position l is in the block of point
    16 h + l / 32. -/
theorem cover1 (i : S8x512x256x32.Idx) :
    ∃ t : Fin cfg1.N, (cfg1.win 4).flush t = true ∧ i ∈ ((cfg1.win 4).blk t).view.set := by
  have hN : grid1.N = 128 := N_1
  have hi0 : (i 0).val < 8 := (i 0).isLt
  have hi1 : (i 1).val < 512 := (i 1).isLt
  have hi2 : (i 2).val < 256 := (i 2).isLt
  have hi3 : (i 3).val < 32 := (i 3).isLt
  have ht : (i 0).val * 16 + (i 1).val / 32 < cfg1.N := by show _ < grid1.N; rw [hN]; omega
  obtain ⟨-, -, -, -, ⟨e0, e1, e2, e3⟩⟩ := idx_facts1 ⟨(i 0).val * 16 + (i 1).val / 32, ht⟩
  refine ⟨⟨(i 0).val * 16 + (i 1).val / 32, ht⟩, flush1_4 _, ?_⟩
  rw [mem_blk1]
  intro a
  match a with
  | ⟨0, _⟩ =>
    show win1_4.index ⟨(i 0).val * 16 + (i 1).val / 32, ht⟩ (0 : Fin 4) * 1 ≤ (i 0).val
      ∧ (i 0).val < win1_4.index ⟨(i 0).val * 16 + (i 1).val / 32, ht⟩ (0 : Fin 4) * 1 + 1
    rw [e0]; show ((i 0).val * 16 + (i 1).val / 32) / 16 * 1 ≤ (i 0).val ∧ (i 0).val < ((i 0).val * 16 + (i 1).val / 32) / 16 * 1 + 1
    omega
  | ⟨1, _⟩ =>
    show win1_4.index ⟨(i 0).val * 16 + (i 1).val / 32, ht⟩ (1 : Fin 4) * 32 ≤ (i 1).val
      ∧ (i 1).val < win1_4.index ⟨(i 0).val * 16 + (i 1).val / 32, ht⟩ (1 : Fin 4) * 32 + 32
    rw [e1]; show ((i 0).val * 16 + (i 1).val / 32) % 16 * 32 ≤ (i 1).val ∧ (i 1).val < ((i 0).val * 16 + (i 1).val / 32) % 16 * 32 + 32
    omega
  | ⟨2, _⟩ =>
    show win1_4.index ⟨(i 0).val * 16 + (i 1).val / 32, ht⟩ (2 : Fin 4) * 256 ≤ (i 2).val
      ∧ (i 2).val < win1_4.index ⟨(i 0).val * 16 + (i 1).val / 32, ht⟩ (2 : Fin 4) * 256 + 256
    rw [e2]; omega
  | ⟨3, _⟩ =>
    show win1_4.index ⟨(i 0).val * 16 + (i 1).val / 32, ht⟩ (3 : Fin 4) * 32 ≤ (i 3).val
      ∧ (i 3).val < win1_4.index ⟨(i 0).val * 16 + (i 1).val / 32, ht⟩ (3 : Fin 4) * 32 + 32
    rw [e3]; omega

/-- The attention region's output array after the sweep: at (h, l, n, d), the softmax over the key sample of the
    scores of head h at position l, applied to coordinate d of the values. -/
theorem final1 (c : Dev nD) : (Hand.dat1 V c).arrAt 4 cfg1.N = R1.G (V c main_v6) (V c main_arg1) :=
  (Hand.dat1 V c).arrAt_eq_of_cover 4 (R1.G (V c main_v6) (V c main_arg1)) (fun t _ => flushed1_eq V c t) cover1

end Cert.KernelIdeal.KV

end
-- ==== Proof.KI.Final02.lean ====
/-
  From blocks to whole arrays, for the two projections.

  Each of the two projection regions sweeps a grid of 32 points; point t holds rows 4096 t … 4096 t + 4095 of the
  row-blocked arrays and the whole of the small ones, and writes back one block of the output. Here the block a
  point writes back is shown to be that point's block of ONE function of the arrays the region finds (a row of the
  flattened input against a row of the weight matrix, plus the bias entry for the second), the output's 32 blocks
  are shown to tile it, and so the output array ends holding that function everywhere.
-/
import proofs.«120296_j28346784154102_2_alg».proof.Proof.KI.PayValue
import proofs.«120296_j28346784154102_2_alg».proof.Proof.KI.R0
import proofs.«120296_j28346784154102_2_alg».proof.Proof.KI.R2
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when a region is entered
variable (V : (c : Dev nD) → (b : Ref sig .tc) → Buf (Elt Ideal) ((c : Thread nD τ).loc b))

/-- The body's accesses start at offsets zero on both axes. -/
theorem zero_offsets : (![0, 0] : Fin 2 → Nat) = fun _ => 0 := funext fun a => by fin_cases a <;> rfl

/-! ## The first projection -/

/-- What the first region's output array ends holding, as a function of the input array a and the projection matrix
    w: at (r, e), row r of a against row e of w. -/
abbrev G0 (a : S131072x256.Idx → EReal) (w : S768x256.Idx → EReal) : S131072x768.Idx → EReal := fun j =>
  ∑ k : Fin 256, a (ix2 (j 0) k) * w (ix2 (j 1) k)

/-- The stored block at an index given by its coordinates. -/
theorem block0_apply (x0 : Vec Ideal S4096x256 .f32) (x1 : Vec Ideal S768x256 .bf16) (y : S4096x768.Idx) :
    Gen.k0_pay1 (F := Ideal) x0 x1 y = ∑ k : Fin 256, x0 (ix2 (y 0) k) * x1 (ix2 (y 1) k) := by
  obtain ⟨p, q, rfl⟩ : ∃ (p : Fin 4096) (q : Fin 768), y = ix2 p q := ⟨y 0, y 1, eq_ix2 y⟩
  exact pay0_apply x0 x1 p q

/-- The index maps over the grid: the row-blocked windows sit at block (t, 0), the weight matrix at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point t is rows 4096 t … 4096 t + 4095 of the input array. -/
theorem iblk0_0_apply (c : Dev nD) (t : Fin cfg0.N) (x : S4096x256.Idx) (i : S131072x256.Idx)
    (h0 : (i 0).val = 4096 * t.val + (x 0).val) (h1 : (i 1).val = (x 1).val) :
    (Hand.iblk0 V c 0 t : Vec Ideal S4096x256 .f32) x = (V c main_v3 : S131072x256.Idx → EReal) i := by
  obtain ⟨e0, e1, -⟩ := idx_facts0 t
  unfold Hand.iblk0
  rw [View.read_apply]
  show V c main_v3 _ = V c main_v3 _
  congr 1
  funext a
  apply Fin.ext
  match a with
  | ⟨0, _⟩ => show win0_0.index t (0 : Fin 2) * 4096 + 1 * (x 0).val = (i 0).val; rw [e0, h0]; omega
  | ⟨1, _⟩ => show win0_0.index t (1 : Fin 2) * 256 + 1 * (x 1).val = (i 1).val; rw [e1, h1]; omega

/-- The weight window's block at every point is the whole projection matrix. -/
theorem iblk0_1_apply (c : Dev nD) (t : Fin cfg0.N) (x : S768x256.Idx) :
    (Hand.iblk0 V c 1 t : Vec Ideal S768x256 .bf16) x = (V c main_v0 : S768x256.Idx → EReal) x := by
  obtain ⟨-, -, e2, e3, -⟩ := idx_facts0 t
  unfold Hand.iblk0
  rw [View.read_apply]
  show V c main_v0 _ = V c main_v0 _
  congr 1
  funext a
  apply Fin.ext
  match a with
  | ⟨0, _⟩ => show win0_1.index t (0 : Fin 2) * 768 + 1 * (x 0).val = (x 0).val; rw [e2]; omega
  | ⟨1, _⟩ => show win0_1.index t (1 : Fin 2) * 256 + 1 * (x 1).val = (x 1).val; rw [e3]; omega

/-- What point t writes back is block t of that function of the arrays the region finds. -/
theorem flushed0_eq (c : Dev nD) (t : Fin cfg0.N) :
    (Hand.dat0 V c).flushed 2 t = ((cfg0.win 2).blk t).view.read (Elt Ideal) (G0 (V c main_v3) (V c main_v0)) := by
  show (cfg0.win 2).cut (grid0.coords t) ((Hand.dat0 V c).after 2 t) = _
  rw [Hand.after0_2]
  unfold Hand.out0_2
  rw [View.canon_unit_zero zero_offsets]
  simp only [View.ld_unit_zero (S := S4096x256) zero_offsets, View.ld_unit_zero (S := S768x256) zero_offsets]
  obtain ⟨-, -, -, -, e4, e5⟩ := idx_facts0 t
  funext y
  refine (block0_apply _ _ y).trans ?_
  show _ = G0 (V c main_v3) (V c main_v0) (((cfg0.win 2).blk t).view.emb y)
  refine Finset.sum_congr rfl fun k _ => ?_
  refine congrArg₂ (· * ·) (iblk0_0_apply V c t _ _ ?_ rfl) ((iblk0_1_apply V c t _).trans (congrArg (V c main_v0) ?_))
  · show win0_2.index t (0 : Fin 2) * 4096 + 1 * (y 0).val = 4096 * t.val + (y 0).val
    rw [e4]; omega
  · funext a
    apply Fin.ext
    match a with
    | ⟨0, _⟩ => show (y 1).val = win0_2.index t (1 : Fin 2) * 768 + 1 * (y 1).val; rw [e5]; omega
    | ⟨1, _⟩ => rfl

/-- An index of the output array is in point t's block iff each coordinate is in the block's range on its axis. -/
theorem mem_blk0 (t : Fin cfg0.N) (i : S131072x768.Idx) :
    i ∈ ((cfg0.win 2).blk t).view.set ↔ ∀ a : Fin 2, win0_2.index t a * S4096x768.size a ≤ (i a).val
      ∧ (i a).val < win0_2.index t a * S4096x768.size a + S4096x768.size a := by
  show i ∈ ((View.whole main_v4).slice (win0_2.rect t)).set ↔ _
  rw [View.set_slice_whole, Rect.mem_set_unit]
  exact Iff.rfl

/-- Every index of the output array is in some point's block: row r is in the block of point r / 4096. -/
theorem cover0 (i : S131072x768.Idx) :
    ∃ t : Fin cfg0.N, (cfg0.win 2).flush t = true ∧ i ∈ ((cfg0.win 2).blk t).view.set := by
  have hN : grid0.N = 32 := Gen.N_0
  have hi0 : (i 0).val < 131072 := (i 0).isLt
  have hi1 : (i 1).val < 768 := (i 1).isLt
  have ht : (i 0).val / 4096 < cfg0.N := by show _ < grid0.N; rw [hN]; omega
  obtain ⟨-, -, -, -, e4, e5⟩ := idx_facts0 ⟨(i 0).val / 4096, ht⟩
  refine ⟨⟨(i 0).val / 4096, ht⟩, flush0_2 _, ?_⟩
  rw [mem_blk0]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, ht⟩ (1 : Fin 2) * 768 ≤ (i 1).val
      ∧ (i 1).val < win0_2.index ⟨(i 0).val / 4096, ht⟩ (1 : Fin 2) * 768 + 768
    rw [e5]; omega

/-- The first region's output array after the sweep: every row of the flattened input against every row of the
    projection matrix. -/
theorem final0 (c : Dev nD) : (Hand.dat0 V c).arrAt 2 cfg0.N = G0 (V c main_v3) (V c main_v0) :=
  (Hand.dat0 V c).arrAt_eq_of_cover 2 (G0 (V c main_v3) (V c main_v0)) (fun t _ => flushed0_eq V c t) cover0

/-! ## The output projection -/

/-- What the third region's output array ends holding, as a function of the context array a, the output matrix w and
    the bias row bp: at (r, e), row r of a against row e of w, plus entry e of bp. -/
abbrev G2 (a : S131072x256.Idx → EReal) (w : S256x256.Idx → EReal) (bp : S1x256.Idx → EReal) :
    S131072x256.Idx → EReal := fun j =>
  (∑ k : Fin 256, a (ix2 (j 0) k) * w (ix2 (j 1) k)) + bp (ix2 (0 : Fin 1) (j 1))

/-- The stored block at an index given by its coordinates. -/
theorem block2_apply (x0 : Vec Ideal S4096x256 .bf16) (x1 : Vec Ideal S256x256 .bf16) (x2 : Vec Ideal S1x256 .f32)
    (y : S4096x256.Idx) :
    Gen.k2_pay1 (F := Ideal) x0 x1 x2 y
      = (∑ k : Fin 256, x0 (ix2 (y 0) k) * x1 (ix2 (y 1) k)) + x2 (ix2 (0 : Fin 1) (y 1)) := by
  obtain ⟨p, q, rfl⟩ : ∃ (p : Fin 4096) (q : Fin 256), y = ix2 p q := ⟨y 0, y 1, eq_ix2 y⟩
  exact pay2_apply x0 x1 x2 p q

/-- The index maps over the grid: the row-blocked windows sit at block (t, 0), the matrix and the bias row at
    block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The context window's block at point t is rows 4096 t … 4096 t + 4095 of the context array. -/
theorem iblk2_0_apply (c : Dev nD) (t : Fin cfg2.N) (x : S4096x256.Idx) (i : S131072x256.Idx)
    (h0 : (i 0).val = 4096 * t.val + (x 0).val) (h1 : (i 1).val = (x 1).val) :
    (Hand.iblk2 V c 0 t : Vec Ideal S4096x256 .bf16) x = (V c main_v9 : S131072x256.Idx → EReal) i := by
  obtain ⟨e0, e1, -⟩ := idx_facts2 t
  unfold Hand.iblk2
  rw [View.read_apply]
  show V c main_v9 _ = V c main_v9 _
  congr 1
  funext a
  apply Fin.ext
  match a with
  | ⟨0, _⟩ => show win2_0.index t (0 : Fin 2) * 4096 + 1 * (x 0).val = (i 0).val; rw [e0, h0]; omega
  | ⟨1, _⟩ => show win2_0.index t (1 : Fin 2) * 256 + 1 * (x 1).val = (i 1).val; rw [e1, h1]; omega

/-- The matrix window's block at every point is the whole output matrix. -/
theorem iblk2_1_apply (c : Dev nD) (t : Fin cfg2.N) (x : S256x256.Idx) :
    (Hand.iblk2 V c 1 t : Vec Ideal S256x256 .bf16) x = (V c main_v1 : S256x256.Idx → EReal) x := by
  obtain ⟨-, -, e2, e3, -⟩ := idx_facts2 t
  unfold Hand.iblk2
  rw [View.read_apply]
  show V c main_v1 _ = V c main_v1 _
  congr 1
  funext a
  apply Fin.ext
  match a with
  | ⟨0, _⟩ => show win2_1.index t (0 : Fin 2) * 256 + 1 * (x 0).val = (x 0).val; rw [e2]; omega
  | ⟨1, _⟩ => show win2_1.index t (1 : Fin 2) * 256 + 1 * (x 1).val = (x 1).val; rw [e3]; omega

/-- The bias window's block at every point is the whole bias row. -/
theorem iblk2_2_apply (c : Dev nD) (t : Fin cfg2.N) (x : S1x256.Idx) :
    (Hand.iblk2 V c 2 t : Vec Ideal S1x256 .f32) x = (V c main_v2 : S1x256.Idx → EReal) x := by
  obtain ⟨-, -, -, -, e4, e5, -⟩ := idx_facts2 t
  unfold Hand.iblk2
  rw [View.read_apply]
  show V c main_v2 _ = V c main_v2 _
  congr 1
  funext a
  apply Fin.ext
  match a with
  | ⟨0, _⟩ => show win2_2.index t (0 : Fin 2) * 1 + 1 * (x 0).val = (x 0).val; rw [e4]; omega
  | ⟨1, _⟩ => show win2_2.index t (1 : Fin 2) * 256 + 1 * (x 1).val = (x 1).val; rw [e5]; omega

/-- What point t writes back is block t of that function of the arrays the region finds. -/
theorem flushed2_eq (c : Dev nD) (t : Fin cfg2.N) :
    (Hand.dat2 V c).flushed 3 t
      = ((cfg2.win 3).blk t).view.read (Elt Ideal) (G2 (V c main_v9) (V c main_v1) (V c main_v2)) := by
  show (cfg2.win 3).cut (grid2.coords t) ((Hand.dat2 V c).after 3 t) = _
  rw [Hand.after2_3]
  unfold Hand.out2_3
  rw [View.canon_unit_zero zero_offsets]
  simp only [View.ld_unit_zero (S := S4096x256) zero_offsets, View.ld_unit_zero (S := S256x256) zero_offsets,
    View.ld_unit_zero (S := S1x256) zero_offsets]
  obtain ⟨-, -, -, -, -, -, e6, e7⟩ := idx_facts2 t
  funext y
  refine (block2_apply _ _ _ y).trans ?_
  show _ = G2 (V c main_v9) (V c main_v1) (V c main_v2) (((cfg2.win 3).blk t).view.emb y)
  have hcol : (y 1).val = win2_3.index t (1 : Fin 2) * 256 + 1 * (y 1).val := by rw [e7]; omega
  refine congrArg₂ (· + ·) (Finset.sum_congr rfl fun k _ => ?_) ((iblk2_2_apply V c t _).trans (congrArg (V c main_v2) ?_))
  · refine congrArg₂ (· * ·) (iblk2_0_apply V c t _ _ ?_ rfl) ((iblk2_1_apply V c t _).trans (congrArg (V c main_v1) ?_))
    · show win2_3.index t (0 : Fin 2) * 4096 + 1 * (y 0).val = 4096 * t.val + (y 0).val
      rw [e6]; omega
    · funext a
      apply Fin.ext
      match a with
      | ⟨0, _⟩ => exact hcol
      | ⟨1, _⟩ => rfl
  · funext a
    apply Fin.ext
    match a with
    | ⟨0, _⟩ => rfl
    | ⟨1, _⟩ => exact hcol

/-- An index of the output array is in point t's block iff each coordinate is in the block's range on its axis. -/
theorem mem_blk2 (t : Fin cfg2.N) (i : S131072x256.Idx) :
    i ∈ ((cfg2.win 3).blk t).view.set ↔ ∀ a : Fin 2, win2_3.index t a * S4096x256.size a ≤ (i a).val
      ∧ (i a).val < win2_3.index t a * S4096x256.size a + S4096x256.size a := by
  show i ∈ ((View.whole main_v10).slice (win2_3.rect t)).set ↔ _
  rw [View.set_slice_whole, Rect.mem_set_unit]
  exact Iff.rfl

/-- Every index of the output array is in some point's block: row r is in the block of point r / 4096. -/
theorem cover2 (i : S131072x256.Idx) :
    ∃ t : Fin cfg2.N, (cfg2.win 3).flush t = true ∧ i ∈ ((cfg2.win 3).blk t).view.set := by
  have hN : grid2.N = 32 := Gen.N_2
  have hi0 : (i 0).val < 131072 := (i 0).isLt
  have hi1 : (i 1).val < 256 := (i 1).isLt
  have ht : (i 0).val / 4096 < cfg2.N := by show _ < grid2.N; rw [hN]; omega
  obtain ⟨-, -, -, -, -, -, e6, e7⟩ := idx_facts2 ⟨(i 0).val / 4096, ht⟩
  refine ⟨⟨(i 0).val / 4096, ht⟩, flush2_3 _, ?_⟩
  rw [mem_blk2]
  intro a
  match a with
  | ⟨0, _⟩ =>
    show win2_3.index ⟨(i 0).val / 4096, ht⟩ (0 : Fin 2) * 4096 ≤ (i 0).val
      ∧ (i 0).val < win2_3.index ⟨(i 0).val / 4096, ht⟩ (0 : Fin 2) * 4096 + 4096
    rw [e6]; show (i 0).val / 4096 * 4096 ≤ (i 0).val ∧ (i 0).val < (i 0).val / 4096 * 4096 + 4096; omega
  | ⟨1, _⟩ =>
    show win2_3.index ⟨(i 0).val / 4096, ht⟩ (1 : Fin 2) * 256 ≤ (i 1).val
      ∧ (i 1).val < win2_3.index ⟨(i 0).val / 4096, ht⟩ (1 : Fin 2) * 256 + 256
    rw [e7]; omega

/-- The third region's output array after the sweep: every row of the context array against every row of the output
    matrix, plus the bias row. -/
theorem final2 (c : Dev nD) :
    (Hand.dat2 V c).arrAt 3 cfg2.N = G2 (V c main_v9) (V c main_v1) (V c main_v2) :=
  (Hand.dat2 V c).arrAt_eq_of_cover 3 (G2 (V c main_v9) (V c main_v1) (V c main_v2)) (fun t _ => flushed2_eq V c t) cover2

end Cert.KernelIdeal.KV

end
-- ==== Proof.KI.KernelValue.lean ====
/-
  What the kernel program leaves in its result array, at the ideal instance, is the function of Spec.lean of its arguments.

  Between the three kernel calls the program only moves data: rows (n, l) of the input are numbered n * 512 + l; the 768
  projected features of a row are read as (query / key / value, head, coordinate) and the array is turned so that samples
  run along the attention axis; the contexts are turned back and laid out as 256 coordinates per row (j = h * 32 + d); the
  result rows are numbered back as (n, l).  Each of these is a reshape or a transpose, read here at explicit coordinates by
  comparing row-major positions.  With the three kernel calls' closed forms (a row against a row of a matrix, twice; the
  softmax-weighted sum of the values) the result array is then read off stage by stage: projection, turned projection,
  context, flattened context, output rows, output.
-/
import proofs.«120296_j28346784154102_2_alg».proof.Proof.KI.Run
import proofs.«120296_j28346784154102_2_alg».proof.Proof.KI.Final02
import proofs.«120296_j28346784154102_2_alg».proof.Proof.Spec
import Idealize.ShloMosaic.Lib.ValueIdx
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.StableHlo
  Idealize.ShloMosaic.ValueIdx

/-! ## Layout: the reshapes and transposes between the kernel calls, over any element type -/

section Layout

variable {α : Type}

/-- Row (n, l) of the input, numbered n * 512 + l among the 131072 rows. -/
abbrev row (n : Fin 256) (l : Fin 512) : Fin 131072 :=
  ⟨n.val * 512 + l.val, by have hn := n.isLt; have hl := l.isLt; omega⟩

/-- The input flattened to rows: row n * 512 + l is row (n, l). -/
theorem flat_x_at (x : S256x512x256.Idx → α) (n : Fin 256) (l : Fin 512) (k : Fin 256) :
    shapeCast S131072x256 x Gen.shapeCasts_S256x512x256_S131072x256 (ix2 (row n l) k) = x (ix3 n l k) :=
  shapeCast_apply x Gen.shapeCasts_S256x512x256_S131072x256 (ix2 (row n l) k) (ix3 n l k)
    (by rewrite [Shape.rowMajor_val_three, Shape.rowMajor_val_two]; rfl)

/-- The shift as one row of 256. -/
theorem flat_b_at (b : S256.Idx → α) (e : Fin 256) :
    shapeCast S1x256 b Gen.shapeCasts_S256_S1x256 (ix2 (0 : Fin 1) e) = b (ix1 e) :=
  shapeCast_apply b Gen.shapeCasts_S256_S1x256 (ix2 (0 : Fin 1) e) (ix1 e)
    (by rewrite [Shape.rowMajor_val_one, Shape.rowMajor_val_two]; show e.val = 0 * 256 + e.val; omega)

/-- The projected rows read as (s, h, l, n, d): feature s * 256 + h * 32 + d of row (n, l). -/
theorem qkv_at (y : S131072x768.Idx → α) (s : Fin 3) (h : Fin 8) (l : Fin 512) (n : Fin 256) (d : Fin 32) :
    transpose S3x8x512x256x32 [2, 3, 1, 0, 4] (shapeCast S256x512x3x8x32 y Gen.shapeCasts_S131072x768_S256x512x3x8x32)
        Gen.transposes_S256x512x3x8x32_S3x8x512x256x32_2_3_1_0_4 (ix5 s h l n d)
      = y (ix2 (row n l) (Attn.feat s h d)) := by
  refine (transpose_apply [2, 3, 1, 0, 4] _ Gen.transposes_S256x512x3x8x32_S3x8x512x256x32_2_3_1_0_4 (ix5 s h l n d)
    (ix5 n l s h d) (fun b => match b with
      | ⟨0, _⟩ => rfl
      | ⟨1, _⟩ => rfl
      | ⟨2, _⟩ => rfl
      | ⟨3, _⟩ => rfl
      | ⟨4, _⟩ => rfl)).trans ?_
  refine shapeCast_apply y Gen.shapeCasts_S131072x768_S256x512x3x8x32 (ix5 n l s h d) (ix2 (row n l) (Attn.feat s h d)) ?_
  rewrite [Shape.rowMajor_val_two, Shape.rowMajor_val_five]
  have hn := n.isLt; have hl := l.isLt; have hs := s.isLt; have hh := h.isLt; have hd := d.isLt
  show (n.val * 512 + l.val) * 768 + (s.val * 256 + h.val * 32 + d.val)
    = (((n.val * 512 + l.val) * 3 + s.val) * 8 + h.val) * 32 + d.val
  omega

/-- The contexts turned back and flattened: coordinate j of row (n, l) is coordinate j % 32 of head j / 32. -/
theorem ctx_flat_at (z : S8x512x256x32.Idx → α) (n : Fin 256) (l : Fin 512) (j : Fin 256) :
    shapeCast S131072x256 (transpose S256x512x8x32 [2, 1, 0, 3] z Gen.transposes_S8x512x256x32_S256x512x8x32_2_1_0_3)
        Gen.shapeCasts_S256x512x8x32_S131072x256 (ix2 (row n l) j)
      = z (ix4 (Attn.headOf j) l n (Attn.inHead j)) := by
  refine (shapeCast_apply _ Gen.shapeCasts_S256x512x8x32_S131072x256 (ix2 (row n l) j)
    (ix4 n l (Attn.headOf j) (Attn.inHead j)) ?_).trans ?_
  · rewrite [Shape.rowMajor_val_four, Shape.rowMajor_val_two]
    have hn := n.isLt; have hl := l.isLt; have hj := j.isLt
    show ((n.val * 512 + l.val) * 8 + j.val / 32) * 32 + j.val % 32 = (n.val * 512 + l.val) * 256 + j.val
    omega
  · exact transpose_apply [2, 1, 0, 3] z Gen.transposes_S8x512x256x32_S256x512x8x32_2_1_0_3
      (ix4 n l (Attn.headOf j) (Attn.inHead j)) (ix4 (Attn.headOf j) l n (Attn.inHead j)) (fun b => match b with
        | ⟨0, _⟩ => rfl
        | ⟨1, _⟩ => rfl
        | ⟨2, _⟩ => rfl
        | ⟨3, _⟩ => rfl)

/-- The result rows numbered back: element (n, l, e) is element e of row n * 512 + l. -/
theorem unflat_at (o : S131072x256.Idx → α) (n : Fin 256) (l : Fin 512) (e : Fin 256) :
    shapeCast S256x512x256 o Gen.shapeCasts_S131072x256_S256x512x256 (ix3 n l e) = o (ix2 (row n l) e) :=
  shapeCast_apply o Gen.shapeCasts_S131072x256_S256x512x256 (ix3 n l e) (ix2 (row n l) e)
    (by rewrite [Shape.rowMajor_val_two, Shape.rowMajor_val_three]; rfl)

end Layout

/-! ## The attention call's closed form, and what it is of projections -/

/-- The score of samples (n, m) at head h and position l, read off the turned projections q6. -/
abbrev S1 (q6 : S3x8x512x256x32.Idx → EReal) (bias : S256x256.Idx → EReal) (h : Fin 8) (l : Fin 512) (n m : Fin 256) : EReal :=
  (∑ dd : Fin 32, q6 (ix5 0 h l n dd) * q6 (ix5 1 h l m dd)) * Ideal.ofBits .f32 0x3E3504F3#32 + bias (ix2 n m)

/-- The largest score of row n: the fold of max from minus infinity, met with minus infinity once more. -/
abbrev M1 (q6 : S3x8x512x256x32.Idx → EReal) (bias : S256x256.Idx → EReal) (h : Fin 8) (l : Fin 512) (n : Fin 256) : EReal :=
  max (Ideal.ofBits .f32 0xFF800000#32)
    ((Finset.univ : Finset (Fin 256)).fold max (Ideal.ofBits .f32 0xFF800000#32) fun m => S1 q6 bias h l n m)

/-- Coordinate d of sample n's context: the softmax-weighted sum over the samples m of m's values. -/
abbrev G1at (q6 : S3x8x512x256x32.Idx → EReal) (bias : S256x256.Idx → EReal) (h : Fin 8) (l : Fin 512) (n : Fin 256)
    (d : Fin 32) : EReal :=
  ∑ m : Fin 256, Ideal.div (Ideal.exp (S1 q6 bias h l n m - M1 q6 bias h l n))
      (∑ m' : Fin 256, Ideal.exp (S1 q6 bias h l n m' - M1 q6 bias h l n)) * q6 (ix5 2 h l m d)

/-- What the attention call's output array ends holding, as a function of the turned projections and the bias. -/
abbrev G1 (q6 : S3x8x512x256x32.Idx → EReal) (bias : S256x256.Idx → EReal) : S8x512x256x32.Idx → EReal := fun i =>
  G1at q6 bias (i 0) (i 1) (i 2) (i 3)

/-- When q6 holds the projections, laid out as (query / key / value, head, position, sample, coordinate), the closed
    form is Spec.lean's context, term for term. -/
theorem G1at_proj (x : Attn.SX.Idx → EReal) (bias : Attn.SBias.Idx → EReal) (wqkv : Attn.SWqkv.Idx → EReal)
    (q6 : S3x8x512x256x32.Idx → EReal)
    (hq : ∀ (s : Fin 3) (h : Fin 8) (l : Fin 512) (n : Fin 256) (d : Fin 32),
      q6 (ix5 s h l n d) = Attn.proj x wqkv n l (Attn.feat s h d))
    (h : Fin 8) (l : Fin 512) (n : Fin 256) (d : Fin 32) :
    G1at q6 bias h l n d = Attn.ctx x bias wqkv h l n d := by
  simp only [G1at, S1, M1, hq, Attn.ctx, Attn.attn, Attn.denom, Attn.expo, Attn.rowMax, Attn.score]

/-! ## The host stretches, read back -/

section Compose

variable (m : (ℓ : Loc nD τ sig) → Buf (Elt Ideal) ℓ) (ρ : Dev nD → PrngReg) (c : Dev nD)

/-- After the first stretch the flattened input holds row (n, l) at row n * 512 + l. -/
theorem W1_v3_at (n : Fin 256) (l : Fin 512) (k : Fin 256) :
    (Hand.W1 (F := Ideal) m ρ c main_v3 : S131072x256.Idx → EReal) (ix2 (row n l) k)
      = (m ((c : Thread nD τ).loc main_arg0) : S256x512x256.Idx → EReal) (ix3 n l k) := by
  have e : (Hand.W1 (F := Ideal) m ρ c main_v3 : S131072x256.Idx → EReal)
      = shapeCast S131072x256 (m ((c : Thread nD τ).loc main_arg0)) Gen.shapeCasts_S256x512x256_S131072x256 := by
    show StableHlo.after hostOps0 _ (Proc.devRef .tc main_v3) = _
    after_results
    rfl
  rw [e]
  exact flat_x_at _ n l k

/-- The narrowed projection matrix is the matrix: a change of format is the identity on extended reals. -/
theorem W1_v0_at (e : Fin 768) (k : Fin 256) :
    (Hand.W1 (F := Ideal) m ρ c main_v0 : S768x256.Idx → EReal) (ix2 e k)
      = (m ((c : Thread nD τ).loc main_arg2) : S768x256.Idx → EReal) (ix2 e k) := by
  have e0 : (Hand.W1 (F := Ideal) m ρ c main_v0 : S768x256.Idx → EReal)
      = (m ((c : Thread nD τ).loc main_arg2) : S768x256.Idx → EReal) := by
    show StableHlo.after hostOps0 _ (Proc.devRef .tc main_v0) = _
    after_results
    rfl
  rw [e0]

/-- The narrowed output matrix is the matrix. -/
theorem W1_v1_at (e : Fin 256) (k : Fin 256) :
    (Hand.W1 (F := Ideal) m ρ c main_v1 : S256x256.Idx → EReal) (ix2 e k)
      = (m ((c : Thread nD τ).loc main_arg3) : S256x256.Idx → EReal) (ix2 e k) := by
  have e0 : (Hand.W1 (F := Ideal) m ρ c main_v1 : S256x256.Idx → EReal)
      = (m ((c : Thread nD τ).loc main_arg3) : S256x256.Idx → EReal) := by
    show StableHlo.after hostOps0 _ (Proc.devRef .tc main_v1) = _
    after_results
    rfl
  rw [e0]

/-- The shift as one row. -/
theorem W1_v2_at (e : Fin 256) :
    (Hand.W1 (F := Ideal) m ρ c main_v2 : S1x256.Idx → EReal) (ix2 (0 : Fin 1) e)
      = (m ((c : Thread nD τ).loc main_arg4) : S256.Idx → EReal) (ix1 e) := by
  have e0 : (Hand.W1 (F := Ideal) m ρ c main_v2 : S1x256.Idx → EReal)
      = shapeCast S1x256 (m ((c : Thread nD τ).loc main_arg4)) Gen.shapeCasts_S256_S1x256 := by
    show StableHlo.after hostOps0 _ (Proc.devRef .tc main_v2) = _
    after_results
    rfl
  rw [e0]
  exact flat_b_at _ e

/-! ## Stage by stage -/

/-- The first call's output: feature e of row (n, l), at row n * 512 + l. -/
theorem W2_v4_at (n : Fin 256) (l : Fin 512) (e : Fin 768) :
    (Hand.W2 (F := Ideal) m ρ c main_v4 : S131072x768.Idx → EReal) (ix2 (row n l) e)
      = Attn.proj (m ((c : Thread nD τ).loc main_arg0)) (m ((c : Thread nD τ).loc main_arg2)) n l e := by
  rw [Hand.W2_self, final0 (Hand.V1 (F := Ideal) m ρ) c]
  show G0 (Hand.V1 (F := Ideal) m ρ c main_v3) (Hand.V1 (F := Ideal) m ρ c main_v0) (ix2 (row n l) e) = _
  unfold Attn.proj
  refine Finset.sum_congr rfl fun k _ => ?_
  exact congrArg₂ (· * ·) (W1_v3_at m ρ c n l k) (W1_v0_at m ρ c e k)

/-- The turned projections: (s, h, l, n, d) holds feature s * 256 + h * 32 + d of row (n, l). -/
theorem W3_v6_at (s : Fin 3) (h : Fin 8) (l : Fin 512) (n : Fin 256) (d : Fin 32) :
    (Hand.W3 (F := Ideal) m ρ c main_v6 : S3x8x512x256x32.Idx → EReal) (ix5 s h l n d)
      = Attn.proj (m ((c : Thread nD τ).loc main_arg0)) (m ((c : Thread nD τ).loc main_arg2)) n l (Attn.feat s h d) := by
  have e : (Hand.W3 (F := Ideal) m ρ c main_v6 : S3x8x512x256x32.Idx → EReal)
      = transpose S3x8x512x256x32 [2, 3, 1, 0, 4]
          (shapeCast S256x512x3x8x32 (Hand.W2 (F := Ideal) m ρ c main_v4 : S131072x768.Idx → EReal)
            Gen.shapeCasts_S131072x768_S256x512x3x8x32)
          Gen.transposes_S256x512x3x8x32_S3x8x512x256x32_2_3_1_0_4 := by
    show StableHlo.after hostOps1 _ (Proc.devRef .tc main_v6) = _
    after_results
    rfl
  rw [e, qkv_at]
  exact W2_v4_at m ρ c n l (Attn.feat s h d)

/-- The bias is as launched when the attention call starts. -/
theorem W3_arg1 : Hand.W3 (F := Ideal) m ρ c main_arg1 = m ((c : Thread nD τ).loc main_arg1) :=
  (Hand.after1_keep _ main_arg1 (by decide) (by decide)).trans
    ((Hand.W2_of_ne m ρ c main_arg1 (by decide)).trans
      (Hand.after0_keep _ main_arg1 (by decide) (by decide) (by decide) (by decide)))

/-- The attention call's output: the contexts. -/
theorem W4_v7_at
    (hfinal1 : ∀ (V : (c : Dev nD) → (b : Ref sig .tc) → Buf (Elt Ideal) ((c : Thread nD τ).loc b)) (c : Dev nD),
      (Hand.dat1 (F := Ideal) V c).arrAt 4 cfg1.N = G1 (V c main_v6) (V c main_arg1))
    (h : Fin 8) (l : Fin 512) (n : Fin 256) (d : Fin 32) :
    (Hand.W4 (F := Ideal) m ρ c main_v7 : S8x512x256x32.Idx → EReal) (ix4 h l n d)
      = Attn.ctx (m ((c : Thread nD τ).loc main_arg0)) (m ((c : Thread nD τ).loc main_arg1)) (m ((c : Thread nD τ).loc main_arg2)) h l n d := by
  rw [Hand.W4_self, hfinal1 (Hand.V3 (F := Ideal) m ρ) c]
  show G1at (Hand.W3 (F := Ideal) m ρ c main_v6) (Hand.W3 (F := Ideal) m ρ c main_arg1) h l n d = _
  rw [W3_arg1]
  exact G1at_proj _ _ _ _ (fun s h l n d => W3_v6_at m ρ c s h l n d) h l n d

/-- The flattened contexts: coordinate j of row (n, l). -/
theorem W5_v9_at
    (hfinal1 : ∀ (V : (c : Dev nD) → (b : Ref sig .tc) → Buf (Elt Ideal) ((c : Thread nD τ).loc b)) (c : Dev nD),
      (Hand.dat1 (F := Ideal) V c).arrAt 4 cfg1.N = G1 (V c main_v6) (V c main_arg1))
    (n : Fin 256) (l : Fin 512) (j : Fin 256) :
    (Hand.W5 (F := Ideal) m ρ c main_v9 : S131072x256.Idx → EReal) (ix2 (row n l) j)
      = Attn.ctx (m ((c : Thread nD τ).loc main_arg0)) (m ((c : Thread nD τ).loc main_arg1)) (m ((c : Thread nD τ).loc main_arg2)) (Attn.headOf j) l n (Attn.inHead j) := by
  have e : (Hand.W5 (F := Ideal) m ρ c main_v9 : S131072x256.Idx → EReal)
      = shapeCast S131072x256
          (transpose S256x512x8x32 [2, 1, 0, 3] (Hand.W4 (F := Ideal) m ρ c main_v7 : S8x512x256x32.Idx → EReal)
            Gen.transposes_S8x512x256x32_S256x512x8x32_2_1_0_3)
          Gen.shapeCasts_S256x512x8x32_S131072x256 := by
    show StableHlo.after hostOps2 _ (Proc.devRef .tc main_v9) = _
    after_results
    rfl
  rw [e, ctx_flat_at]
  exact W4_v7_at m ρ c hfinal1 (Attn.headOf j) l n (Attn.inHead j)

/-- The output matrix is still the matrix when the last call starts. -/
theorem W5_v1_at (e k : Fin 256) :
    (Hand.W5 (F := Ideal) m ρ c main_v1 : S256x256.Idx → EReal) (ix2 e k)
      = ((m ((c : Thread nD τ).loc main_arg3)) : S256x256.Idx → EReal) (ix2 e k) := by
  have e0 : Hand.W5 (F := Ideal) m ρ c main_v1 = Hand.W1 (F := Ideal) m ρ c main_v1 :=
    (Hand.after2_keep _ main_v1 (by decide) (by decide)).trans
      ((Hand.W4_of_ne m ρ c main_v1 (by decide)).trans
        ((Hand.after1_keep _ main_v1 (by decide) (by decide)).trans (Hand.W2_of_ne m ρ c main_v1 (by decide))))
  rw [e0]
  exact W1_v1_at m ρ c e k

/-- So is the shift's row. -/
theorem W5_v2_at (e : Fin 256) :
    (Hand.W5 (F := Ideal) m ρ c main_v2 : S1x256.Idx → EReal) (ix2 (0 : Fin 1) e)
      = ((m ((c : Thread nD τ).loc main_arg4)) : S256.Idx → EReal) (ix1 e) := by
  have e0 : Hand.W5 (F := Ideal) m ρ c main_v2 = Hand.W1 (F := Ideal) m ρ c main_v2 :=
    (Hand.after2_keep _ main_v2 (by decide) (by decide)).trans
      ((Hand.W4_of_ne m ρ c main_v2 (by decide)).trans
        ((Hand.after1_keep _ main_v2 (by decide) (by decide)).trans (Hand.W2_of_ne m ρ c main_v2 (by decide))))
  rw [e0]
  exact W1_v2_at m ρ c e

/-- The last call's output: output feature e of row (n, l), at row n * 512 + l. -/
theorem W6_v10_at
    (hfinal1 : ∀ (V : (c : Dev nD) → (b : Ref sig .tc) → Buf (Elt Ideal) ((c : Thread nD τ).loc b)) (c : Dev nD),
      (Hand.dat1 (F := Ideal) V c).arrAt 4 cfg1.N = G1 (V c main_v6) (V c main_arg1))
    (n : Fin 256) (l : Fin 512) (e : Fin 256) :
    (Hand.W6 (F := Ideal) m ρ c main_v10 : S131072x256.Idx → EReal) (ix2 (row n l) e)
      = Attn.out (m ((c : Thread nD τ).loc main_arg0)) (m ((c : Thread nD τ).loc main_arg1)) (m ((c : Thread nD τ).loc main_arg2)) (m ((c : Thread nD τ).loc main_arg3)) (m ((c : Thread nD τ).loc main_arg4)) n l e := by
  rw [Hand.W6_self, final2 (Hand.V5 (F := Ideal) m ρ) c]
  unfold Attn.out
  refine congrArg₂ (· + ·) (Finset.sum_congr rfl fun j _ => ?_) (W5_v2_at m ρ c e)
  exact congrArg₂ (· * ·) (W5_v9_at m ρ c hfinal1 n l j) (W5_v1_at m ρ c e j)

end Compose

/-- What the kernel program leaves in its result array is the function of Spec.lean of the launch arguments. -/
theorem kernel_is_G
    (hfinal1 : ∀ (V : (c : Dev nD) → (b : Ref sig .tc) → Buf (Elt Ideal) ((c : Thread nD τ).loc b)) (c : Dev nD),
      (Hand.dat1 (F := Ideal) V c).arrAt 4 cfg1.N = G1 (V c main_v6) (V c main_arg1))
    (m : (ℓ : Loc nD τ sig) → Buf (Elt Ideal) ℓ) (ρ : Dev nD → PrngReg) (c : Dev nD) :
    Hand.W7 (F := Ideal) m ρ c main_v11
      = Cert.Attn.G (m ((c : Thread nD τ).loc main_arg0)) (m ((c : Thread nD τ).loc main_arg1))
          (m ((c : Thread nD τ).loc main_arg2)) (m ((c : Thread nD τ).loc main_arg3)) (m ((c : Thread nD τ).loc main_arg4)) := by
  have e : (Hand.W7 (F := Ideal) m ρ c main_v11 : S256x512x256.Idx → EReal)
      = shapeCast S256x512x256 (Hand.W6 (F := Ideal) m ρ c main_v10 : S131072x256.Idx → EReal)
          Gen.shapeCasts_S131072x256_S256x512x256 := by
    show StableHlo.after hostOps3 _ (Proc.devRef .tc main_v11) = _
    after_results
    rfl
  refine e.trans (funext fun i => ?_)
  obtain ⟨n, l, e', rfl⟩ : ∃ (n : Fin 256) (l : Fin 512) (e' : Fin 256), i = ix3 n l e' := ⟨i 0, i 1, i 2, eq_ix3 i⟩
  rw [unflat_at]
  exact W6_v10_at m ρ c hfinal1 n l e'

end Cert.KernelIdeal.KV

end
-- ==== Proof.lean ====
/-
  Every claim of the certificate, assembled.

  The three programs: the kernel as printed (read at the word level), the same text read at the ideal instance (floats
  are extended reals, every operation exact, a change of float format the identity), and the jnp reference at the ideal
  instance. The kernel is three pipelined regions between short stretches of host operations: a projection of every
  row of the input to 768 features; attention over the SAMPLE axis per head and position, a loop over 32 positions inside
  each grid point; and the output projection with its bias.

  Frames. The kernel's two readings share one proof, written once over the float instance: @main is cut into seven items,
  each region is entered and left through the pipeline's rule with the body's triple at every grid point, and at the end
  every unscoped buffer is read off a chain of contents in which no item touches an argument. The reference has no kernel:
  its frame is its run with the result dropped.

  Values. The ideal pass rewrote nothing, so the kernel's idealization is its own text. At the ideal instance both
  programs compute ONE function of the five arguments, stated once over extended reals: the reference's run is read one
  operation at a time to that function; the kernel's last contents are read region by region (each region's blocks are
  restrictions of one whole-array function: a product of matrices, the attention of the projected rows, a product plus a
  bias row) and through the reshapes and transposes between them to the same function. The two sides differ only in how
  the same sums are laid out, so no law of the extended reals beyond index bookkeeping is used, and the precondition
  (finite inputs) is never opened.
-/
import proofs.«120296_j28346784154102_2_alg».proof.Defs
import proofs.«120296_j28346784154102_2_alg».proof.Proof.Gen.Kernel
import proofs.«120296_j28346784154102_2_alg».proof.Proof.Gen.Kernel.Skeleton
import proofs.«120296_j28346784154102_2_alg».proof.Proof.Gen.Kernel.Loops
import proofs.«120296_j28346784154102_2_alg».proof.Proof.Gen.Kernel.Launch
import proofs.«120296_j28346784154102_2_alg».proof.Proof.Gen.Kernel.Regions
import proofs.«120296_j28346784154102_2_alg».proof.Proof.Gen.Kernel.Points
import proofs.«120296_j28346784154102_2_alg».proof.Proof.Gen.KernelIdeal
import proofs.«120296_j28346784154102_2_alg».proof.Proof.Gen.KernelIdeal.Skeleton
import proofs.«120296_j28346784154102_2_alg».proof.Proof.Gen.KernelIdeal.Loops
import proofs.«120296_j28346784154102_2_alg».proof.Proof.Gen.KernelIdeal.Launch
import proofs.«120296_j28346784154102_2_alg».proof.Proof.Gen.KernelIdeal.Regions
import proofs.«120296_j28346784154102_2_alg».proof.Proof.Gen.KernelIdeal.Points
import proofs.«120296_j28346784154102_2_alg».proof.Proof.Gen.ReferenceIdeal
import proofs.«120296_j28346784154102_2_alg».proof.Proof.Gen.ReferenceIdeal.Run
import proofs.«120296_j28346784154102_2_alg».proof.Proof.Gen.ReferenceIdeal.Read
import proofs.«120296_j28346784154102_2_alg».proof.Proof.Gen.Pre_finite_inputs
import proofs.«120296_j28346784154102_2_alg».proof.Proof.K.Run
import proofs.«120296_j28346784154102_2_alg».proof.Proof.KI.Run
import proofs.«120296_j28346784154102_2_alg».proof.Proof.RefValue
import proofs.«120296_j28346784154102_2_alg».proof.Proof.KI.Final1
import proofs.«120296_j28346784154102_2_alg».proof.Proof.KI.KernelValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as launched. -/
theorem frame_kernel : Cert.frame_Kernel := fun m ρ _ => Cert.Kernel.Hand.frame m ρ

/-- So does the same text read at the ideal instance. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to state. -/
theorem preserves : Cert.preserves_Kernel_KernelIdeal := trivial

/-- From memories agreeing on the arguments both idealized programs run to the end with ONE result: the kernel's last
    contents and the reference's composed term are the same function of the arguments. -/
theorem algebraic : Cert.algebraic_KernelIdeal_ReferenceIdeal := by
  intro m ρ m' ρ' _ hagree
  refine ⟨fun c => Cert.KernelIdeal.Hand.W7 (F := Ideal) m ρ c Cert.KernelIdeal.main_v11,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefSide.ref_is_G, (hagree c).1, (hagree c).2.1, (hagree c).2.2.1,
    (hagree c).2.2.2.1, (hagree c).2.2.2.2]
  exact (Cert.KernelIdeal.KV.kernel_is_G (fun V c => (Cert.KernelIdeal.KV.final1 V c).trans rfl) m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
